-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  IdealRules.sign_bit.Statement Cert.KernelIdeal.S1600x1 .f32
  ∧ IdealRules.sign_bit.Statement Cert.KernelIdeal.S1600x1 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v51)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v120) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4 : Shape := ⟨2, ![50000, 4]⟩
abbrev S50000x96 : Shape := ⟨2, ![50000, 96]⟩
abbrev S800000 : Shape := ⟨1, ![800000]⟩
abbrev S194x96 : Shape := ⟨2, ![194, 96]⟩
abbrev S96 : Shape := ⟨1, ![96]⟩
abbrev S96x96 : Shape := ⟨2, ![96, 96]⟩
abbrev S96x1 : Shape := ⟨2, ![96, 1]⟩
abbrev S1 : Shape := ⟨1, ![1]⟩
abbrev S192x96 : Shape := ⟨2, ![192, 96]⟩
abbrev S_ : Shape := ⟨0, ![]⟩

class Facts : Prop where
  bcast_S_S50000x4 : S_.BroadcastsInDim S50000x4 (![] : Fin 0 → Fin S50000x4.rank)
  reducesTo_S50000x4_S_d0_1 : S50000x4.ReducesTo [0, 1] S_
  h_S_ : 0 < S_.numel
  bcast_S_S50000x96 : S_.BroadcastsInDim S50000x96 (![] : Fin 0 → Fin S50000x96.rank)
  reducesTo_S50000x96_S_d0_1 : S50000x96.ReducesTo [0, 1] S_
  bcast_S_S194x96 : S_.BroadcastsInDim S194x96 (![] : Fin 0 → Fin S194x96.rank)
  reducesTo_S194x96_S_d0_1 : S194x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x1 : S_.BroadcastsInDim S96x1 (![] : Fin 0 → Fin S96x1.rank)
  reducesTo_S96x1_S_d0_1 : S96x1.ReducesTo [0, 1] S_
  bcast_S_S1 : S_.BroadcastsInDim S1 (![] : Fin 0 → Fin S1.rank)
  reducesTo_S1_S_d0 : S1.ReducesTo [0] S_
  bcast_S_S192x96 : S_.BroadcastsInDim S192x96 (![] : Fin 0 → Fin S192x96.rank)
  reducesTo_S192x96_S_d0_1 : S192x96.ReducesTo [0, 1] S_

variable [Facts]

def fn_part4 {F : FTy → Type} [FloatOps F] (main_arg16 : FVec F S96x1 .f32) (main_v63 : IVec S_ 1) (main_v67 : IVec S_ 1) : IVec S_ 1 :=
  let main_v68 : IVec S_ 1 := andi main_v63 main_v67
  let main_v69 : FVec F S96x1 .f32 := Host.absf main_arg16
  let main_cst_26 : FVec F S_ .f32 := constant S_ .f32 0x7F800000#32
  let main_v70 : FVec F S96x1 .f32 := broadcastInDim S96x1 ![] bcast_S_S96x1 main_cst_26
  let main_v71 : IVec S96x1 1 := cmpf .olt main_v69 main_v70
  let main_c_27 : IVec S_ 1 := constantI S_ 1 1#1
  let main_v72 : IVec S_ 1 := (fun x v => Host.reduce IntOp.andi x v reducesTo_S96x1_S_d0_1 h_S_) main_v71 main_c_27
  let main_v73 : IVec S_ 1 := andi main_v68 main_v72
  main_v73

def fn_part3 {F : FTy → Type} [FloatOps F] (main_arg13 : FVec F S96 .f32) (main_arg14 : FVec F S96x96 .f32) (main_arg15 : FVec F S96 .f32) (main_arg16 : FVec F S96x1 .f32) (main_v48 : IVec S_ 1) (main_v49 : FVec F S96x96 .f32) (main_v50 : FVec F S96x96 .f32) : IVec S_ 1 :=
  let main_v51 : IVec S96x96 1 := cmpf .olt main_v49 main_v50
  let main_c_19 : IVec S_ 1 := constantI S_ 1 1#1
  let main_v52 : IVec S_ 1 := (fun x v => Host.reduce IntOp.andi x v reducesTo_S96x96_S_d0_1 h_S_) main_v51 main_c_19
  let main_v53 : IVec S_ 1 := andi main_v48 main_v52
  let main_v54 : FVec F S96 .f32 := Host.absf main_arg13
  let main_cst_20 : FVec F S_ .f32 := constant S_ .f32 0x7F800000#32
  let main_v55 : FVec F S96 .f32 := broadcastInDim S96 ![] bcast_S_S96 main_cst_20
  let main_v56 : IVec S96 1 := cmpf .olt main_v54 main_v55
  let main_c_21 : IVec S_ 1 := constantI S_ 1 1#1
  let main_v57 : IVec S_ 1 := (fun x v => Host.reduce IntOp.andi x v reducesTo_S96_S_d0 h_S_) main_v56 main_c_21
  let main_v58 : IVec S_ 1 := andi main_v53 main_v57
  let main_v59 : FVec F S96x96 .f32 := Host.absf main_arg14
  let main_cst_22 : FVec F S_ .f32 := constant S_ .f32 0x7F800000#32
  let main_v60 : FVec F S96x96 .f32 := broadcastInDim S96x96 ![] bcast_S_S96x96 main_cst_22
  let main_v61 : IVec S96x96 1 := cmpf .olt main_v59 main_v60
  let main_c_23 : IVec S_ 1 := constantI S_ 1 1#1
  let main_v62 : IVec S_ 1 := (fun x v => Host.reduce IntOp.andi x v reducesTo_S96x96_S_d0_1 h_S_) main_v61 main_c_23
  let main_v63 : IVec S_ 1 := andi main_v58 main_v62
  let main_v64 : FVec F S96 .f32 := Host.absf main_arg15
  let main_cst_24 : FVec F S_ .f32 := constant S_ .f32 0x7F800000#32
  let main_v65 : FVec F S96 .f32 := broadcastInDim S96 ![] bcast_S_S96 main_cst_24
  let main_v66 : IVec S96 1 := cmpf .olt main_v64 main_v65
  let main_c_25 : IVec S_ 1 := constantI S_ 1 1#1
  let main_v67 : IVec S_ 1 := (fun x v => Host.reduce IntOp.andi x v reducesTo_S96_S_d0 h_S_) main_v66 main_c_25
  fn_part4 (F := F) main_arg16 main_v63 main_v67

def fn_part2 {F : FTy → Type} [FloatOps F] (main_arg9 : FVec F S1 .f32) (main_arg10 : FVec F S192x96 .f32) (main_arg11 : FVec F S96 .f32) (main_arg12 : FVec F S96x96 .f32) (main_arg13 : FVec F S96 .f32) (main_arg14 : FVec F S96x96 .f32) (main_arg15 : FVec F S96 .f32) (main_arg16 : FVec F S96x1 .f32) (main_v33 : IVec S_ 1) : IVec S_ 1 :=
  let main_v34 : FVec F S1 .f32 := Host.absf main_arg9
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S192x96 .f32 := Host.absf main_arg10
  let main_cst_14 : FVec F S_ .f32 := constant S_ .f32 0x7F800000#32
  let main_v40 : FVec F S192x96 .f32 := broadcastInDim S192x96 ![] bcast_S_S192x96 main_cst_14
  let main_v41 : IVec S192x96 1 := cmpf .olt main_v39 main_v40
  let main_c_15 : IVec S_ 1 := constantI S_ 1 1#1
  let main_v42 : IVec S_ 1 := (fun x v => Host.reduce IntOp.andi x v reducesTo_S192x96_S_d0_1 h_S_) main_v41 main_c_15
  let main_v43 : IVec S_ 1 := andi main_v38 main_v42
  let main_v44 : FVec F S96 .f32 := Host.absf main_arg11
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_v49 : FVec F S96x96 .f32 := Host.absf main_arg12
  let main_cst_18 : FVec F S_ .f32 := constant S_ .f32 0x7F800000#32
  let main_v50 : FVec F S96x96 .f32 := broadcastInDim S96x96 ![] bcast_S_S96x96 main_cst_18
  fn_part3 (F := F) main_arg13 main_arg14 main_arg15 main_arg16 main_v48 main_v49 main_v50

def fn_part1 {F : FTy → Type} [FloatOps F] (main_arg6 : FVec F S96x96 .f32) (main_arg7 : FVec F S96 .f32) (main_arg8 : FVec F S96x1 .f32) (main_arg9 : FVec F S1 .f32) (main_arg10 : FVec F S192x96 .f32) (main_arg11 : FVec F S96 .f32) (main_arg12 : FVec F S96x96 .f32) (main_arg13 : FVec F S96 .f32) (main_arg14 : FVec F S96x96 .f32) (main_arg15 : FVec F S96 .f32) (main_arg16 : FVec F S96x1 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg6
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg7
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96x1 .f32 := Host.absf main_arg8
  let main_cst_10 : FVec F S_ .f32 := constant S_ .f32 0x7F800000#32
  let main_v30 : FVec F S96x1 .f32 := broadcastInDim S96x1 ![] bcast_S_S96x1 main_cst_10
  let main_v31 : IVec S96x1 1 := cmpf .olt main_v29 main_v30
  let main_c_11 : IVec S_ 1 := constantI S_ 1 1#1
  let main_v32 : IVec S_ 1 := (fun x v => Host.reduce IntOp.andi x v reducesTo_S96x1_S_d0_1 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S50000x4 .f32) (main_arg1 : FVec F S50000x96 .f32) (main_arg2 : IVec S800000 32) (main_arg3 : IVec S800000 32) (main_arg4 : FVec F S194x96 .f32) (main_arg5 : FVec F S96 .f32) (main_arg6 : FVec F S96x96 .f32) (main_arg7 : FVec F S96 .f32) (main_arg8 : FVec F S96x1 .f32) (main_arg9 : FVec F S1 .f32) (main_arg10 : FVec F S192x96 .f32) (main_arg11 : FVec F S96 .f32) (main_arg12 : FVec F S96x96 .f32) (main_arg13 : FVec F S96 .f32) (main_arg14 : FVec F S96x96 .f32) (main_arg15 : FVec F S96 .f32) (main_arg16 : FVec F S96x1 .f32) : IVec S_ 1 :=
  let main_v0 : FVec F S50000x4 .f32 := Host.absf main_arg0
  let main_cst : FVec F S_ .f32 := constant S_ .f32 0x7F800000#32
  let main_v1 : FVec F S50000x4 .f32 := broadcastInDim S50000x4 ![] bcast_S_S50000x4 main_cst
  let main_v2 : IVec S50000x4 1 := cmpf .olt main_v0 main_v1
  let main_c : IVec S_ 1 := constantI S_ 1 1#1
  let main_v3 : IVec S_ 1 := (fun x v => Host.reduce IntOp.andi x v reducesTo_S50000x4_S_d0_1 h_S_) main_v2 main_c
  let main_v4 : FVec F S50000x96 .f32 := Host.absf main_arg1
  let main_cst_0 : FVec F S_ .f32 := constant S_ .f32 0x7F800000#32
  let main_v5 : FVec F S50000x96 .f32 := broadcastInDim S50000x96 ![] bcast_S_S50000x96 main_cst_0
  let main_v6 : IVec S50000x96 1 := cmpf .olt main_v4 main_v5
  let main_c_1 : IVec S_ 1 := constantI S_ 1 1#1
  let main_v7 : IVec S_ 1 := (fun x v => Host.reduce IntOp.andi x v reducesTo_S50000x96_S_d0_1 h_S_) main_v6 main_c_1
  let main_v8 : IVec S_ 1 := andi main_v3 main_v7
  let main_v9 : FVec F S194x96 .f32 := Host.absf main_arg4
  let main_cst_2 : FVec F S_ .f32 := constant S_ .f32 0x7F800000#32
  let main_v10 : FVec F S194x96 .f32 := broadcastInDim S194x96 ![] bcast_S_S194x96 main_cst_2
  let main_v11 : IVec S194x96 1 := cmpf .olt main_v9 main_v10
  let main_c_3 : IVec S_ 1 := constantI S_ 1 1#1
  let main_v12 : IVec S_ 1 := (fun x v => Host.reduce IntOp.andi x v reducesTo_S194x96_S_d0_1 h_S_) main_v11 main_c_3
  let main_v13 : IVec S_ 1 := andi main_v8 main_v12
  let main_v14 : FVec F S96 .f32 := Host.absf main_arg5
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S50000x4 : Shape := ⟨2, ![50000, 4]⟩
abbrev S50000x96 : Shape := ⟨2, ![50000, 96]⟩
abbrev S800000 : Shape := ⟨1, ![800000]⟩
abbrev S194x96 : Shape := ⟨2, ![194, 96]⟩
abbrev S96 : Shape := ⟨1, ![96]⟩
abbrev S96x96 : Shape := ⟨2, ![96, 96]⟩
abbrev S96x1 : Shape := ⟨2, ![96, 1]⟩
abbrev S1 : Shape := ⟨1, ![1]⟩
abbrev S192x96 : Shape := ⟨2, ![192, 96]⟩
abbrev S_ : Shape := ⟨0, ![]⟩
abbrev S800000x1 : Shape := ⟨2, ![800000, 1]⟩
abbrev S800000x4 : Shape := ⟨2, ![800000, 4]⟩
abbrev S800000x96 : Shape := ⟨2, ![800000, 96]⟩
abbrev S1600x4 : Shape := ⟨2, ![1600, 4]⟩
abbrev S1600x96 : Shape := ⟨2, ![1600, 96]⟩
abbrev S1600x1 : Shape := ⟨2, ![1600, 1]⟩
abbrev S1600 : Shape := ⟨1, ![1600]⟩
abbrev S1600x194 : Shape := ⟨2, ![1600, 194]⟩
abbrev S1x96 : Shape := ⟨2, ![1, 96]⟩
abbrev S1x1 : Shape := ⟨2, ![1, 1]⟩
abbrev S50000 : Shape := ⟨1, ![50000]⟩
abbrev S50000x1 : Shape := ⟨2, ![50000, 1]⟩
abbrev S5000x96 : Shape := ⟨2, ![5000, 96]⟩
abbrev S5000x192 : Shape := ⟨2, ![5000, 192]⟩

abbrev nBuf : Space → Nat
  | .hbm => 89
  | .vmem => 31
  | .smem => 0
  | _ => 0

abbrev bufTy : (tb : Table) → Fin (tcTables nBuf tb) → BufTy
  | .hbm, ⟨0, _⟩ => ⟨S50000x4, .f32⟩
  | .hbm, ⟨1, _⟩ => ⟨S50000x96, .f32⟩
  | .hbm, ⟨2, _⟩ => ⟨S800000, .i32⟩
  | .hbm, ⟨3, _⟩ => ⟨S800000, .i32⟩
  | .hbm, ⟨4, _⟩ => ⟨S194x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S96x1, .f32⟩
  | .hbm, ⟨9, _⟩ => ⟨S1, .f32⟩
  | .hbm, ⟨10, _⟩ => ⟨S192x96, .f32⟩
  | .hbm, ⟨11, _⟩ => ⟨S96, .f32⟩
  | .hbm, ⟨12, _⟩ => ⟨S96x96, .f32⟩
  | .hbm, ⟨13, _⟩ => ⟨S96, .f32⟩
  | .hbm, ⟨14, _⟩ => ⟨S96x96, .f32⟩
  | .hbm, ⟨15, _⟩ => ⟨S96, .f32⟩
  | .hbm, ⟨16, _⟩ => ⟨S96x1, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x4, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x4, .f32⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x96, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x96, .f32⟩
  | .hbm, ⟨53, _⟩ => ⟨S800000x96, .f32⟩
  | .hbm, ⟨54, _⟩ => ⟨S800000x4, .f32⟩
  | .hbm, ⟨55, _⟩ => ⟨S_, .f32⟩
  | .hbm, ⟨56, _⟩ => ⟨S50000x96, .f32⟩
  | .hbm, ⟨57, _⟩ => ⟨S800000x1, .i32⟩
  | .hbm, ⟨58, _⟩ => ⟨S50000x96, .f32⟩
  | .hbm, ⟨59, _⟩ => ⟨S_, .f32⟩
  | .hbm, ⟨60, _⟩ => ⟨S50000x4, .f32⟩
  | .hbm, ⟨61, _⟩ => ⟨S800000x1, .i32⟩
  | .hbm, ⟨62, _⟩ => ⟨S50000x4, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S50000x1, .f32⟩
  | .hbm, ⟨70, _⟩ => ⟨S_, .f32⟩
  | .hbm, ⟨71, _⟩ => ⟨S50000x1, .f32⟩
  | .hbm, ⟨72, _⟩ => ⟨S50000x1, .i1⟩
  | .hbm, ⟨73, _⟩ => ⟨S50000x1, .f32⟩
  | .hbm, ⟨74, _⟩ => ⟨S_, .f32⟩
  | .hbm, ⟨75, _⟩ => ⟨S50000x1, .f32⟩
  | .hbm, ⟨76, _⟩ => ⟨S50000x1, .f32⟩
  | .hbm, ⟨77, _⟩ => ⟨S50000x4, .f32⟩
  | .hbm, ⟨78, _⟩ => ⟨S50000x4, .f32⟩
  | .hbm, ⟨79, _⟩ => ⟨S_, .f32⟩
  | .hbm, ⟨80, _⟩ => ⟨S_, .f32⟩
  | .hbm, ⟨81, _⟩ => ⟨S50000x4, .i1⟩
  | .hbm, ⟨82, _⟩ => ⟨S50000x4, .f32⟩
  | .hbm, ⟨83, _⟩ => ⟨S50000x4, .f32⟩
  | .hbm, ⟨84, _⟩ => ⟨S_, .f32⟩
  | .hbm, ⟨85, _⟩ => ⟨S50000x4, .f32⟩
  | .hbm, ⟨86, _⟩ => ⟨S50000x4, .f32⟩
  | .hbm, ⟨87, _⟩ => ⟨S50000x4, .f32⟩
  | .hbm, ⟨88, _⟩ => ⟨S50000x96, .f32⟩
  | .local _ .vmem, ⟨0, _⟩ => ⟨S1600x4, .f32⟩
  | .local _ .vmem, ⟨1, _⟩ => ⟨S1600x4, .f32⟩
  | .local _ .vmem, ⟨2, _⟩ => ⟨S1600x4, .f32⟩
  | .local _ .vmem, ⟨3, _⟩ => ⟨S1600x4, .f32⟩
  | .local _ .vmem, ⟨4, _⟩ => ⟨S1600x96, .f32⟩
  | .local _ .vmem, ⟨5, _⟩ => ⟨S1600x96, .f32⟩
  | .local _ .vmem, ⟨6, _⟩ => ⟨S1600x96, .f32⟩
  | .local _ .vmem, ⟨7, _⟩ => ⟨S1600x96, .f32⟩
  | .local _ .vmem, ⟨8, _⟩ => ⟨S194x96, .f32⟩
  | .local _ .vmem, ⟨9, _⟩ => ⟨S96, .f32⟩
  | .local _ .vmem, ⟨10, _⟩ => ⟨S96x96, .f32⟩
  | .local _ .vmem, ⟨11, _⟩ => ⟨S96, .f32⟩
  | .local _ .vmem, ⟨12, _⟩ => ⟨S96x1, .f32⟩
  | .local _ .vmem, ⟨13, _⟩ => ⟨S1, .f32⟩
  | .local _ .vmem, ⟨14, _⟩ => ⟨S96x96, .f32⟩
  | .local _ .vmem, ⟨15, _⟩ => ⟨S96, .f32⟩
  | .local _ .vmem, ⟨16, _⟩ => ⟨S96x1, .f32⟩
  | .local _ .vmem, ⟨17, _⟩ => ⟨S1600x96, .f32⟩
  | .local _ .vmem, ⟨18, _⟩ => ⟨S1600x96, .f32⟩
  | .local _ .vmem, ⟨19, _⟩ => ⟨S1600x4, .f32⟩
  | .local _ .vmem, ⟨20, _⟩ => ⟨S1600x4, .f32⟩
  | .local _ .vmem, ⟨21, _⟩ => ⟨S5000x96, .f32⟩
  | .local _ .vmem, ⟨22, _⟩ => ⟨S5000x96, .f32⟩
  | .local _ .vmem, ⟨23, _⟩ => ⟨S5000x96, .f32⟩
  | .local _ .vmem, ⟨24, _⟩ => ⟨S5000x96, .f32⟩
  | .local _ .vmem, ⟨25, _⟩ => ⟨S192x96, .f32⟩
  | .local _ .vmem, ⟨26, _⟩ => ⟨S96, .f32⟩
  | .local _ .vmem, ⟨27, _⟩ => ⟨S96x96, .f32⟩
  | .local _ .vmem, ⟨28, _⟩ => ⟨S96, .f32⟩
  | .local _ .vmem, ⟨29, _⟩ => ⟨S5000x96, .f32⟩
  | .local _ .vmem, ⟨30, _⟩ => ⟨S5000x96, .f32⟩
  | _, _ => ⟨S50000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_3 : Ref sig .tc := ⟨.hbm, 35, rfl⟩
abbrev main_v14 : Ref sig .tc := ⟨.hbm, 36, rfl⟩
abbrev main_v15 : Ref sig .tc := ⟨.hbm, 37, rfl⟩
abbrev main_c_4 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_5 : Ref sig .tc := ⟨.hbm, 44, rfl⟩
abbrev main_v21 : Ref sig .tc := ⟨.hbm, 45, rfl⟩
abbrev main_v22 : Ref sig .tc := ⟨.hbm, 46, rfl⟩
abbrev main_c_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28_0 : Ref sig .tc := ⟨.hbm, 53, rfl⟩
abbrev main_v28_1 : Ref sig .tc := ⟨.hbm, 54, rfl⟩
abbrev main_cst : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_cst_9 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_cst_10 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_11 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_cst_12 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_v47 : Ref sig .tc := ⟨.hbm, 83, rfl⟩
abbrev main_cst_13 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg3_0 : Ref sig .tc := ⟨.vmem, 26, rfl⟩
abbrev cc1_stg4_0 : Ref sig .tc := ⟨.vmem, 27, rfl⟩
abbrev cc1_stg5_0 : Ref sig .tc := ⟨.vmem, 28, rfl⟩
abbrev cc1_stg6_0 : Ref sig .tc := ⟨.vmem, 29, rfl⟩
abbrev cc1_stg6_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc0_sem14_0 : DmaSem sig := 19
abbrev cc0_sem14_1 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem3_0 : DmaSem sig := 26
abbrev cc1_sem4_0 : DmaSem sig := 27
abbrev cc1_sem5_0 : DmaSem sig := 28
abbrev cc1_sem6_0 : DmaSem sig := 29
abbrev cc1_sem6_1 : DmaSem sig := 30

abbrev nD : Nat := 1
abbrev τ : Topo := Topo.v7x

variable {F : FTy → Type} [BitOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1600x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1600x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1600x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1600x96 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S194x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S96x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S96x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S96 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S96x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1600x96 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1600x4 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S192x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S96x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x96 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  inb_S1600x4_S1600x4_0_0 : ∀ a, (![0, 0] : Fin 2 → Nat) a + S1600x4.size a ≤ S1600x4.size a
  h_S1600x4 : 0 < S1600x4.numel
  shapeCasts_S1600x4_S1600x4 : S1600x4.ShapeCasts S1600x4
  inb_S1600x96_S1600x96_0_0 : ∀ a, (![0, 0] : Fin 2 → Nat) a + S1600x96.size a ≤ S1600x96.size a
  h_S1600x96 : 0 < S1600x96.numel
  shapeCasts_S1600x96_S1600x96 : S1600x96.ShapeCasts S1600x96
  slices_S1600x4_o0_0_S1600x1 : S1600x4.Slices ![0, 0] S1600x1
  reduces_S1600x4_S1600 : S1600x4.Reduces [1] S1600
  shapeCasts_S1600_S1600x1 : S1600.ShapeCasts S1600x1
  concatenates_S1600x96_S1600x96_S1600x1_S1600x1_S1600x194_d1 : Shape.Concatenates [S1600x96, S1600x96, S1600x1, S1600x1] S1600x194 1
  bitsLt_bf16_f32 : FTy.bits .bf16 < FTy.bits .f32
  inb_S194x96_S194x96_0_0 : ∀ a, (![0, 0] : Fin 2 → Nat) a + S194x96.size a ≤ S194x96.size a
  h_S194x96 : 0 < S194x96.numel
  inb_S96_S96_0 : ∀ a, (![0] : Fin 1 → Nat) a + S96.size a ≤ S96.size a
  h_S96 : 0 < S96.numel
  shapeCasts_S96_S1x96 : S96.ShapeCasts S1x96
  broadcasts_S1x96_S1600x96 : S1x96.Broadcasts S1600x96
  inb_S96x96_S96x96_0_0 : ∀ a, (![0, 0] : Fin 2 → Nat) a + S96x96.size a ≤ S96x96.size a
  h_S96x96 : 0 < S96x96.numel
  inb_S96x1_S96x1_0_0 : ∀ a, (![0, 0] : Fin 2 → Nat) a + S96x1.size a ≤ S96x1.size a
  h_S96x1 : 0 < S96x1.numel
  inb_S1_S1_0 : ∀ a, (![0] : Fin 1 → Nat) a + S1.size a ≤ S1.size a
  h_S1 : 0 < S1.numel
  shapeCasts_S1_S1x1 : S1.ShapeCasts S1x1
  broadcasts_S1x1_S1600x1 : S1x1.Broadcasts S1600x1
  broadcasts_S1600x1_S1600x96 : S1600x1.Broadcasts S1600x96
  broadcasts_S1600x1_S1600x4 : S1600x1.Broadcasts S1600x4
  bcast_S_S50000x96 : S_.BroadcastsInDim S50000x96 (![] : Fin 0 → Fin S50000x96.rank)
  bcast_S_S50000x4 : S_.BroadcastsInDim S50000x4 (![] : Fin 0 → Fin S50000x4.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x4_0_1 : S50000x1.BroadcastsInDim S50000x4 (![0, 1] : Fin 2 → Fin S50000x4.rank)
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  concatenates_S5000x96_S5000x96_S5000x192_d1 : Shape.Concatenates [S5000x96, S5000x96] S5000x192 1
  inb_S192x96_S192x96_0_0 : ∀ a, (![0, 0] : Fin 2 → Nat) a + S192x96.size a ≤ S192x96.size a
  h_S192x96 : 0 < S192x96.numel
  broadcasts_S1x96_S5000x96 : S1x96.Broadcasts S5000x96
  gather_S50000x4_S800000x1_S800000x4_1_0_n_n_0_1_14_wf : GatherDims.WF S50000x4 S800000x1 S800000x4 [1] [0] [] [0] [] 1 ![1, 4]
  gather_S50000x96_S800000x1_S800000x96_1_0_n_n_0_1_196_wf : GatherDims.WF S50000x96 S800000x1 S800000x96 [1] [0] [] [0] [] 1 ![1, 96]
  dot_S1600x194_S194x96_S1600x96_1_0_0_1_n_n_wf : DotDims.WF S1600x194 S194x96 S1600x96 [1] [0] [0] [1] [] []
  dot_S1600x96_S96x96_S1600x96_1_0_0_1_n_n_wf : DotDims.WF S1600x96 S96x96 S1600x96 [1] [0] [0] [1] [] []
  dot_S1600x96_S96x1_S1600x1_1_0_0_1_n_n_wf : DotDims.WF S1600x96 S96x1 S1600x1 [1] [0] [0] [1] [] []
  scatter_S50000x96_S800000x1_S800000x96_1_0_0_1_wf : ScatterDims.WF S50000x96 S800000x1 S800000x96 [1] [0] [0] 1
  scatter_S50000x4_S800000x1_S800000x4_1_0_0_1_wf : ScatterDims.WF S50000x4 S800000x1 S800000x4 [1] [0] [0] 1
  scatter_S50000_S800000x1_S800000_n_0_0_1_wf : ScatterDims.WF S50000 S800000x1 S800000 [] [0] [0] 1
  dot_S5000x192_S192x96_S5000x96_1_0_0_1_n_n_wf : DotDims.WF S5000x192 S192x96 S5000x96 [1] [0] [0] [1] [] []
  dot_S5000x96_S96x96_S5000x96_1_0_0_1_n_n_wf : DotDims.WF S5000x96 S96x96 S5000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1600x4.size a ≤ S800000x4.size a
  hwx0_0 : ∀ i : grid0.Coords, EltTy.bits .f32 = 32 ∨ (Rect.block (s := S800000x4) S1600x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1600x4.size a ≤ S800000x4.size a
  hwx0_1 : ∀ i : grid0.Coords, EltTy.bits .f32 = 32 ∨ (Rect.block (s := S800000x4) S1600x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1600x96.size a ≤ S800000x96.size a
  hwx0_2 : ∀ i : grid0.Coords, EltTy.bits .f32 = 32 ∨ (Rect.block (s := S800000x96) S1600x96.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1600x96.size a ≤ S800000x96.size a
  hwx0_3 : ∀ i : grid0.Coords, EltTy.bits .f32 = 32 ∨ (Rect.block (s := S800000x96) S1600x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S194x96.size a ≤ S194x96.size a
  hwx0_4 : ∀ i : grid0.Coords, EltTy.bits .f32 = 32 ∨ (Rect.block (s := S194x96) S194x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S96.size a ≤ S96.size a
  hwx0_5 : ∀ i : grid0.Coords, EltTy.bits .f32 = 32 ∨ (Rect.block (s := S96) S96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S96x96.size a ≤ S96x96.size a
  hwx0_6 : ∀ i : grid0.Coords, EltTy.bits .f32 = 32 ∨ (Rect.block (s := S96x96) S96x96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S96.size a ≤ S96.size a
  hwx0_7 : ∀ i : grid0.Coords, EltTy.bits .f32 = 32 ∨ (Rect.block (s := S96) S96.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S96x1.size a ≤ S96x1.size a
  hwx0_8 : ∀ i : grid0.Coords, EltTy.bits .f32 = 32 ∨ (Rect.block (s := S96x1) S96x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S96x96.size a ≤ S96x96.size a
  hwx0_10 : ∀ i : grid0.Coords, EltTy.bits .f32 = 32 ∨ (Rect.block (s := S96x96) S96x96.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S96.size a ≤ S96.size a
  hwx0_11 : ∀ i : grid0.Coords, EltTy.bits .f32 = 32 ∨ (Rect.block (s := S96) S96.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S96x1.size a ≤ S96x1.size a
  hwx0_12 : ∀ i : grid0.Coords, EltTy.bits .f32 = 32 ∨ (Rect.block (s := S96x1) S96x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1600x96.size a ≤ S800000x96.size a
  hwx0_13 : ∀ i : grid0.Coords, EltTy.bits .f32 = 32 ∨ (Rect.block (s := S800000x96) S1600x96.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1600x4.size a ≤ S800000x4.size a
  hwx0_14 : ∀ i : grid0.Coords, EltTy.bits .f32 = 32 ∨ (Rect.block (s := S800000x4) S1600x4.size (cc0_transform_14 i) (hinb0_14 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S192x96.size a ≤ S192x96.size a
  hwx1_2 : ∀ i : grid1.Coords, EltTy.bits .f32 = 32 ∨ (Rect.block (s := S192x96) S192x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96.size a ≤ S96.size a
  hwx1_3 : ∀ i : grid1.Coords, EltTy.bits .f32 = 32 ∨ (Rect.block (s := S96) S96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96x96.size a ≤ S96x96.size a
  hwx1_4 : ∀ i : grid1.Coords, EltTy.bits .f32 = 32 ∨ (Rect.block (s := S96x96) S96x96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S96.size a ≤ S96.size a
  hwx1_5 : ∀ i : grid1.Coords, EltTy.bits .f32 = 32 ∨ (Rect.block (s := S96) S96.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x96.size a ≤ S50000x96.size a
  hwx1_6 : ∀ i : grid1.Coords, EltTy.bits .f32 = 32 ∨ (Rect.block (s := S50000x96) S5000x96.size (cc1_transform_6 i) (hinb1_6 i)).WholeWords (EltTy.packing .f32)

variable [Facts₀]

def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S1600x194_S194x96_S1600x96_1_0_0_1_n_n : DotDims S1600x194 S194x96 S1600x96 where
  lhsContracting := [1]
  rhsContracting := [0]
  lhsNonContracting := [0]
  rhsNonContracting := [1]
  lhsBatch := []
  rhsBatch := []
  wf := dot_S1600x194_S194x96_S1600x96_1_0_0_1_n_n_wf
def dot_S1600x96_S96x96_S1600x96_1_0_0_1_n_n : DotDims S1600x96 S96x96 S1600x96 where
  lhsContracting := [1]
  rhsContracting := [0]
  lhsNonContracting := [0]
  rhsNonContracting := [1]
  lhsBatch := []
  rhsBatch := []
  wf := dot_S1600x96_S96x96_S1600x96_1_0_0_1_n_n_wf
def dot_S1600x96_S96x1_S1600x1_1_0_0_1_n_n : DotDims S1600x96 S96x1 S1600x1 where
  lhsContracting := [1]
  rhsContracting := [0]
  lhsNonContracting := [0]
  rhsNonContracting := [1]
  lhsBatch := []
  rhsBatch := []
  wf := dot_S1600x96_S96x1_S1600x1_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x192_S192x96_S5000x96_1_0_0_1_n_n : DotDims S5000x192 S192x96 S5000x96 where
  lhsContracting := [1]
  rhsContracting := [0]
  lhsNonContracting := [0]
  rhsNonContracting := [1]
  lhsBatch := []
  rhsBatch := []
  wf := dot_S5000x192_S192x96_S5000x96_1_0_0_1_n_n_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf

abbrev win0_0 : Pipeline.Window sig grid0 :=
  Pipeline.Window.ofSpec (Memref.whole main_v6) S1600x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1600x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1600x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1600x96.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S194x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S96x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S96.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S96x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S96x96.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg15) S96.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg16) S96x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v28_0) S1600x96.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v28_1) S1600x4.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

abbrev win1_0 : Pipeline.Window sig grid1 :=
  Pipeline.Window.ofSpec (Memref.whole main_arg1) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S192x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S96x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S5000x96.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x4 : Shape := ⟨2, ![50000, 4]⟩
abbrev S50000x96 : Shape := ⟨2, ![50000, 96]⟩
abbrev S800000 : Shape := ⟨1, ![800000]⟩
abbrev S194x96 : Shape := ⟨2, ![194, 96]⟩
abbrev S96 : Shape := ⟨1, ![96]⟩
abbrev S96x96 : Shape := ⟨2, ![96, 96]⟩
abbrev S96x1 : Shape := ⟨2, ![96, 1]⟩
abbrev S1 : Shape := ⟨1, ![1]⟩
abbrev S192x96 : Shape := ⟨2, ![192, 96]⟩
abbrev S_ : Shape := ⟨0, ![]⟩
abbrev S800000x1 : Shape := ⟨2, ![800000, 1]⟩
abbrev S800000x4 : Shape := ⟨2, ![800000, 4]⟩
abbrev S800000x96 : Shape := ⟨2, ![800000, 96]⟩
abbrev S800000x194 : Shape := ⟨2, ![800000, 194]⟩
abbrev S1x96 : Shape := ⟨2, ![1, 96]⟩
abbrev S1x1 : Shape := ⟨2, ![1, 1]⟩
abbrev S50000x192 : Shape := ⟨2, ![50000, 192]⟩
abbrev S50000 : Shape := ⟨1, ![50000]⟩
abbrev S50000x1 : Shape := ⟨2, ![50000, 1]⟩

abbrev nBuf : Space → Nat
  | .hbm => 173
  | .vmem => 0
  | .smem => 0
  | _ => 0

abbrev hbmTy0_0 (i : Nat) : BufTy := match i % 128 with
  | 0 => ⟨S50000x4, .f32⟩
  | 1 => ⟨S50000x96, .f32⟩
  | 2 => ⟨S800000, .i32⟩
  | 3 => ⟨S800000, .i32⟩
  | 4 => ⟨S194x96, .f32⟩
  | 5 => ⟨S96, .f32⟩
  | 6 => ⟨S96x96, .f32⟩
  | 7 => ⟨S96, .f32⟩
  | 8 => ⟨S96x1, .f32⟩
  | 9 => ⟨S1, .f32⟩
  | 10 => ⟨S192x96, .f32⟩
  | 11 => ⟨S96, .f32⟩
  | 12 => ⟨S96x96, .f32⟩
  | 13 => ⟨S96, .f32⟩
  | 14 => ⟨S96x96, .f32⟩
  | 15 => ⟨S96, .f32⟩
  | 16 => ⟨S96x1, .f32⟩
  | 17 => ⟨S_, .i32⟩
  | 18 => ⟨S800000, .i32⟩
  | 19 => ⟨S800000, .i1⟩
  | 20 => ⟨S_, .i32⟩
  | 21 => ⟨S800000, .i32⟩
  | 22 => ⟨S800000, .i32⟩
  | 23 => ⟨S800000, .i32⟩
  | 24 => ⟨S800000x1, .i32⟩
  | 25 => ⟨S800000x4, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x4, .f32⟩
  | 35 => ⟨S800000x4, .f32⟩
  | 36 => ⟨S800000x4, .f32⟩
  | 37 => ⟨S800000x1, .f32⟩
  | 38 => ⟨S800000, .f32⟩
  | 39 => ⟨S_, .f32⟩
  | 40 => ⟨S800000, .f32⟩
  | 41 => ⟨S800000, .f32⟩
  | 42 => ⟨S_, .f32⟩
  | 43 => ⟨S800000, .f32⟩
  | 44 => ⟨S800000, .f32⟩
  | 45 => ⟨S800000x4, .f32⟩
  | 46 => ⟨S800000x1, .f32⟩
  | 47 => ⟨S800000, .f32⟩
  | 48 => ⟨S_, .f32⟩
  | 49 => ⟨S800000, .f32⟩
  | 50 => ⟨S800000, .f32⟩
  | 51 => ⟨S_, .f32⟩
  | 52 => ⟨S800000, .f32⟩
  | 53 => ⟨S800000, .f32⟩
  | 54 => ⟨S800000, .f32⟩
  | 55 => ⟨S800000, .f32⟩
  | 56 => ⟨S_, .f32⟩
  | 57 => ⟨S800000, .f32⟩
  | 58 => ⟨S800000, .f32⟩
  | 59 => ⟨S800000, .f32⟩
  | 60 => ⟨S800000, .f32⟩
  | 61 => ⟨S800000x1, .f32⟩
  | 62 => ⟨S800000, .f32⟩
  | 63 => ⟨S800000, .f32⟩
  | 64 => ⟨S_, .f32⟩
  | 65 => ⟨S800000, .f32⟩
  | 66 => ⟨S800000, .f32⟩
  | 67 => ⟨S800000, .f32⟩
  | 68 => ⟨S800000, .f32⟩
  | 69 => ⟨S800000x1, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x96, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x96, .f32⟩
  | 88 => ⟨S800000x194, .f32⟩
  | 89 => ⟨S800000x96, .f32⟩
  | 90 => ⟨S1x96, .f32⟩
  | 91 => ⟨S800000x96, .f32⟩
  | 92 => ⟨S800000x96, .f32⟩
  | 93 => ⟨S_, .f32⟩
  | 94 => ⟨S800000x96, .f32⟩
  | 95 => ⟨S800000x96, .f32⟩
  | 96 => ⟨S800000x96, .f32⟩
  | 97 => ⟨S1x96, .f32⟩
  | 98 => ⟨S800000x96, .f32⟩
  | 99 => ⟨S800000x96, .f32⟩
  | 100 => ⟨S_, .f32⟩
  | 101 => ⟨S800000x96, .f32⟩
  | 102 => ⟨S800000x96, .f32⟩
  | 103 => ⟨S800000x1, .f32⟩
  | 104 => ⟨S1x1, .f32⟩
  | 105 => ⟨S800000x1, .f32⟩
  | 106 => ⟨S800000x1, .f32⟩
  | 107 => ⟨S800000x1, .f32⟩
  | 108 => ⟨S800000x1, .f32⟩
  | 109 => ⟨S_, .f32⟩
  | 110 => ⟨S800000x1, .f32⟩
  | 111 => ⟨S800000x1, .f32⟩
  | 112 => ⟨S_, .f32⟩
  | 113 => ⟨S800000x1, .f32⟩
  | 114 => ⟨S800000x1, .f32⟩
  | 115 => ⟨S800000x96, .f32⟩
  | 116 => ⟨S800000x96, .f32⟩
  | 117 => ⟨S_, .f32⟩
  | 118 => ⟨S50000x96, .f32⟩
  | 119 => ⟨S800000x1, .i32⟩
  | 120 => ⟨S50000x96, .f32⟩
  | 121 => ⟨S50000x192, .f32⟩
  | 122 => ⟨S50000x96, .f32⟩
  | 123 => ⟨S1x96, .f32⟩
  | 124 => ⟨S50000x96, .f32⟩
  | 125 => ⟨S50000x96, .f32⟩
  | 126 => ⟨S_, .f32⟩
  | 127 => ⟨S50000x96, .f32⟩
  | _ => ⟨S50000x4, .f32⟩

abbrev hbmTy0_1 (i : Nat) : BufTy := match i % 128 with
  | 0 => ⟨S50000x96, .f32⟩
  | 1 => ⟨S50000x96, .f32⟩
  | 2 => ⟨S1x96, .f32⟩
  | 3 => ⟨S50000x96, .f32⟩
  | 4 => ⟨S50000x96, .f32⟩
  | 5 => ⟨S50000x96, .f32⟩
  | 6 => ⟨S800000x96, .f32⟩
  | 7 => ⟨S1x96, .f32⟩
  | 8 => ⟨S800000x96, .f32⟩
  | 9 => ⟨S800000x96, .f32⟩
  | 10 => ⟨S_, .f32⟩
  | 11 => ⟨S800000x96, .f32⟩
  | 12 => ⟨S800000x96, .f32⟩
  | 13 => ⟨S800000x1, .f32⟩
  | 14 => ⟨S800000x4, .f32⟩
  | 15 => ⟨S800000x4, .f32⟩
  | 16 => ⟨S_, .f32⟩
  | 17 => ⟨S50000x4, .f32⟩
  | 18 => ⟨S800000x1, .i32⟩
  | 19 => ⟨S50000x4, .f32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S50000x1, .f32⟩
  | 27 => ⟨S_, .f32⟩
  | 28 => ⟨S50000x1, .f32⟩
  | 29 => ⟨S50000x1, .i1⟩
  | 30 => ⟨S50000x1, .f32⟩
  | 31 => ⟨S_, .f32⟩
  | 32 => ⟨S50000x1, .f32⟩
  | 33 => ⟨S50000x1, .f32⟩
  | 34 => ⟨S50000x4, .f32⟩
  | 35 => ⟨S50000x4, .f32⟩
  | 36 => ⟨S_, .f32⟩
  | 37 => ⟨S_, .f32⟩
  | 38 => ⟨S50000x4, .i1⟩
  | 39 => ⟨S50000x4, .f32⟩
  | 40 => ⟨S50000x4, .f32⟩
  | 41 => ⟨S_, .f32⟩
  | 42 => ⟨S50000x4, .f32⟩
  | 43 => ⟨S50000x4, .f32⟩
  | 44 => ⟨S50000x4, .f32⟩
  | _ => ⟨S50000x4, .f32⟩

abbrev hbmTy (i : Nat) : BufTy := match i / 128 with
  | 0 => hbmTy0_0 i
  | 1 => hbmTy0_1 i
  | _ => ⟨S50000x4, .f32⟩

abbrev bufTy : (tb : Table) → Fin (tcTables nBuf tb) → BufTy
  | .hbm, ⟨i, _⟩ => hbmTy i
  | _, _ => ⟨S50000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c_1 : Ref sig .tc := ⟨.hbm, 26, rfl⟩
abbrev main_v7 : Ref sig .tc := ⟨.hbm, 27, rfl⟩
abbrev main_v8 : Ref sig .tc := ⟨.hbm, 28, rfl⟩
abbrev main_c_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_7 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_8 : Ref sig .tc := ⟨.hbm, 70, rfl⟩
abbrev main_v43 : Ref sig .tc := ⟨.hbm, 71, rfl⟩
abbrev main_v44 : Ref sig .tc := ⟨.hbm, 72, rfl⟩
abbrev main_c_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_c_10 : Ref sig .tc := ⟨.hbm, 79, rfl⟩
abbrev main_v50 : Ref sig .tc := ⟨.hbm, 80, rfl⟩
abbrev main_v51 : Ref sig .tc := ⟨.hbm, 81, rfl⟩
abbrev main_c_11 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_call0_cst : Ref sig .tc := ⟨.hbm, 93, rfl⟩
abbrev main_call0_v0 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call1_cst : Ref sig .tc := ⟨.hbm, 100, rfl⟩
abbrev main_call1_v0 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_12 : Ref sig .tc := ⟨.hbm, 109, rfl⟩
abbrev main_v74 : Ref sig .tc := ⟨.hbm, 110, rfl⟩
abbrev main_v75 : Ref sig .tc := ⟨.hbm, 111, rfl⟩
abbrev main_cst_13 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_14 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_call2_cst : Ref sig .tc := ⟨.hbm, 126, rfl⟩
abbrev main_call2_v0 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_call3_cst : Ref sig .tc := ⟨.hbm, 138, rfl⟩
abbrev main_call3_v0 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_15 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_16 : Ref sig .tc := ⟨.hbm, 148, rfl⟩
abbrev main_v105 : Ref sig .tc := ⟨.hbm, 149, rfl⟩
abbrev main_cst_17 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_cst_18 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_19 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_20 : Ref sig .tc := ⟨.hbm, 164, rfl⟩
abbrev main_call4_v0 : Ref sig .tc := ⟨.hbm, 165, rfl⟩
abbrev main_call4_v1 : Ref sig .tc := ⟨.hbm, 166, rfl⟩
abbrev main_call4_v2 : Ref sig .tc := ⟨.hbm, 167, rfl⟩
abbrev main_v117 : Ref sig .tc := ⟨.hbm, 168, rfl⟩
abbrev main_cst_21 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S800000x4_S800000x1_0_0 : S800000x4.Slices ![0, 0] S800000x1
  shapeCasts_S800000x1_S800000 : S800000x1.ShapeCasts S800000
  reducesTo_S800000x4_S800000_d1 : S800000x4.ReducesTo [1] S800000
  h_S_ : 0 < S_.numel
  concatenates_S800000x96_S800000x96_S800000x1_S800000x1_S800000x194_d1 : Shape.Concatenates [S800000x96, S800000x96, S800000x1, S800000x1] S800000x194 1
  bcast_S96_S1x96_1 : S96.BroadcastsInDim S1x96 (![1] : Fin 1 → Fin S1x96.rank)
  bcast_S1x96_S800000x96_0_1 : S1x96.BroadcastsInDim S800000x96 (![0, 1] : Fin 2 → Fin S800000x96.rank)
  bcast_S_S800000x96 : S_.BroadcastsInDim S800000x96 (![] : Fin 0 → Fin S800000x96.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  concatenates_S50000x96_S50000x96_S50000x192_d1 : Shape.Concatenates [S50000x96, S50000x96] S50000x192 1
  bcast_S1x96_S50000x96_0_1 : S1x96.BroadcastsInDim S50000x96 (![0, 1] : Fin 2 → Fin S50000x96.rank)
  bcast_S800000x1_S800000x4_0_1 : S800000x1.BroadcastsInDim S800000x4 (![0, 1] : Fin 2 → Fin S800000x4.rank)
  bcast_S_S50000x4 : S_.BroadcastsInDim S50000x4 (![] : Fin 0 → Fin S50000x4.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x4_0_1 : S50000x1.BroadcastsInDim S50000x4 (![0, 1] : Fin 2 → Fin S50000x4.rank)
  gather_S50000x4_S800000x1_S800000x4_1_0_n_n_0_1_14_wf : GatherDims.WF S50000x4 S800000x1 S800000x4 [1] [0] [] [0] [] 1 ![1, 4]
  gather_S50000x96_S800000x1_S800000x96_1_0_n_n_0_1_196_wf : GatherDims.WF S50000x96 S800000x1 S800000x96 [1] [0] [] [0] [] 1 ![1, 96]
  dot_S800000x194_S194x96_S800000x96_1_0_0_1_n_n_wf : DotDims.WF S800000x194 S194x96 S800000x96 [1] [0] [0] [1] [] []
  dot_S800000x96_S96x96_S800000x96_1_0_0_1_n_n_wf : DotDims.WF S800000x96 S96x96 S800000x96 [1] [0] [0] [1] [] []
  dot_S800000x96_S96x1_S800000x1_1_0_0_1_n_n_wf : DotDims.WF S800000x96 S96x1 S800000x1 [1] [0] [0] [1] [] []
  scatter_S50000x96_S800000x1_S800000x96_1_0_0_1_wf : ScatterDims.WF S50000x96 S800000x1 S800000x96 [1] [0] [0] 1
  dot_S50000x192_S192x96_S50000x96_1_0_0_1_n_n_wf : DotDims.WF S50000x192 S192x96 S50000x96 [1] [0] [0] [1] [] []
  dot_S50000x96_S96x96_S50000x96_1_0_0_1_n_n_wf : DotDims.WF S50000x96 S96x96 S50000x96 [1] [0] [0] [1] [] []
  scatter_S50000x4_S800000x1_S800000x4_1_0_0_1_wf : ScatterDims.WF S50000x4 S800000x1 S800000x4 [1] [0] [0] 1
  scatter_S50000_S800000x1_S800000_n_0_0_1_wf : ScatterDims.WF S50000 S800000x1 S800000 [] [0] [0] 1

variable [Facts₀]

def gather_S50000x4_S800000x1_S800000x4_1_0_n_n_0_1_14 : GatherDims S50000x4 S800000x1 S800000x4 where
  offsetDims := [1]
  collapsedSliceDims := [0]
  operandBatchingDims := []
  startIndicesBatchingDims := []
  startIndexMap := [0]
  indexVectorDim := 1
  sliceSizes := ![1, 4]
  wf := gather_S50000x4_S800000x1_S800000x4_1_0_n_n_0_1_14_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def dot_S800000x194_S194x96_S800000x96_1_0_0_1_n_n : DotDims S800000x194 S194x96 S800000x96 where
  lhsContracting := [1]
  rhsContracting := [0]
  lhsNonContracting := [0]
  rhsNonContracting := [1]
  lhsBatch := []
  rhsBatch := []
  wf := dot_S800000x194_S194x96_S800000x96_1_0_0_1_n_n_wf
def dot_S800000x96_S96x96_S800000x96_1_0_0_1_n_n : DotDims S800000x96 S96x96 S800000x96 where
  lhsContracting := [1]
  rhsContracting := [0]
  lhsNonContracting := [0]
  rhsNonContracting := [1]
  lhsBatch := []
  rhsBatch := []
  wf := dot_S800000x96_S96x96_S800000x96_1_0_0_1_n_n_wf
def dot_S800000x96_S96x1_S800000x1_1_0_0_1_n_n : DotDims S800000x96 S96x1 S800000x1 where
  lhsContracting := [1]
  rhsContracting := [0]
  lhsNonContracting := [0]
  rhsNonContracting := [1]
  lhsBatch := []
  rhsBatch := []
  wf := dot_S800000x96_S96x1_S800000x1_1_0_0_1_n_n_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x192_S192x96_S50000x96_1_0_0_1_n_n : DotDims S50000x192 S192x96 S50000x96 where
  lhsContracting := [1]
  rhsContracting := [0]
  lhsNonContracting := [0]
  rhsNonContracting := [1]
  lhsBatch := []
  rhsBatch := []
  wf := dot_S50000x192_S192x96_S50000x96_1_0_0_1_n_n_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S50000x4_S800000x1_S800000x4_1_0_0_1 : ScatterDims S50000x4 S800000x1 S800000x4 where
  updateWindowDims := [1]
  insertedWindowDims := [0]
  scatterDimsToOperandDims := [0]
  indexVectorDim := 1
  wf := scatter_S50000x4_S800000x1_S800000x4_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.ValueRun.lean ====
/-
  The kernel program's run with its two results named.

  Every weakly fair execution of the program terminates without a fault, and in the final state each unscoped buffer of
  a core holds what the fold through the program's segments leaves there: the host stretches applied in order, each
  kernel region replacing its arrays by what its write-backs leave. Read at the two result buffers this names the
  results; read at the seventeen argument buffers it gives back the launch contents.
-/
import proofs.«140980_j89833535963776_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What is read off a final memory on core c: every unscoped buffer at the last boundary's contents. -/
def AtEnd (c : Dev nD) (s : MemSt nD τ sig (Elt F)) : Prop :=
  ∀ b ∈ Pipeline.ucRefs τ sig, s.mem (((c : Thread nD τ)).1, b) = W6 m ρ c b

/-- The first thread state: every unscoped buffer at the launch contents, the generator register at some state,
    nothing owed. -/
abbrev T₀ (c : Dev nD) : sProp 𝕄 := iprop(StableHlo.held (c : Thread nD τ) (Pipeline.ucRefs τ sig) (W0 m ρ c) ∗ R c)

set_option backward.isDefEq.respectTransparency.types false in
/-- Every weakly fair execution terminates, and a final memory holds the last boundary's contents at every unscoped buffer:
    the launch over the program's six segments. -/
theorem run_atEnd : θ_run defs (onTc (τ := τ) (main (F := F))) ⟨m, fun _ => 0, ρ⟩ (fun r => ∀ c : Dev nD, AtEnd m ρ c r.2) := by
  refine Pipeline.θ_run_regions_kit (pcfgs (F := F)) adm (pdats m ρ) () cellOf_inj emb₁ defs₀ 𝒱₀ L lv m ρ main (segs m ρ)
    (fun c Q => by rw [main_run m ρ c]) ?_ (O₀ := 0) (hL := fun _ _ => rfl) (G := fun _ => iprop(emp))
    (u₀ := initOf (Pipeline.cells cfgs cellOf_inj) (Pipeline.launchToks cfgs cellOf_inj)) (hu₀ := ?_)
    (T₀ := T₀ m ρ) (Tₙ := Tₙ m ρ) (hch := ?_) (hinit := ?_) (QY := AtEnd m ρ) (hfin := ?_) (hQ := fun s h => h)
  · -- the regions entered are pipeline 0 then pipeline 1, each once
    simp only [segs, Pipeline.Seg.pipes_host, Pipeline.Seg.pipes_region, Pipeline.Seg.pipes_nil]
    decide
  · -- the launch element is the pipelines' own; no ghost resource beside it
    iintro Hu
    imodintro
    isplitl [Hu]
    · -- owning the launch element is owning its image under the embedding
      iapply (show (ownU (initOf (Pipeline.cells cfgs cellOf_inj) (Pipeline.launchToks cfgs cellOf_inj)) : sProp 𝕄)
          ⊢ BI.own (emb₁ (initOf (Pipeline.cells cfgs cellOf_inj) (Pipeline.launchToks cfgs cellOf_inj))) from .rfl)
      iexact Hu
    · -- nothing, once per core, is nothing
      iapply (show (BI.emp : sProp 𝕄) ⊢ bigSep Finset.univ (fun _ : Dev nD => (BI.emp : sProp 𝕄)) from by
        rw [BI.bigSep_emp_const])
      iempintro
  · -- each boundary's thread state is, by definition, what the next segment is entered from
    exact ⟨fun _ => .rfl, fun _ => .rfl, fun _ => .rfl, fun _ => .rfl, fun _ => .rfl, fun _ => .rfl, fun _ => .rfl⟩
  · -- on every core: the launch memory's unscoped buffers are the first boundary's contents
    refine Pipeline.initEach L lv fun c => ?_
    rw [show unscopedBufs c (fun b => m ((c : Thread nD τ).loc b)) = StableHlo.held (c : Thread nD τ) (Pipeline.ucRefs τ sig) (W0 m ρ c)
      from Pipeline.unscopedBufs_held c (W0 m ρ c)]
    iintro ⟨⟨Hbufs, -, Howes, -, Hprng, -⟩, -⟩
    imodintro
    isplitl [Hbufs]
    · iexact Hbufs
    isplitl [Hprng]
    · iexists _; iexact Hprng
    · iexists ∅; iexact Howes
  · -- the last boundary's buffers, read against a final state
    intro c s'
    iintro ⟨⟨Hbufs, -⟩, HSI⟩
    unfold StableHlo.held
    imodintro
    iapply (pointsTo_read_all (Pipeline.ucRefs τ sig) (fun b => (((c : Thread nD τ)).1, b)) (W6 m ρ c) s')
    isplitl [Hbufs]
    · iexact Hbufs
    · iexact HSI

/-- The run read at the buffers the claims speak of: the two results at the last boundary's contents, each argument at
    its launch contents (no host operation and no region writes an argument). -/
theorem run : θ_run defs (onTc (τ := τ) (main (F := F))) ⟨m, fun _ => 0, ρ⟩ (fun r => ∀ c : Dev nD,
      r.2.mem ((c.tc : Thread nD τ).loc main_v51) = W6 m ρ c (Proc.devRef .tc main_v51)
      ∧ r.2.mem ((c.tc : Thread nD τ).loc main_v50) = W6 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨h c _ (mem_uc main_v51 (by decide)),
      h c _ (mem_uc main_v50 (by decide)),
      (h c _ (mem_uc main_arg0 (by decide))).trans (W6_main_arg0 m ρ c),
      (h c _ (mem_uc main_arg1 (by decide))).trans (W6_main_arg1 m ρ c),
      (h c _ (mem_uc main_arg2 (by decide))).trans (W6_main_arg2 m ρ c),
      (h c _ (mem_uc main_arg3 (by decide))).trans (W6_main_arg3 m ρ c),
      (h c _ (mem_uc main_arg4 (by decide))).trans (W6_main_arg4 m ρ c),
      (h c _ (mem_uc main_arg5 (by decide))).trans (W6_main_arg5 m ρ c),
      (h c _ (mem_uc main_arg6 (by decide))).trans (W6_main_arg6 m ρ c),
      (h c _ (mem_uc main_arg7 (by decide))).trans (W6_main_arg7 m ρ c),
      (h c _ (mem_uc main_arg8 (by decide))).trans (W6_main_arg8 m ρ c),
      (h c _ (mem_uc main_arg9 (by decide))).trans (W6_main_arg9 m ρ c),
      (h c _ (mem_uc main_arg10 (by decide))).trans (W6_main_arg10 m ρ c),
      (h c _ (mem_uc main_arg11 (by decide))).trans (W6_main_arg11 m ρ c),
      (h c _ (mem_uc main_arg12 (by decide))).trans (W6_main_arg12 m ρ c),
      (h c _ (mem_uc main_arg13 (by decide))).trans (W6_main_arg13 m ρ c),
      (h c _ (mem_uc main_arg14 (by decide))).trans (W6_main_arg14 m ρ c),
      (h c _ (mem_uc main_arg15 (by decide))).trans (W6_main_arg15 m ρ c),
      (h c _ (mem_uc main_arg16 (by decide))).trans (W6_main_arg16 m ρ c)⟩)
    (run_atEnd m ρ)

end Cert.KernelIdeal.ValueRun

end
-- ==== Proof.MessageRows.lean ====
/-
  One layer of message passing over a graph whose nodes carry a 4-vector position and 96 features, written ROW BY ROW:
  what one edge contributes, and what one node becomes, as functions of that edge's (that node's) own rows and of the
  weight matrices. Every value is an extended real and every operation the exact one.

  For an edge with endpoint positions a, b (4 entries each) and endpoint features hi, hj (96 entries each):
    * the two Minkowski invariants 2·u₀ − Σₖ uₖ of the componentwise square of a − b and of the componentwise product
      a·b, each passed through ψ(v) = sign(v)·log(|v| + 1);
    * the edge's input row [hi | hj | norm | prod] of 194 entries;
    * the message m = relu(relu(row·We1 + be1)·We2 + be2), 96 entries;
    * the gate σ(m·Wm + bm), one number, and the gated message gate·m (what is summed into the node's features);
    * the position weight φ = relu(m·Wx1 + bx1)·Wx2, one number, and φ·b (what is averaged into the node's position).
  For a node with features h and summed gated messages w: h + relu([h | w]·Wh1 + bh1)·Wh2 + bh2.

  The words of 0.0, 1.0 and 2.0 are kept as words: both programs carry the same words in the same places.
-/
import Idealize.ShloMosaic.PureOps.Ideal
import Idealize.ShloMosaic.PureOps.Ideal.Laws
import Idealize.ShloMosaic.Lib.ValueIdx

noncomputable section

open scoped BigOperators

namespace Cert.Egnn

open Idealize.ShloMosaic

/-- Row p of a matrix, a matrix as a function of its two coordinates, a vector as a function of its coordinate. -/
abbrev row {a M : ℕ} (x : (⟨2, ![a, M]⟩ : Shape).Idx → EReal) (p : Fin a) : Fin M → EReal := fun j => x (ValueIdx.ix2 p j)
abbrev mat {K M : ℕ} (x : (⟨2, ![K, M]⟩ : Shape).Idx → EReal) : Fin K → Fin M → EReal := fun k q => x (ValueIdx.ix2 k q)
abbrev vec {M : ℕ} (x : (⟨1, ![M]⟩ : Shape).Idx → EReal) : Fin M → EReal := fun q => x (ValueIdx.ix1 q)

/-- What the single-precision words of 0.0, 1.0 and 2.0 denote. -/
abbrev zeroW : EReal := Ideal.ofBits .f32 0x00000000#32
abbrev oneW : EReal := Ideal.ofBits .f32 0x3F800000#32
abbrev twoW : EReal := Ideal.ofBits .f32 0x40000000#32

/-- ψ(v) = sign(v) · log(|v| + 1), with |v| = max v (−v). -/
def psi (v : EReal) : EReal := Ideal.sign v * Ideal.log (max v (-v) + oneW)

/-- The Minkowski form (+, −, −, −) of a 4-vector u of componentwise products: 2·u₀ − Σₖ uₖ. -/
def mink (u : Fin 4 → EReal) : EReal := twoW * u 0 - ∑ k, u k

/-- ψ of the Minkowski square of a − b. -/
def normFeat (a b : Fin 4 → EReal) : EReal := psi (mink fun k => (a k - b k) * (a k - b k))

/-- ψ of the Minkowski product of a and b. -/
def prodFeat (a b : Fin 4 → EReal) : EReal := psi (mink fun k => a k * b k)

/-- The row [hi | hj | n | p]: 96 + 96 + 1 + 1 entries. -/
def join4 (hi hj : Fin 96 → EReal) (n p : EReal) (k : Fin 194) : EReal :=
  if h₁ : k.val < 96 then hi ⟨k.val, h₁⟩
  else if h₂ : k.val < 192 then hj ⟨k.val - 96, by omega⟩
  else if k.val = 192 then n else p

/-- The row [h | w]: 96 + 96 entries. -/
def join2 (h w : Fin 96 → EReal) (k : Fin 192) : EReal :=
  if h₁ : k.val < 96 then h ⟨k.val, h₁⟩ else w ⟨k.val - 96, by omega⟩

/-- A row times a matrix plus a bias row, at entry q: (Σₖ xₖ · W k q) + b q. -/
def affine {K M : ℕ} (x : Fin K → EReal) (W : Fin K → Fin M → EReal) (b : Fin M → EReal) (q : Fin M) : EReal :=
  (∑ k, x k * W k q) + b q

/-- max(v, 0.0). -/
def relu (v : EReal) : EReal := max v zeroW

/-- The edge's message m. -/
def msg (a b : Fin 4 → EReal) (hi hj : Fin 96 → EReal) (We1 : Fin 194 → Fin 96 → EReal) (be1 : Fin 96 → EReal)
    (We2 : Fin 96 → Fin 96 → EReal) (be2 : Fin 96 → EReal) (q : Fin 96) : EReal :=
  relu (affine (fun k => relu (affine (join4 hi hj (normFeat a b) (prodFeat a b)) We1 be1 k)) We2 be2 q)

/-- The gated message at entry q: σ(m·Wm + bm) · m q. -/
def wgmRow (a b : Fin 4 → EReal) (hi hj : Fin 96 → EReal) (We1 : Fin 194 → Fin 96 → EReal) (be1 : Fin 96 → EReal)
    (We2 : Fin 96 → Fin 96 → EReal) (be2 : Fin 96 → EReal) (Wm : Fin 96 → Fin 1 → EReal) (bm : Fin 1 → EReal)
    (q : Fin 96) : EReal :=
  Ideal.logistic (affine (msg a b hi hj We1 be1 We2 be2) Wm bm 0) * msg a b hi hj We1 be1 We2 be2 q

/-- The position contribution at coordinate j: (relu(m·Wx1 + bx1)·Wx2) · b j. -/
def valsRow (a b : Fin 4 → EReal) (hi hj : Fin 96 → EReal) (We1 : Fin 194 → Fin 96 → EReal) (be1 : Fin 96 → EReal)
    (We2 : Fin 96 → Fin 96 → EReal) (be2 : Fin 96 → EReal) (Wx1 : Fin 96 → Fin 96 → EReal) (bx1 : Fin 96 → EReal)
    (Wx2 : Fin 96 → Fin 1 → EReal) (j : Fin 4) : EReal :=
  (∑ k, relu (affine (msg a b hi hj We1 be1 We2 be2) Wx1 bx1 k) * Wx2 k 0) * b j

/-- The node's new features at entry q: h q + (relu([h | w]·Wh1 + bh1)·Wh2 + bh2) q. -/
def nodeRow (h w : Fin 96 → EReal) (Wh1 : Fin 192 → Fin 96 → EReal) (bh1 : Fin 96 → EReal)
    (Wh2 : Fin 96 → Fin 96 → EReal) (bh2 : Fin 96 → EReal) (q : Fin 96) : EReal :=
  h q + affine (fun k => relu (affine (join2 h w) Wh1 bh1 k)) Wh2 bh2 q

end Cert.Egnn

end
-- ==== Proof.RowJoin.lean ====
/-
  A concatenation along the columns, read at a row and a column, as the row-wise joins of the specification:
  the 194-column array [x1 | x2 | y1 | y2] of two 96-column and two 1-column arrays at (p, k) is the join of the
  four operands' rows p at k, and the 192-column array [x1 | x2] at (p, k) the join of the two rows. Generic in the
  number of rows.
-/
import Idealize.ShloMosaic.Lib.ValueIdx
import Idealize.ShloMosaic.Lib.Pipeline.Value
import proofs.«140980_j89833535963776_1_alg».proof.Proof.MessageRows

noncomputable section

namespace Cert.Egnn.RowJoin

open Idealize.ShloMosaic Idealize.ShloMosaic.ValueIdx

/-- The concatenation [x1 | x2 | y1 | y2] along the columns, of two arrays of 96 columns and two of one column, read
    at row p and column k: the join of the four rows — x1's row below column 96, x2's row (96 less) below 192, then
    y1's one entry at column 192 and y2's at column 193. -/
theorem join4_apply {a : ℕ} (x1 x2 : (⟨2, ![a, 96]⟩ : Shape).Idx → EReal) (y1 y2 : (⟨2, ![a, 1]⟩ : Shape).Idx → EReal)
    (h : Shape.Concatenates [(⟨2, ![a, 96]⟩ : Shape), ⟨2, ![a, 96]⟩, ⟨2, ![a, 1]⟩, ⟨2, ![a, 1]⟩] ⟨2, ![a, 194]⟩ 1) (p : Fin a) (k : Fin 194) :
    concatenate ⟨2, ![a, 194]⟩ 1 [⟨⟨2, ![a, 96]⟩, x1⟩, ⟨⟨2, ![a, 96]⟩, x2⟩, ⟨⟨2, ![a, 1]⟩, y1⟩, ⟨⟨2, ![a, 1]⟩, y2⟩] h (ix2 p k)
      = Cert.Egnn.join4 (fun j => x1 (ix2 p j)) (fun j => x2 (ix2 p j)) (y1 (ix2 p 0)) (y2 (ix2 p 0)) k := by
  unfold Cert.Egnn.join4
  by_cases h1 : k.val < 96
  · rw [dif_pos h1]
    exact concatenate_apply_piece (t := ⟨2, ![a, 194]⟩) 1 [⟨⟨2, ![a, 96]⟩, x1⟩, ⟨⟨2, ![a, 96]⟩, x2⟩, ⟨⟨2, ![a, 1]⟩, y1⟩, ⟨⟨2, ![a, 1]⟩, y2⟩] h (ix2 p k) 0 (by show 0 < 4; omega) ⟨2, ![a, 96]⟩ x1 rfl rfl 0 rfl
      (ix2 p ⟨k.val, h1⟩)
      (fun b hb => by
        match b with
        | ⟨0, _⟩ => rfl
        | ⟨1, _⟩ => exact absurd rfl hb)
      (by show 0 + k.val = k.val; omega)
  · rw [dif_neg h1]
    by_cases h2 : k.val < 192
    · rw [dif_pos h2]
      exact concatenate_apply_piece (t := ⟨2, ![a, 194]⟩) 1 [⟨⟨2, ![a, 96]⟩, x1⟩, ⟨⟨2, ![a, 96]⟩, x2⟩, ⟨⟨2, ![a, 1]⟩, y1⟩, ⟨⟨2, ![a, 1]⟩, y2⟩] h (ix2 p k) 1 (by show 1 < 4; omega) ⟨2, ![a, 96]⟩ x2 rfl rfl 96 rfl
        (ix2 p ⟨k.val - 96, by omega⟩)
        (fun b hb => by
          match b with
          | ⟨0, _⟩ => rfl
          | ⟨1, _⟩ => exact absurd rfl hb)
        (by show 96 + (k.val - 96) = k.val; omega)
    · rw [dif_neg h2]
      by_cases h3 : k.val = 192
      · rw [if_pos h3]
        exact concatenate_apply_piece (t := ⟨2, ![a, 194]⟩) 1 [⟨⟨2, ![a, 96]⟩, x1⟩, ⟨⟨2, ![a, 96]⟩, x2⟩, ⟨⟨2, ![a, 1]⟩, y1⟩, ⟨⟨2, ![a, 1]⟩, y2⟩] h (ix2 p k) 2 (by show 2 < 4; omega) ⟨2, ![a, 1]⟩ y1 rfl rfl 192 rfl
          (ix2 p 0)
          (fun b hb => by
            match b with
            | ⟨0, _⟩ => rfl
            | ⟨1, _⟩ => exact absurd rfl hb)
          (by show 192 + 0 = k.val; omega)
      · rw [if_neg h3]
        have hk := k.isLt
        exact concatenate_apply_piece (t := ⟨2, ![a, 194]⟩) 1 [⟨⟨2, ![a, 96]⟩, x1⟩, ⟨⟨2, ![a, 96]⟩, x2⟩, ⟨⟨2, ![a, 1]⟩, y1⟩, ⟨⟨2, ![a, 1]⟩, y2⟩] h (ix2 p k) 3 (by show 3 < 4; omega) ⟨2, ![a, 1]⟩ y2 rfl rfl 193 rfl
          (ix2 p 0)
          (fun b hb => by
            match b with
            | ⟨0, _⟩ => rfl
            | ⟨1, _⟩ => exact absurd rfl hb)
          (by show 193 + 0 = k.val; omega)

/-- The concatenation [x1 | x2] along the columns of two arrays of 96 columns, read at row p and column k: the join
    of the two rows — x1's row below column 96, x2's row (96 less) from there on. -/
theorem join2_apply {a : ℕ} (x1 x2 : (⟨2, ![a, 96]⟩ : Shape).Idx → EReal)
    (h : Shape.Concatenates [(⟨2, ![a, 96]⟩ : Shape), ⟨2, ![a, 96]⟩] ⟨2, ![a, 192]⟩ 1) (p : Fin a) (k : Fin 192) :
    concatenate ⟨2, ![a, 192]⟩ 1 [⟨⟨2, ![a, 96]⟩, x1⟩, ⟨⟨2, ![a, 96]⟩, x2⟩] h (ix2 p k)
      = Cert.Egnn.join2 (fun j => x1 (ix2 p j)) (fun j => x2 (ix2 p j)) k := by
  unfold Cert.Egnn.join2
  have hk := k.isLt
  by_cases h1 : k.val < 96
  · rw [dif_pos h1]
    exact concatenate_apply_piece (t := ⟨2, ![a, 192]⟩) 1 [⟨⟨2, ![a, 96]⟩, x1⟩, ⟨⟨2, ![a, 96]⟩, x2⟩] h (ix2 p k) 0 (by show 0 < 2; omega) ⟨2, ![a, 96]⟩ x1 rfl rfl 0 rfl
      (ix2 p ⟨k.val, h1⟩)
      (fun b hb => by
        match b with
        | ⟨0, _⟩ => rfl
        | ⟨1, _⟩ => exact absurd rfl hb)
      (by show 0 + k.val = k.val; omega)
  · rw [dif_neg h1]
    exact concatenate_apply_piece (t := ⟨2, ![a, 192]⟩) 1 [⟨⟨2, ![a, 96]⟩, x1⟩, ⟨⟨2, ![a, 96]⟩, x2⟩] h (ix2 p k) 1 (by show 1 < 2; omega) ⟨2, ![a, 96]⟩ x2 rfl rfl 96 rfl
      (ix2 p ⟨k.val - 96, by omega⟩)
      (fun b hb => by
        match b with
        | ⟨0, _⟩ => rfl
        | ⟨1, _⟩ => exact absurd rfl hb)
      (by show 96 + (k.val - 96) = k.val; omega)

end Cert.Egnn.RowJoin

end
-- ==== Proof.LibDotPlain.lean ====
/-
  A matrix product with one contracted axis, read at an entry.

  For dimension numbers `D` of a product [N, K] × [K, M] → [N, M] that contract the left operand's axis 1 against the
  right operand's axis 0, the sum over the contraction's index set of the products of the operands read at `D`'s operand
  indices is the plain sum over `k : Fin K` of `l (p, k) · r (k, q)`. The four hypotheses say where `D` reads its
  operands, coordinate by coordinate; for printed dimension numbers each is one line (the two non-contracted
  coordinates by unfolding the index function, the two contracted ones by `DotDims.lhsIdx_val_of_single` and
  `DotDims.rhsIdx_val_of_single`).
-/
import Idealize.ShloMosaic.PureOps.Ideal
import Idealize.ShloMosaic.PureOps.Ideal.Laws
import Idealize.ShloMosaic.Lib.ValueIdx

noncomputable section

open scoped BigOperators

namespace Cert.LibDotPlain

open Idealize.ShloMosaic Idealize.ShloMosaic.ValueIdx

/-- The contraction's sum, re-indexed by the contracted coordinate. -/
theorem sum_contr_plain {N K M : Nat} {α : Type} [AddCommMonoid α] [Mul α]
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (l : (⟨2, ![N, K]⟩ : Shape).Idx → α) (r : (⟨2, ![K, M]⟩ : Shape).Idx → α) (p : Fin N) (q : Fin M) :
    ∑ k : D.contr.Idx, l (D.lhsIdx (ix2 p q) k) * r (D.rhsIdx (ix2 p q) k) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- A matrix-unit product into a zero accumulator, at the extended reals, read at entry (p, q). -/
theorem matmul_zero_plain {N K M : Nat} {φ₁ φ₂ : FTy}
    (D : DotDims ⟨2, ![N, K]⟩ ⟨2, ![K, M]⟩ ⟨2, ![N, M]⟩)
    (hr : D.contr.rank = 1) (hs : D.contr.size ⟨0, by omega⟩ = K)
    (hl0 : ∀ (i : (⟨2, ![N, M]⟩ : Shape).Idx) (k : D.contr.Idx), (D.lhsIdx i k 0).val = (i 0).val)
    (hl1 : ∀ (i : (⟨2, ![N, M]⟩ : Shape).Idx) (k : D.contr.Idx), (D.lhsIdx i k 1).val = (k ⟨0, by omega⟩).val)
    (hr0 : ∀ (i : (⟨2, ![N, M]⟩ : Shape).Idx) (k : D.contr.Idx), (D.rhsIdx i k 0).val = (k ⟨0, by omega⟩).val)
    (hr1 : ∀ (i : (⟨2, ![N, M]⟩ : Shape).Idx) (k : D.contr.Idx), (D.rhsIdx i k 1).val = (i 1).val)
    (prec : Option ContractPrecision)
    (l : FVec Ideal ⟨2, ![N, K]⟩ φ₁) (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  (Ideal.matmul_constant_zero_apply D prec l r (ix2 p q)).trans (sum_contr_plain D hr hs hl0 hl1 hr0 hr1 l r p q)

end Cert.LibDotPlain

end
-- ==== Proof.LibPlainDot.lean ====
/-
  Plain matrix products on the host, read at an entry.

  Dimension numbers of a product [N, K] × [K, M] → [N, M] are PLAIN when they contract the left operand's axis 1 against
  the right operand's axis 0, keep the left operand's axis 0 and the right operand's axis 1, and have no batch axis.
  For such dimension numbers the contraction has one axis of extent K, the operands are read at (p, k) and (k, q),
  and the host's product at entry (p, q) is the sum over k of l (p, k) · r (k, q) on the extended reals.
-/
import Idealize.ShloMosaic.PureOps.Ideal
import Idealize.ShloMosaic.PureOps.Ideal.Laws
import Idealize.ShloMosaic.Lib.ValueIdx
import proofs.«140980_j89833535963776_1_alg».proof.Proof.LibDotPlain

noncomputable section

open scoped BigOperators

namespace Cert.LibPlainDot

open Idealize.ShloMosaic Idealize.ShloMosaic.ValueIdx

variable {N K M : Nat} (D : DotDims ⟨2, ![N, K]⟩ ⟨2, ![K, M]⟩ ⟨2, ![N, M]⟩)

/-- What makes dimension numbers plain. -/
structure Plain : Prop where
  lc : D.lhsContracting = [1]
  rc : D.rhsContracting = [0]
  ln : D.lhsNonContracting = [0]
  rn : D.rhsNonContracting = [1]
  lb : D.lhsBatch = []
  rb : D.rhsBatch = []

variable {D}

theorem Plain.rank (h : Plain D) : D.contr.rank = 1 := by rw [D.rank_contr, h.lc]; rfl

theorem Plain.size (h : Plain D) : D.contr.size ⟨0, by rw [h.rank]; exact Nat.one_pos⟩ = K := by
  have hp : 0 < D.lhsContracting.length := by rw [h.lc]; exact Nat.one_pos
  rw [D.size_contr 0 hp]
  have : D.lhsContracting[0] = (1 : Fin 2) := by simp [h.lc]
  rw [this]; rfl

theorem Plain.l0 (h : Plain D) (i : (⟨2, ![N, M]⟩ : Shape).Idx) (k : D.contr.Idx) : (D.lhsIdx i k 0).val = (i 0).val := by
  unfold DotDims.lhsIdx
  simp only [h.lb, h.ln, List.not_mem_nil, List.mem_singleton, dite_false, dite_true, Fin.val_cast]
  have key : ∀ (p q : Nat) (hp : p < 2) (hq : q < 2), p = q → (i ⟨p, hp⟩).val = (i ⟨q, hq⟩).val :=
    fun p q hp hq e => by subst e; rfl
  exact key _ _ _ _ (by simp [h.lb, h.ln])

theorem Plain.l1 (h : Plain D) (i : (⟨2, ![N, M]⟩ : Shape).Idx) (k : D.contr.Idx) :
    (D.lhsIdx i k 1).val = (k ⟨0, by rw [h.rank]; exact Nat.one_pos⟩).val := D.lhsIdx_val_of_single h.lc i k

theorem Plain.r0 (h : Plain D) (i : (⟨2, ![N, M]⟩ : Shape).Idx) (k : D.contr.Idx) :
    (D.rhsIdx i k 0).val = (k ⟨0, by rw [h.rank]; exact Nat.one_pos⟩).val := D.rhsIdx_val_of_single h.rc i k

theorem Plain.r1 (h : Plain D) (i : (⟨2, ![N, M]⟩ : Shape).Idx) (k : D.contr.Idx) : (D.rhsIdx i k 1).val = (i 1).val := by
  unfold DotDims.rhsIdx
  have h10 : ¬ ((1 : Fin 2) ∈ ([] : List (Fin 2))) := List.not_mem_nil
  simp only [h.rb, h.rn, List.not_mem_nil, List.mem_singleton, dite_false, dite_true, Fin.val_cast]
  have key : ∀ (p q : Nat) (hp : p < 2) (hq : q < 2), p = q → (i ⟨p, hp⟩).val = (i ⟨q, hq⟩).val :=
    fun p q hp hq e => by subst e; rfl
  exact key _ _ _ _ (by simp [h.lb, h.ln, h.rn])

/-- The host's plain product at entry (p, q). -/
theorem hostDot_apply (h : Plain D) {φ₁ φ₂ : FTy} (prec : Option ContractPrecision) (l : FVec Ideal ⟨2, ![N, K]⟩ φ₁)
    (r : FVec Ideal ⟨2, ![K, M]⟩ φ₂) (p : Fin N) (q : Fin M) :
    Host.dotGeneral D prec l r (ix2 p q) = ∑ k : Fin K, l (ix2 p k) * r (ix2 k q) := by
  simp only [Host.dotGeneral]
  rw [Ideal.dotGeneral_apply]
  exact Cert.LibDotPlain.sum_contr_plain D h.rank h.size h.l0 h.l1 h.r0 h.r1 l r p q

/-- A matrix-unit plain product into a zero accumulator at entry (p, q). -/
theorem matmul_zero_apply (h : Plain D) {φ₁ φ₂ : FTy} (prec : Option ContractPrecision) (l : FVec Ideal ⟨2, ![N, K]⟩ φ₁)
    (r : FVec Ideal ⟨2, ![K, M]⟩ φ₂) (p : Fin N) (q : Fin M) :
    FloatOps.matmul D prec l r (constant ⟨2, ![N, M]⟩ .f32 0x00000000#32) (ix2 p q) = ∑ k : Fin K, l (ix2 p k) * r (ix2 k q) :=
  Cert.LibDotPlain.matmul_zero_plain D h.rank h.size h.l0 h.l1 h.r0 h.r1 prec l r p q

end Cert.LibPlainDot

end
-- ==== Proof.LibRowReduce.lean ====
/-
  Row reductions of a matrix and a scalar broadcast, read at an index given by coordinates, at the exact values.

  A `vector.multi_reduction` along axis `1` of an `[a, b]` array, read at row `p`: for `<add>` from the zero word the sum
  over the row's `b` entries; for `<maximumf>` from the word of `-∞` the fold of `max` over them, in any order. Both are
  stated with the accumulator hypothesis as the printed programs carry it (an equation between two copies of the same
  word), so that they apply to a printed reduction as it stands. A `[1, 1]` array broadcast to `[a, b]` reads its one
  entry everywhere. Generic in `a` and `b`.
-/
import Idealize.ShloMosaic.Lib.Pipeline.Value
import Idealize.ShloMosaic.Lib.ValueIdx
import Idealize.ShloMosaic.PureOps.Ideal.Laws

namespace Idealize.ShloMosaic.ValueIdx

open Idealize.ShloMosaic

/-- A `[1, 1]` array broadcast to `[a, b]` reads, at every `(p, c)`, its one entry: both axes of the operand are unit
    axes and read coordinate `0`. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) :=
  broadcastTo_apply v h (ix2 p c) (ix2 (0 : Fin 1) (0 : Fin 1)) fun ax => by
    match ax with
    | ⟨0, _⟩ => rfl
    | ⟨1, _⟩ => rfl

/-- The sum along the rows of an `[a, b]` array of exact values, at row `p`: the sum over the row's `b` entries (the
    reduced index with the coordinate `t` put back on axis `1` is `(p, t)`). -/
theorem multiReduction_add_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ t : Fin b, src (ix2 p t) := by
  refine (Ideal.multiReduction_add_single src 0x00000000#32 h hφ hacc (ix1 p)).trans ?_
  exact Finset.sum_congr rfl fun t _ => congrArg src (funext fun c => Fin.ext (by
    match c with
    | ⟨0, _⟩ => rfl
    | ⟨1, _⟩ => rfl))

/-- The maximum along the rows of an `[a, b]` array of exact values, at row `p`: the fold of `max` over the row's `b`
    entries, started from what the word of `-∞` denotes. -/
theorem multiReduction_maximumf_row {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun t => src (ix2 p t)) := by
  refine (Ideal.multiReduction_maximumf_single src 0xFF800000#32 h hφ hacc (ix1 p)).trans ?_
  refine congrArg ((Finset.univ : Finset (Fin b)).fold max (Ideal.ofBits .f32 0xFF800000#32)) (funext fun t => ?_)
  exact congrArg src (funext fun c => Fin.ext (by
    match c with
    | ⟨0, _⟩ => rfl
    | ⟨1, _⟩ => rfl))

end Idealize.ShloMosaic.ValueIdx
-- ==== Proof.LibKeepdims.lean ====
/-
  Two layout operations read at an index given by coordinates, for a row reduction that keeps its axis
  (`sum(..., axis=-1, keepdims=True)`): the reduced vector `[a]` is first viewed as a column `[a, 1]`, and the column is
  then broadcast along the second axis to `[a, b]`. At `(p, c)` both read the vector's entry `p`: a row-major position in
  `[a, 1]` is the row number itself, and a broadcast reads coordinate `0` on the operand's unit axis whatever `c` is.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit coordinate `u`:
    the row-major position of `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`: the first axis is kept (also when
    `a = 1`, where the only row is row `0`), the second is the operand's unit axis and reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelRows.lean ====
/-
  What the two kernels leave in an output block, read at an entry: the edge kernel's gated message and position
  contribution at row p of its block are the row functions of row p of its input blocks; the node kernel's new features
  at row p are the node row function of row p of its two input blocks.

  The road: the one whole-block store of each output buffer is its payload, and a load of a whole block is the block;
  every pointwise operation reads through an index; a matrix product into a zero accumulator is the plain sum over the
  contracted index; a lane sum kept as a column is the sum over the row; a bias vector viewed as one row and repeated
  over the rows reads its entry at the column; a column repeated over the columns reads its row's one entry; a
  concatenation along the columns is the join of the operands' rows; the select form of the sign is the sign.
-/
import proofs.«140980_j89833535963776_1_alg».proof.Proof.Gen.KernelIdeal.Frame
import proofs.«140980_j89833535963776_1_alg».proof.Proof.MessageRows
import proofs.«140980_j89833535963776_1_alg».proof.Proof.RowJoin
import proofs.«140980_j89833535963776_1_alg».proof.Proof.LibPlainDot
import proofs.«140980_j89833535963776_1_alg».proof.Proof.LibRowReduce
import proofs.«140980_j89833535963776_1_alg».proof.Proof.LibKeepdims
import Idealize.ShloMosaic.Lib.ValueLayout
import Idealize.ShloMosaic.PureOps.Ideal.Laws

noncomputable section

open scoped BigOperators

namespace Cert.Egnn.KernelRows

open Cert.KernelIdeal Cert.KernelIdeal.Gen Cert.Egnn Idealize.ShloMosaic Idealize.ShloMosaic.ValueIdx

/-! ## Layout and dense-layer readings, generic in the extents -/

/-- A bias vector viewed as one row and repeated over the rows reads, at (p, q), its entry q. -/
theorem biasRow_apply {a M : ℕ} (b : FVec Ideal ⟨1, ![M]⟩ .f32) (h1 : (⟨1, ![M]⟩ : Shape).ShapeCasts ⟨2, ![1, M]⟩)
    (h2 : (⟨2, ![1, M]⟩ : Shape).Broadcasts ⟨2, ![a, M]⟩) (p : Fin a) (q : Fin M) :
    broadcastTo ⟨2, ![a, M]⟩ (shapeCast ⟨2, ![1, M]⟩ b h1) h2 (ix2 p q) = b (ix1 q) :=
  (broadcastTo_1b_ab_apply _ h2 p q).trans (shapeCast_a_1a_apply b h1 0 q)

/-- A dense layer: the product of the rounded operands into a zero accumulator plus the repeated bias row, read at
    (p, q), is row p of the left operand times the matrix plus the bias, at entry q. -/
theorem dense_apply {a K M : ℕ} (D : DotDims ⟨2, ![a, K]⟩ ⟨2, ![K, M]⟩ ⟨2, ![a, M]⟩) (hD : Cert.LibPlainDot.Plain D)
    (x : FVec Ideal ⟨2, ![a, K]⟩ .f32) (W : FVec Ideal ⟨2, ![K, M]⟩ .f32) (b : FVec Ideal ⟨1, ![M]⟩ .f32)
    (hlt : FTy.bits .bf16 < FTy.bits .f32) (h1 : (⟨1, ![M]⟩ : Shape).ShapeCasts ⟨2, ![1, M]⟩)
    (h2 : (⟨2, ![1, M]⟩ : Shape).Broadcasts ⟨2, ![a, M]⟩) (p : Fin a) (q : Fin M) :
    addf (matmul D none (truncf .bf16 x hlt) (truncf .bf16 W hlt) (constant ⟨2, ![a, M]⟩ .f32 0x00000000#32))
        (broadcastTo ⟨2, ![a, M]⟩ (shapeCast ⟨2, ![1, M]⟩ b h1) h2) (ix2 p q)
      = affine (fun k => x (ix2 p k)) (mat W) (vec b) q :=
  congrArg₂ (· + ·) (Cert.LibPlainDot.matmul_zero_apply hD none (truncf .bf16 x hlt) (truncf .bf16 W hlt) p q)
    (biasRow_apply b h1 h2 p q)

/-- A dense layer followed by the maximum with the word of 0.0. -/
theorem dense_relu_apply {a K M : ℕ} (D : DotDims ⟨2, ![a, K]⟩ ⟨2, ![K, M]⟩ ⟨2, ![a, M]⟩) (hD : Cert.LibPlainDot.Plain D)
    (x : FVec Ideal ⟨2, ![a, K]⟩ .f32) (W : FVec Ideal ⟨2, ![K, M]⟩ .f32) (b : FVec Ideal ⟨1, ![M]⟩ .f32)
    (hlt : FTy.bits .bf16 < FTy.bits .f32) (h1 : (⟨1, ![M]⟩ : Shape).ShapeCasts ⟨2, ![1, M]⟩)
    (h2 : (⟨2, ![1, M]⟩ : Shape).Broadcasts ⟨2, ![a, M]⟩) (p : Fin a) (q : Fin M) :
    maximumf (addf (matmul D none (truncf .bf16 x hlt) (truncf .bf16 W hlt) (constant ⟨2, ![a, M]⟩ .f32 0x00000000#32))
        (broadcastTo ⟨2, ![a, M]⟩ (shapeCast ⟨2, ![1, M]⟩ b h1) h2))
        (broadcast ⟨2, ![a, M]⟩ (Scalar.ofBits (F := Ideal) .f32 0x00000000#32)) (ix2 p q)
      = relu (affine (fun k => x (ix2 p k)) (mat W) (vec b) q) :=
  congrArg (fun v => max v zeroW) (dense_apply D hD x W b hlt h1 h2 p q)

/-- The Minkowski form of a 4-column array, kept as a column: twice column 0 less the lane sum, read at row p. -/
theorem minkCol_apply {a : ℕ} (u : FVec Ideal ⟨2, ![a, 4]⟩ .f32) (hs : (⟨2, ![a, 4]⟩ : Shape).Slices ![0, 0] ⟨2, ![a, 1]⟩)
    (hr : (⟨2, ![a, 4]⟩ : Shape).Reduces [1] ⟨1, ![a]⟩) (hφ : FKind.Formats .f32)
    (hacc : (0x00000000#32 : BitVec 32) = 0x00000000#32) (hc : (⟨1, ![a]⟩ : Shape).ShapeCasts ⟨2, ![a, 1]⟩) (p : Fin a) :
    subf (mulf (broadcast ⟨2, ![a, 1]⟩ (Scalar.ofBits (F := Ideal) .f32 0x40000000#32))
          (extractStridedSlice ⟨2, ![a, 1]⟩ ![0, 0] u hs))
        (shapeCast ⟨2, ![a, 1]⟩ (multiReduction .add [1] ⟨1, ![a]⟩ u 0x00000000#32 hr hφ hacc) hc) (ix2 p (0 : Fin 1))
      = mink (fun k => u (ix2 p k)) :=
  congrArg₂ (fun s t => twoW * s - t) (slice2_axis1_apply 0 u hs p (0 : Fin 1) (0 : Fin 4) rfl)
    ((shapeCast_a_a1_apply _ hc p (0 : Fin 1)).trans (multiReduction_add_row u hr hφ hacc p))

/-- The kernel's ψ at one element: the select form of the sign times the logarithm of the absolute value plus the
    word of 1.0 is ψ. -/
theorem psiK_eq (v : Ideal .f32) :
    Scalar.select (FloatOps.cmpf .ogt (FloatOps.absf v) (Scalar.ofBits (F := Ideal) .f32 0x00000000#32))
        (Scalar.select (FloatOps.cmpf .olt v (Scalar.ofBits (F := Ideal) .f32 0x00000000#32)) (Scalar.ofBits (F := Ideal) .f32 0xBF800000#32)
          (Scalar.ofBits (F := Ideal) .f32 0x3F800000#32)) v
      * Ideal.log (max v (-v) + oneW) = psi v :=
  congrArg (· * Ideal.log (max v (-v) + oneW)) (Ideal.jnp_sign_eq_sign_f32 v)

/-- The kernel's ψ over a whole array, read at an index: ψ of the element. -/
theorem psiVec_apply {s : Shape} (w : FVec Ideal s .f32) (i : s.Idx) :
    mulf (select (cmpf .ogt (absf w) (broadcast s (Scalar.ofBits (F := Ideal) .f32 0x00000000#32)))
          (select (cmpf .olt w (constant s .f32 0x00000000#32)) (constant s .f32 0xBF800000#32) (constant s .f32 0x3F800000#32)) w)
        (log (addf (absf w) (broadcast s (Scalar.ofBits (F := Ideal) .f32 0x3F800000#32)))) i
      = psi (w i) :=
  psiK_eq (w i)

/-! ## The edge kernel's payloads -/

/-- The whole-block casts of the loaded blocks change nothing. -/
theorem pay2_eq (v : Vec Ideal S1600x4 .f32) : k0_pay2 (F := Ideal) v = v := by
  unfold k0_pay2; exact shapeCast_self _ _
theorem pay3_eq (v : Vec Ideal S1600x4 .f32) : k0_pay3 (F := Ideal) v = v := by
  unfold k0_pay3; exact shapeCast_self _ _
theorem pay4_eq (v : Vec Ideal S1600x96 .f32) : k0_pay4 (F := Ideal) v = v := by
  unfold k0_pay4; exact shapeCast_self _ _
theorem pay5_eq (v : Vec Ideal S1600x96 .f32) : k0_pay5 (F := Ideal) v = v := by
  unfold k0_pay5; exact shapeCast_self _ _

/-- The Minkowski product column at row p. -/
theorem pay6_apply (v0 v2 : Vec Ideal S1600x4 .f32) (p : Fin 1600) :
    k0_pay6 (F := Ideal) v0 v2 (ix2 p (0 : Fin 1)) = mink (fun k => v0 (ix2 p k) * v2 (ix2 p k)) := by
  unfold k0_pay6
  rw [pay2_eq, pay3_eq]
  exact minkCol_apply (mulf v0 v2) _ _ _ _ _ p

/-- ψ of the Minkowski square of the difference, at row p. -/
theorem pay7_apply (v0 v2 : Vec Ideal S1600x4 .f32) (p : Fin 1600) :
    k0_pay7 (F := Ideal) v0 v2 (ix2 p (0 : Fin 1)) = normFeat (row v0 p) (row v2 p) := by
  unfold k0_pay7
  rw [pay2_eq, pay3_eq]
  refine (psiVec_apply _ (ix2 p (0 : Fin 1))).trans ?_
  exact congrArg psi (minkCol_apply (mulf (subf v0 v2) (subf v0 v2)) _ _ _ _ _ p)

/-- ψ of the Minkowski product, at row p, from the four columns the first part hands to the second. -/
theorem prod_apply (v0 v2 : Vec Ideal S1600x4 .f32) (p : Fin 1600) :
    mulf (select (cmpf .ogt (k0_pay9 (F := Ideal) v0 v2) (k0_pay10 (F := Ideal))) (k0_pay8 (F := Ideal) v0 v2) (k0_pay6 (F := Ideal) v0 v2))
        (log (addf (absf (k0_pay6 (F := Ideal) v0 v2)) (broadcast S1600x1 (Scalar.ofBits (F := Ideal) .f32 0x3F800000#32)))) (ix2 p (0 : Fin 1))
      = prodFeat (row v0 p) (row v2 p) :=
  (psiVec_apply (k0_pay6 (F := Ideal) v0 v2) (ix2 p (0 : Fin 1))).trans (congrArg psi (pay6_apply v0 v2 p))

theorem plain_194 : Cert.LibPlainDot.Plain dot_S1600x194_S194x96_S1600x96_1_0_0_1_n_n := ⟨rfl, rfl, rfl, rfl, rfl, rfl⟩
theorem plain_96 : Cert.LibPlainDot.Plain dot_S1600x96_S96x96_S1600x96_1_0_0_1_n_n := ⟨rfl, rfl, rfl, rfl, rfl, rfl⟩
theorem plain_96x1 : Cert.LibPlainDot.Plain dot_S1600x96_S96x1_S1600x1_1_0_0_1_n_n := ⟨rfl, rfl, rfl, rfl, rfl, rfl⟩

/-- The message at (p, q), from the two scalar features of row p. -/
theorem pay11_apply (v5 v7 : FVec Ideal S1600x96 .f32) (v22 v37 v43 v44 v45 : FVec Ideal S1600x1 .f32)
    (v55 : Vec Ideal S194x96 .f32) (v58 : Vec Ideal S96 .f32) (v64 : Vec Ideal S96x96 .f32) (v68 : Vec Ideal S96 .f32)
    (p : Fin 1600) (q : Fin 96) (n pr : EReal) (h37 : v37 (ix2 p (0 : Fin 1)) = n)
    (h52 : mulf (select (cmpf .ogt v44 v45) v43 v22)
        (log (addf (absf v22) (broadcast S1600x1 (Scalar.ofBits (F := Ideal) .f32 0x3F800000#32)))) (ix2 p (0 : Fin 1)) = pr) :
    k0_pay11 (F := Ideal) v5 v7 v22 v37 v43 v44 v45 v55 v58 v64 v68 (ix2 p q)
      = relu (affine (fun k => relu (affine (join4 (row v5 p) (row v7 p) n pr) (mat v55) (vec v58) k)) (mat v64) (vec v68) q) := by
  unfold k0_pay11
  refine (dense_relu_apply _ plain_96 _ v64 v68 _ _ _ p q).trans ?_
  refine congrArg (fun f => relu (affine f (mat v64) (vec v68) q)) (funext fun k => ?_)
  refine (dense_relu_apply _ plain_194 _ v55 v58 _ _ _ p k).trans ?_
  refine congrArg (fun f => relu (affine f (mat v55) (vec v58) k)) (funext fun t => ?_)
  refine (Cert.Egnn.RowJoin.join4_apply v5 v7 v37 _ _ p t).trans ?_
  exact congrArg₂ (fun a b => join4 (row v5 p) (row v7 p) a b t) h37 h52

/-- The message at (p, q) of the edge block, from row p of the input blocks. -/
theorem msg_apply (x0 x1 : Vec Ideal S1600x4 .f32) (x2 x3 : Vec Ideal S1600x96 .f32) (x4 : Vec Ideal S194x96 .f32)
    (x5 : Vec Ideal S96 .f32) (x6 : Vec Ideal S96x96 .f32) (x7 : Vec Ideal S96 .f32) (p : Fin 1600) (q : Fin 96) :
    k0_pay11 (F := Ideal) x2 x3 (k0_pay6 x0 x1) (k0_pay7 x0 x1) (k0_pay8 x0 x1) (k0_pay9 x0 x1) (k0_pay10 (F := Ideal)) x4 x5 x6 x7 (ix2 p q)
      = msg (row x0 p) (row x1 p) (row x2 p) (row x3 p) (mat x4) (vec x5) (mat x6) (vec x7) q :=
  pay11_apply x2 x3 _ _ _ _ _ x4 x5 x6 x7 p q _ _ (pay7_apply x0 x1 p) (prod_apply x0 x1 p)

/-- The gated message at (p, q), from the message row m of row p. -/
theorem pay13_apply (v5 v7 : FVec Ideal S1600x96 .f32) (v22 v37 v43 v44 v45 : FVec Ideal S1600x1 .f32)
    (v55 : Vec Ideal S194x96 .f32) (v58 : Vec Ideal S96 .f32) (v64 : Vec Ideal S96x96 .f32) (v68 : Vec Ideal S96 .f32)
    (v75 : Vec Ideal S96x1 .f32) (v78 : Vec Ideal S1 .f32) (p : Fin 1600) (q : Fin 96) (m : Fin 96 → EReal)
    (hm : ∀ k, k0_pay11 (F := Ideal) v5 v7 v22 v37 v43 v44 v45 v55 v58 v64 v68 (ix2 p k) = m k) :
    k0_pay13 (F := Ideal) v5 v7 v22 v37 v43 v44 v45 v55 v58 v64 v68 v75 v78 (ix2 p q)
      = Ideal.logistic (affine m (mat v75) (vec v78) 0) * m q := by
  unfold k0_pay13 k0_pay12
  refine (mulf_apply _ _ _).trans ?_
  refine congrArg₂ (· * ·) ?_ (hm q)
  refine (broadcastTo_a1_ab_apply _ _ p q).trans ?_
  refine congrArg Ideal.logistic ?_
  refine (dense_apply _ plain_96x1 _ v75 v78 _ _ _ p (0 : Fin 1)).trans ?_
  exact congrArg (fun f => affine f (mat v75) (vec v78) 0) (funext hm)

/-- The position contribution at (p, j), from the message row m of row p held by the rounded block y. -/
theorem pay1_apply (v3 : FVec Ideal S1600x4 .f32) (y : FVec Ideal S1600x96 .f32) (v86 : Vec Ideal S96x96 .f32)
    (v89 : Vec Ideal S96 .f32) (v95 : Vec Ideal S96x1 .f32) (p : Fin 1600) (j : Fin 4) (m : Fin 96 → EReal)
    (hm : ∀ k, y (ix2 p k) = m k) :
    k0_pay1 (F := Ideal) v3 (truncf .bf16 y bitsLt_bf16_f32) v86 v89 v95 (ix2 p j)
      = (∑ k, relu (affine m (mat v86) (vec v89) k) * v95 (ix2 k (0 : Fin 1))) * v3 (ix2 p j) := by
  unfold k0_pay1
  refine (mulf_apply _ _ _).trans ?_
  refine congrArg (· * v3 (ix2 p j)) ?_
  refine (broadcastTo_a1_ab_apply _ _ p j).trans ?_
  refine (Cert.LibPlainDot.matmul_zero_apply plain_96x1 none _ _ p (0 : Fin 1)).trans ?_
  refine Finset.sum_congr rfl fun k _ => congrArg (· * v95 (ix2 k (0 : Fin 1))) ?_
  refine (dense_relu_apply _ plain_96 y v86 v89 _ _ _ p k).trans ?_
  exact congrArg (fun f => relu (affine f (mat v86) (vec v89) k)) (funext hm)

theorem zeros2 : (![0, 0] : Fin 2 → Nat) = fun _ => 0 := funext fun a => by fin_cases a <;> rfl
theorem zeros1 : (![0] : Fin 1 → Nat) = fun _ => 0 := funext fun a => by fin_cases a; rfl

theorem out_wgm_apply (x0 x1 : Vec Ideal S1600x4 .f32) (x2 x3 : Vec Ideal S1600x96 .f32) (x4 : Vec Ideal S194x96 .f32) (x5 : Vec Ideal S96 .f32) (x6 : Vec Ideal S96x96 .f32) (x7 : Vec Ideal S96 .f32) (x8 : Vec Ideal S96x1 .f32) (x9 : Vec Ideal S1 .f32) (x10 : Vec Ideal S96x96 .f32) (x11 : Vec Ideal S96 .f32) (x12 : Vec Ideal S96x1 .f32) (p : Fin 1600) (q : Fin 96) :
    out0_13 (F := Ideal) x0 x1 x2 x3 x4 x5 x6 x7 x8 x9 x10 x11 x12 (ix2 p q)
      = wgmRow (row x0 p) (row x1 p) (row x2 p) (row x3 p) (mat x4) (vec x5) (mat x6) (vec x7) (mat x8) (vec x9) q := by
  unfold out0_13
  rw [View.canon_unit_zero (S := S1600x96) zeros2 inb_S1600x96_S1600x96_0_0]
  simp only [View.ld_unit_zero (S := S1600x4) zeros2 inb_S1600x4_S1600x4_0_0,
    View.ld_unit_zero (S := S1600x96) zeros2 inb_S1600x96_S1600x96_0_0,
    View.ld_unit_zero (S := S194x96) zeros2 inb_S194x96_S194x96_0_0,
    View.ld_unit_zero (S := S96) zeros1 inb_S96_S96_0,
    View.ld_unit_zero (S := S96x96) zeros2 inb_S96x96_S96x96_0_0,
    View.ld_unit_zero (S := S96x1) zeros2 inb_S96x1_S96x1_0_0,
    View.ld_unit_zero (S := S1) zeros1 inb_S1_S1_0]
  rw [pay4_eq, pay5_eq]
  exact pay13_apply x2 x3 _ _ _ _ _ x4 x5 x6 x7 x8 x9 p q _ (fun k => msg_apply x0 x1 x2 x3 x4 x5 x6 x7 p k)

theorem out_vals_apply (x0 x1 : Vec Ideal S1600x4 .f32) (x2 x3 : Vec Ideal S1600x96 .f32) (x4 : Vec Ideal S194x96 .f32) (x5 : Vec Ideal S96 .f32) (x6 : Vec Ideal S96x96 .f32) (x7 : Vec Ideal S96 .f32) (x8 : Vec Ideal S96x1 .f32) (x9 : Vec Ideal S1 .f32) (x10 : Vec Ideal S96x96 .f32) (x11 : Vec Ideal S96 .f32) (x12 : Vec Ideal S96x1 .f32) (p : Fin 1600) (j : Fin 4) :
    out0_14 (F := Ideal) x0 x1 x2 x3 x4 x5 x6 x7 x8 x9 x10 x11 x12 (ix2 p j)
      = valsRow (row x0 p) (row x1 p) (row x2 p) (row x3 p) (mat x4) (vec x5) (mat x6) (vec x7) (mat x10) (vec x11) (mat x12) j := by
  unfold out0_14
  rw [View.canon_unit_zero (S := S1600x4) zeros2 inb_S1600x4_S1600x4_0_0]
  simp only [View.ld_unit_zero (S := S1600x4) zeros2 inb_S1600x4_S1600x4_0_0,
    View.ld_unit_zero (S := S1600x96) zeros2 inb_S1600x96_S1600x96_0_0,
    View.ld_unit_zero (S := S194x96) zeros2 inb_S194x96_S194x96_0_0,
    View.ld_unit_zero (S := S96) zeros1 inb_S96_S96_0,
    View.ld_unit_zero (S := S96x96) zeros2 inb_S96x96_S96x96_0_0,
    View.ld_unit_zero (S := S96x1) zeros2 inb_S96x1_S96x1_0_0]
  rw [pay3_eq, pay4_eq, pay5_eq]
  unfold k0_pay12
  exact pay1_apply x1 _ x10 x11 x12 p j _ (fun k => msg_apply x0 x1 x2 x3 x4 x5 x6 x7 p k)

/-! ## The node kernel's payload -/

theorem plain_n192 : Cert.LibPlainDot.Plain dot_S5000x192_S192x96_S5000x96_1_0_0_1_n_n := ⟨rfl, rfl, rfl, rfl, rfl, rfl⟩
theorem plain_n96 : Cert.LibPlainDot.Plain dot_S5000x96_S96x96_S5000x96_1_0_0_1_n_n := ⟨rfl, rfl, rfl, rfl, rfl, rfl⟩

/-- The node's new features at (p, q), from row p of the two input blocks. -/
theorem pay_node_apply (v0 v1 : Vec Ideal S5000x96 .f32) (v5 : Vec Ideal S192x96 .f32) (v8 : Vec Ideal S96 .f32)
    (v14 : Vec Ideal S96x96 .f32) (v18 : Vec Ideal S96 .f32) (p : Fin 5000) (q : Fin 96) :
    k1_pay1 (F := Ideal) v0 v1 v5 v8 v14 v18 (ix2 p q)
      = nodeRow (row v0 p) (row v1 p) (mat v5) (vec v8) (mat v14) (vec v18) q := by
  unfold k1_pay1
  refine (addf_apply _ _ _).trans ?_
  refine congrArg (v0 (ix2 p q) + ·) ?_
  refine (dense_apply _ plain_n96 _ v14 v18 _ _ _ p q).trans ?_
  refine congrArg (fun f => affine f (mat v14) (vec v18) q) (funext fun k => ?_)
  refine (dense_relu_apply _ plain_n192 _ v5 v8 _ _ _ p k).trans ?_
  refine congrArg (fun f => relu (affine f (mat v5) (vec v8) k)) (funext fun t => ?_)
  refine (Cert.Egnn.RowJoin.join2_apply v0 _ _ p t).trans ?_
  exact congrArg (fun w => join2 (row v0 p) w t)
    (funext fun j => congrFun (shapeCast_self v1 shapeCasts_S5000x96_S5000x96) (ix2 p j))

theorem out_node_apply (x0 x1 : Vec Ideal S5000x96 .f32) (x2 : Vec Ideal S192x96 .f32) (x3 : Vec Ideal S96 .f32) (x4 : Vec Ideal S96x96 .f32) (x5 : Vec Ideal S96 .f32) (p : Fin 5000) (q : Fin 96) :
    out1_6 (F := Ideal) x0 x1 x2 x3 x4 x5 (ix2 p q) = nodeRow (row x0 p) (row x1 p) (mat x2) (vec x3) (mat x4) (vec x5) q := by
  unfold out1_6
  rw [View.canon_unit_zero (S := S5000x96) zeros2 inb_S5000x96_S5000x96_0_0]
  simp only [View.ld_unit_zero (S := S5000x96) zeros2 inb_S5000x96_S5000x96_0_0,
    View.ld_unit_zero (S := S192x96) zeros2 inb_S192x96_S192x96_0_0,
    View.ld_unit_zero (S := S96) zeros1 inb_S96_S96_0,
    View.ld_unit_zero (S := S96x96) zeros2 inb_S96x96_S96x96_0_0]
  exact pay_node_apply x0 x1 x2 x3 x4 x5 p q

end Cert.Egnn.KernelRows

end
-- ==== Proof.BlockReads.lean ====
/-
  What a window's block at a grid point holds, as entries of the window's array when the region is entered.

  Both kernels walk their long arrays in row blocks, point t taking rows B·t … B·t + B − 1 (B = 1600 edges for the edge
  kernel over 500 points, B = 5000 nodes for the node kernel over 10 points) and every column; the weight matrices and
  bias rows are taken whole at every point. The index maps are decided once over each grid; a block's entry (p, k) is
  then the array's entry (B·t + p, k), and a whole window's block is its array.
-/
import proofs.«140980_j89833535963776_1_alg».proof.Proof.Gen.KernelIdeal.Frame
import Idealize.ShloMosaic.Lib.Pipeline.Value
import Idealize.ShloMosaic.Lib.ValueIdx

set_option maxRecDepth 16384

noncomputable section

namespace Cert.KernelIdeal.BlockReads

open Cert.KernelIdeal Cert.KernelIdeal.Gen Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-! ## The edge kernel's windows -/

/-- The edge kernel's index maps over its 500 points: a row-blocked window (inputs 0–3, outputs 13 and 14) is at block
    row t and block column 0; a weight window is at block 0 on every axis. -/
theorem idx0 : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_13.index t (0 : Fin 2) = t.val
    ∧ win0_13.index t (1 : Fin 2) = 0
    ∧ win0_14.index t (0 : Fin 2) = t.val
    ∧ win0_14.index t (1 : Fin 2) = 0
    ∧ win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 2) = 0
    ∧ win0_10.index t (1 : Fin 2) = 0
    ∧ win0_11.index t (0 : Fin 1) = 0
    ∧ win0_12.index t (0 : Fin 2) = 0
    ∧ win0_12.index t (1 : Fin 2) = 0 :=
  (by decide +kernel : ∀ t : Fin grid0.N, _)

/-- Region 0, input window 0: the block at point t holds rows 1600·t … 1600·t + 1599 of its array. -/
theorem iblk0_0_apply (c : Dev nD) (t : Fin cfg0.N) (p : Fin 1600) (k : Fin 4) (r : Fin 800000) (hr : r.val = 1600 * t.val + p.val) :
    (iblk0 V c 0 t : Vec F S1600x4 .f32) (ix2 p k) = (V c main_v6 : S800000x4.Idx → Elt F .f32) (ix2 r k) := by
  obtain ⟨e0, e1, e2, e3, e4, e5, e6, e7, e8, e9, e10, e11, e12, e13, e14, e15, e16, e17, e18, e19, e20, e21, e22, e23, e24, e25⟩ := idx0 t
  unfold iblk0
  rw [View.read_apply]
  show V c main_v6 _ = V c main_v6 _
  refine congrArg (V c main_v6 : S800000x4.Idx → Elt F .f32) (funext fun a => Fin.ext ?_)
  match a with
  | ⟨0, _⟩ => show win0_0.index t 0 * 1600 + 1 * p.val = r.val; rw [e0, hr]; omega
  | ⟨1, _⟩ => show win0_0.index t 1 * 4 + 1 * k.val = k.val; rw [e1]; omega

/-- Region 0, input window 1: the block at point t holds rows 1600·t … 1600·t + 1599 of its array. -/
theorem iblk0_1_apply (c : Dev nD) (t : Fin cfg0.N) (p : Fin 1600) (k : Fin 4) (r : Fin 800000) (hr : r.val = 1600 * t.val + p.val) :
    (iblk0 V c 1 t : Vec F S1600x4 .f32) (ix2 p k) = (V c main_v13 : S800000x4.Idx → Elt F .f32) (ix2 r k) := by
  obtain ⟨e0, e1, e2, e3, e4, e5, e6, e7, e8, e9, e10, e11, e12, e13, e14, e15, e16, e17, e18, e19, e20, e21, e22, e23, e24, e25⟩ := idx0 t
  unfold iblk0
  rw [View.read_apply]
  show V c main_v13 _ = V c main_v13 _
  refine congrArg (V c main_v13 : S800000x4.Idx → Elt F .f32) (funext fun a => Fin.ext ?_)
  match a with
  | ⟨0, _⟩ => show win0_1.index t 0 * 1600 + 1 * p.val = r.val; rw [e2, hr]; omega
  | ⟨1, _⟩ => show win0_1.index t 1 * 4 + 1 * k.val = k.val; rw [e3]; omega

/-- Region 0, input window 2: the block at point t holds rows 1600·t … 1600·t + 1599 of its array. -/
theorem iblk0_2_apply (c : Dev nD) (t : Fin cfg0.N) (p : Fin 1600) (k : Fin 96) (r : Fin 800000) (hr : r.val = 1600 * t.val + p.val) :
    (iblk0 V c 2 t : Vec F S1600x96 .f32) (ix2 p k) = (V c main_v20 : S800000x96.Idx → Elt F .f32) (ix2 r k) := by
  obtain ⟨e0, e1, e2, e3, e4, e5, e6, e7, e8, e9, e10, e11, e12, e13, e14, e15, e16, e17, e18, e19, e20, e21, e22, e23, e24, e25⟩ := idx0 t
  unfold iblk0
  rw [View.read_apply]
  show V c main_v20 _ = V c main_v20 _
  refine congrArg (V c main_v20 : S800000x96.Idx → Elt F .f32) (funext fun a => Fin.ext ?_)
  match a with
  | ⟨0, _⟩ => show win0_2.index t 0 * 1600 + 1 * p.val = r.val; rw [e4, hr]; omega
  | ⟨1, _⟩ => show win0_2.index t 1 * 96 + 1 * k.val = k.val; rw [e5]; omega

/-- Region 0, input window 3: the block at point t holds rows 1600·t … 1600·t + 1599 of its array. -/
theorem iblk0_3_apply (c : Dev nD) (t : Fin cfg0.N) (p : Fin 1600) (k : Fin 96) (r : Fin 800000) (hr : r.val = 1600 * t.val + p.val) :
    (iblk0 V c 3 t : Vec F S1600x96 .f32) (ix2 p k) = (V c main_v27 : S800000x96.Idx → Elt F .f32) (ix2 r k) := by
  obtain ⟨e0, e1, e2, e3, e4, e5, e6, e7, e8, e9, e10, e11, e12, e13, e14, e15, e16, e17, e18, e19, e20, e21, e22, e23, e24, e25⟩ := idx0 t
  unfold iblk0
  rw [View.read_apply]
  show V c main_v27 _ = V c main_v27 _
  refine congrArg (V c main_v27 : S800000x96.Idx → Elt F .f32) (funext fun a => Fin.ext ?_)
  match a with
  | ⟨0, _⟩ => show win0_3.index t 0 * 1600 + 1 * p.val = r.val; rw [e6, hr]; omega
  | ⟨1, _⟩ => show win0_3.index t 1 * 96 + 1 * k.val = k.val; rw [e7]; omega

/-- Region 0, input window 4: its one block is the whole array, at every point. -/
theorem iblk0_4_eq (c : Dev nD) (t : Fin cfg0.N) :
    (iblk0 V c 4 t : Vec F S194x96 .f32) = (V c main_arg4 : S194x96.Idx → Elt F .f32) := by
  obtain ⟨e0, e1, e2, e3, e4, e5, e6, e7, e8, e9, e10, e11, e12, e13, e14, e15, e16, e17, e18, e19, e20, e21, e22, e23, e24, e25⟩ := idx0 t
  funext j
  unfold iblk0
  rw [View.read_apply]
  show V c main_arg4 _ = V c main_arg4 _
  refine congrArg (V c main_arg4 : S194x96.Idx → Elt F .f32) (funext fun a => Fin.ext ?_)
  match a with
  | ⟨0, _⟩ => show win0_4.index t 0 * 194 + 1 * (j 0).val = (j 0).val; rw [e12]; omega
  | ⟨1, _⟩ => show win0_4.index t 1 * 96 + 1 * (j 1).val = (j 1).val; rw [e13]; omega

/-- Region 0, input window 5: its one block is the whole array, at every point. -/
theorem iblk0_5_eq (c : Dev nD) (t : Fin cfg0.N) :
    (iblk0 V c 5 t : Vec F S96 .f32) = (V c main_arg5 : S96.Idx → Elt F .f32) := by
  obtain ⟨e0, e1, e2, e3, e4, e5, e6, e7, e8, e9, e10, e11, e12, e13, e14, e15, e16, e17, e18, e19, e20, e21, e22, e23, e24, e25⟩ := idx0 t
  funext j
  unfold iblk0
  rw [View.read_apply]
  show V c main_arg5 _ = V c main_arg5 _
  refine congrArg (V c main_arg5 : S96.Idx → Elt F .f32) (funext fun a => Fin.ext ?_)
  match a with
  | ⟨0, _⟩ => show win0_5.index t 0 * 96 + 1 * (j 0).val = (j 0).val; rw [e14]; omega

/-- Region 0, input window 6: its one block is the whole array, at every point. -/
theorem iblk0_6_eq (c : Dev nD) (t : Fin cfg0.N) :
    (iblk0 V c 6 t : Vec F S96x96 .f32) = (V c main_arg6 : S96x96.Idx → Elt F .f32) := by
  obtain ⟨e0, e1, e2, e3, e4, e5, e6, e7, e8, e9, e10, e11, e12, e13, e14, e15, e16, e17, e18, e19, e20, e21, e22, e23, e24, e25⟩ := idx0 t
  funext j
  unfold iblk0
  rw [View.read_apply]
  show V c main_arg6 _ = V c main_arg6 _
  refine congrArg (V c main_arg6 : S96x96.Idx → Elt F .f32) (funext fun a => Fin.ext ?_)
  match a with
  | ⟨0, _⟩ => show win0_6.index t 0 * 96 + 1 * (j 0).val = (j 0).val; rw [e15]; omega
  | ⟨1, _⟩ => show win0_6.index t 1 * 96 + 1 * (j 1).val = (j 1).val; rw [e16]; omega

/-- Region 0, input window 7: its one block is the whole array, at every point. -/
theorem iblk0_7_eq (c : Dev nD) (t : Fin cfg0.N) :
    (iblk0 V c 7 t : Vec F S96 .f32) = (V c main_arg7 : S96.Idx → Elt F .f32) := by
  obtain ⟨e0, e1, e2, e3, e4, e5, e6, e7, e8, e9, e10, e11, e12, e13, e14, e15, e16, e17, e18, e19, e20, e21, e22, e23, e24, e25⟩ := idx0 t
  funext j
  unfold iblk0
  rw [View.read_apply]
  show V c main_arg7 _ = V c main_arg7 _
  refine congrArg (V c main_arg7 : S96.Idx → Elt F .f32) (funext fun a => Fin.ext ?_)
  match a with
  | ⟨0, _⟩ => show win0_7.index t 0 * 96 + 1 * (j 0).val = (j 0).val; rw [e17]; omega

/-- Region 0, input window 8: its one block is the whole array, at every point. -/
theorem iblk0_8_eq (c : Dev nD) (t : Fin cfg0.N) :
    (iblk0 V c 8 t : Vec F S96x1 .f32) = (V c main_arg8 : S96x1.Idx → Elt F .f32) := by
  obtain ⟨e0, e1, e2, e3, e4, e5, e6, e7, e8, e9, e10, e11, e12, e13, e14, e15, e16, e17, e18, e19, e20, e21, e22, e23, e24, e25⟩ := idx0 t
  funext j
  unfold iblk0
  rw [View.read_apply]
  show V c main_arg8 _ = V c main_arg8 _
  refine congrArg (V c main_arg8 : S96x1.Idx → Elt F .f32) (funext fun a => Fin.ext ?_)
  match a with
  | ⟨0, _⟩ => show win0_8.index t 0 * 96 + 1 * (j 0).val = (j 0).val; rw [e18]; omega
  | ⟨1, _⟩ => show win0_8.index t 1 * 1 + 1 * (j 1).val = (j 1).val; rw [e19]; omega

/-- Region 0, input window 9: its one block is the whole array, at every point. -/
theorem iblk0_9_eq (c : Dev nD) (t : Fin cfg0.N) :
    (iblk0 V c 9 t : Vec F S1 .f32) = (V c main_arg9 : S1.Idx → Elt F .f32) := by
  obtain ⟨e0, e1, e2, e3, e4, e5, e6, e7, e8, e9, e10, e11, e12, e13, e14, e15, e16, e17, e18, e19, e20, e21, e22, e23, e24, e25⟩ := idx0 t
  funext j
  unfold iblk0
  rw [View.read_apply]
  show V c main_arg9 _ = V c main_arg9 _
  refine congrArg (V c main_arg9 : S1.Idx → Elt F .f32) (funext fun a => Fin.ext ?_)
  match a with
  | ⟨0, _⟩ => show win0_9.index t 0 * 1 + 1 * (j 0).val = (j 0).val; rw [e20]; omega

/-- Region 0, input window 10: its one block is the whole array, at every point. -/
theorem iblk0_10_eq (c : Dev nD) (t : Fin cfg0.N) :
    (iblk0 V c 10 t : Vec F S96x96 .f32) = (V c main_arg14 : S96x96.Idx → Elt F .f32) := by
  obtain ⟨e0, e1, e2, e3, e4, e5, e6, e7, e8, e9, e10, e11, e12, e13, e14, e15, e16, e17, e18, e19, e20, e21, e22, e23, e24, e25⟩ := idx0 t
  funext j
  unfold iblk0
  rw [View.read_apply]
  show V c main_arg14 _ = V c main_arg14 _
  refine congrArg (V c main_arg14 : S96x96.Idx → Elt F .f32) (funext fun a => Fin.ext ?_)
  match a with
  | ⟨0, _⟩ => show win0_10.index t 0 * 96 + 1 * (j 0).val = (j 0).val; rw [e21]; omega
  | ⟨1, _⟩ => show win0_10.index t 1 * 96 + 1 * (j 1).val = (j 1).val; rw [e22]; omega

/-- Region 0, input window 11: its one block is the whole array, at every point. -/
theorem iblk0_11_eq (c : Dev nD) (t : Fin cfg0.N) :
    (iblk0 V c 11 t : Vec F S96 .f32) = (V c main_arg15 : S96.Idx → Elt F .f32) := by
  obtain ⟨e0, e1, e2, e3, e4, e5, e6, e7, e8, e9, e10, e11, e12, e13, e14, e15, e16, e17, e18, e19, e20, e21, e22, e23, e24, e25⟩ := idx0 t
  funext j
  unfold iblk0
  rw [View.read_apply]
  show V c main_arg15 _ = V c main_arg15 _
  refine congrArg (V c main_arg15 : S96.Idx → Elt F .f32) (funext fun a => Fin.ext ?_)
  match a with
  | ⟨0, _⟩ => show win0_11.index t 0 * 96 + 1 * (j 0).val = (j 0).val; rw [e23]; omega

/-- Region 0, input window 12: its one block is the whole array, at every point. -/
theorem iblk0_12_eq (c : Dev nD) (t : Fin cfg0.N) :
    (iblk0 V c 12 t : Vec F S96x1 .f32) = (V c main_arg16 : S96x1.Idx → Elt F .f32) := by
  obtain ⟨e0, e1, e2, e3, e4, e5, e6, e7, e8, e9, e10, e11, e12, e13, e14, e15, e16, e17, e18, e19, e20, e21, e22, e23, e24, e25⟩ := idx0 t
  funext j
  unfold iblk0
  rw [View.read_apply]
  show V c main_arg16 _ = V c main_arg16 _
  refine congrArg (V c main_arg16 : S96x1.Idx → Elt F .f32) (funext fun a => Fin.ext ?_)
  match a with
  | ⟨0, _⟩ => show win0_12.index t 0 * 96 + 1 * (j 0).val = (j 0).val; rw [e24]; omega
  | ⟨1, _⟩ => show win0_12.index t 1 * 1 + 1 * (j 1).val = (j 1).val; rw [e25]; omega

/-! ## The node kernel's windows -/

/-- The node kernel's index maps over its 10 points. -/
theorem idx1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_6.index t (0 : Fin 2) = t.val
    ∧ win1_6.index t (1 : Fin 2) = 0
    ∧ win1_2.index t (0 : Fin 2) = 0
    ∧ win1_2.index t (1 : Fin 2) = 0
    ∧ win1_3.index t (0 : Fin 1) = 0
    ∧ win1_4.index t (0 : Fin 2) = 0
    ∧ win1_4.index t (1 : Fin 2) = 0
    ∧ win1_5.index t (0 : Fin 1) = 0 :=
  (by decide +kernel : ∀ t : Fin grid1.N, _)

/-- Region 1, input window 0: the block at point t holds rows 5000·t … 5000·t + 4999 of its array. -/
theorem iblk1_0_apply (c : Dev nD) (t : Fin cfg1.N) (p : Fin 5000) (k : Fin 96) (r : Fin 50000) (hr : r.val = 5000 * t.val + p.val) :
    (iblk1 V c 0 t : Vec F S5000x96 .f32) (ix2 p k) = (V c main_arg1 : S50000x96.Idx → Elt F .f32) (ix2 r k) := by
  obtain ⟨e0, e1, e2, e3, e4, e5, e6, e7, e8, e9, e10, e11⟩ := idx1 t
  unfold iblk1
  rw [View.read_apply]
  show V c main_arg1 _ = V c main_arg1 _
  refine congrArg (V c main_arg1 : S50000x96.Idx → Elt F .f32) (funext fun a => Fin.ext ?_)
  match a with
  | ⟨0, _⟩ => show win1_0.index t 0 * 5000 + 1 * p.val = r.val; rw [e0, hr]; omega
  | ⟨1, _⟩ => show win1_0.index t 1 * 96 + 1 * k.val = k.val; rw [e1]; omega

/-- Region 1, input window 1: the block at point t holds rows 5000·t … 5000·t + 4999 of its array. -/
theorem iblk1_1_apply (c : Dev nD) (t : Fin cfg1.N) (p : Fin 5000) (k : Fin 96) (r : Fin 50000) (hr : r.val = 5000 * t.val + p.val) :
    (iblk1 V c 1 t : Vec F S5000x96 .f32) (ix2 p k) = (V c main_v31 : S50000x96.Idx → Elt F .f32) (ix2 r k) := by
  obtain ⟨e0, e1, e2, e3, e4, e5, e6, e7, e8, e9, e10, e11⟩ := idx1 t
  unfold iblk1
  rw [View.read_apply]
  show V c main_v31 _ = V c main_v31 _
  refine congrArg (V c main_v31 : S50000x96.Idx → Elt F .f32) (funext fun a => Fin.ext ?_)
  match a with
  | ⟨0, _⟩ => show win1_1.index t 0 * 5000 + 1 * p.val = r.val; rw [e2, hr]; omega
  | ⟨1, _⟩ => show win1_1.index t 1 * 96 + 1 * k.val = k.val; rw [e3]; omega

/-- Region 1, input window 2: its one block is the whole array, at every point. -/
theorem iblk1_2_eq (c : Dev nD) (t : Fin cfg1.N) :
    (iblk1 V c 2 t : Vec F S192x96 .f32) = (V c main_arg10 : S192x96.Idx → Elt F .f32) := by
  obtain ⟨e0, e1, e2, e3, e4, e5, e6, e7, e8, e9, e10, e11⟩ := idx1 t
  funext j
  unfold iblk1
  rw [View.read_apply]
  show V c main_arg10 _ = V c main_arg10 _
  refine congrArg (V c main_arg10 : S192x96.Idx → Elt F .f32) (funext fun a => Fin.ext ?_)
  match a with
  | ⟨0, _⟩ => show win1_2.index t 0 * 192 + 1 * (j 0).val = (j 0).val; rw [e6]; omega
  | ⟨1, _⟩ => show win1_2.index t 1 * 96 + 1 * (j 1).val = (j 1).val; rw [e7]; omega

/-- Region 1, input window 3: its one block is the whole array, at every point. -/
theorem iblk1_3_eq (c : Dev nD) (t : Fin cfg1.N) :
    (iblk1 V c 3 t : Vec F S96 .f32) = (V c main_arg11 : S96.Idx → Elt F .f32) := by
  obtain ⟨e0, e1, e2, e3, e4, e5, e6, e7, e8, e9, e10, e11⟩ := idx1 t
  funext j
  unfold iblk1
  rw [View.read_apply]
  show V c main_arg11 _ = V c main_arg11 _
  refine congrArg (V c main_arg11 : S96.Idx → Elt F .f32) (funext fun a => Fin.ext ?_)
  match a with
  | ⟨0, _⟩ => show win1_3.index t 0 * 96 + 1 * (j 0).val = (j 0).val; rw [e8]; omega

/-- Region 1, input window 4: its one block is the whole array, at every point. -/
theorem iblk1_4_eq (c : Dev nD) (t : Fin cfg1.N) :
    (iblk1 V c 4 t : Vec F S96x96 .f32) = (V c main_arg12 : S96x96.Idx → Elt F .f32) := by
  obtain ⟨e0, e1, e2, e3, e4, e5, e6, e7, e8, e9, e10, e11⟩ := idx1 t
  funext j
  unfold iblk1
  rw [View.read_apply]
  show V c main_arg12 _ = V c main_arg12 _
  refine congrArg (V c main_arg12 : S96x96.Idx → Elt F .f32) (funext fun a => Fin.ext ?_)
  match a with
  | ⟨0, _⟩ => show win1_4.index t 0 * 96 + 1 * (j 0).val = (j 0).val; rw [e9]; omega
  | ⟨1, _⟩ => show win1_4.index t 1 * 96 + 1 * (j 1).val = (j 1).val; rw [e10]; omega

/-- Region 1, input window 5: its one block is the whole array, at every point. -/
theorem iblk1_5_eq (c : Dev nD) (t : Fin cfg1.N) :
    (iblk1 V c 5 t : Vec F S96 .f32) = (V c main_arg13 : S96.Idx → Elt F .f32) := by
  obtain ⟨e0, e1, e2, e3, e4, e5, e6, e7, e8, e9, e10, e11⟩ := idx1 t
  funext j
  unfold iblk1
  rw [View.read_apply]
  show V c main_arg13 _ = V c main_arg13 _
  refine congrArg (V c main_arg13 : S96.Idx → Elt F .f32) (funext fun a => Fin.ext ?_)
  match a with
  | ⟨0, _⟩ => show win1_5.index t 0 * 96 + 1 * (j 0).val = (j 0).val; rw [e11]; omega

end Cert.KernelIdeal.BlockReads

end
-- ==== Proof.EdgeArrays.lean ====
/-
  The edge kernel's two output arrays after its region, as whole-array functions of the arrays the region finds.

  Point t of the 500 writes back rows 1600·t … 1600·t + 1599 of both outputs. What it writes at row p of its block is the
  row function of row p of its four endpoint blocks, that is of row 1600·t + p of the four endpoint arrays, and of the
  weight arrays; the 500 blocks cover all 800000 rows, row r lying in block r / 1600. So after the region the
  gated-message array holds at (r, q) the gated message of edge r, and the position-contribution array at (r, j) its
  position contribution, each read off the arrays as the region finds them.
-/
import proofs.«140980_j89833535963776_1_alg».proof.Proof.Gen.KernelIdeal.Frame
import proofs.«140980_j89833535963776_1_alg».proof.Proof.MessageRows
import proofs.«140980_j89833535963776_1_alg».proof.Proof.KernelRows
import proofs.«140980_j89833535963776_1_alg».proof.Proof.BlockReads
import Idealize.ShloMosaic.Lib.Pipeline.Value
import Idealize.ShloMosaic.Lib.ValueIdx

set_option maxRecDepth 16384

noncomputable section

namespace Cert.Egnn.KernelArrays

open Cert.KernelIdeal Cert.KernelIdeal.Gen Cert.KernelIdeal.BlockReads Cert.Egnn Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The gated messages of all 800000 edges as one array, from the arrays the edge kernel's region finds. -/
def wgmArr (c : Dev nD) : S800000x96.Idx → EReal := fun i =>
  wgmRow (row (V c main_v6 : S800000x4.Idx → EReal) (i 0)) (row (V c main_v13 : S800000x4.Idx → EReal) (i 0))
    (row (V c main_v20 : S800000x96.Idx → EReal) (i 0)) (row (V c main_v27 : S800000x96.Idx → EReal) (i 0))
    (mat (V c main_arg4 : S194x96.Idx → EReal)) (vec (V c main_arg5 : S96.Idx → EReal))
    (mat (V c main_arg6 : S96x96.Idx → EReal)) (vec (V c main_arg7 : S96.Idx → EReal))
    (mat (V c main_arg8 : S96x1.Idx → EReal)) (vec (V c main_arg9 : S1.Idx → EReal)) (i 1)

/-- The position contributions of all 800000 edges as one array. -/
def valsArr (c : Dev nD) : S800000x4.Idx → EReal := fun i =>
  valsRow (row (V c main_v6 : S800000x4.Idx → EReal) (i 0)) (row (V c main_v13 : S800000x4.Idx → EReal) (i 0))
    (row (V c main_v20 : S800000x96.Idx → EReal) (i 0)) (row (V c main_v27 : S800000x96.Idx → EReal) (i 0))
    (mat (V c main_arg4 : S194x96.Idx → EReal)) (vec (V c main_arg5 : S96.Idx → EReal))
    (mat (V c main_arg6 : S96x96.Idx → EReal)) (vec (V c main_arg7 : S96.Idx → EReal))
    (mat (V c main_arg14 : S96x96.Idx → EReal)) (vec (V c main_arg15 : S96.Idx → EReal))
    (mat (V c main_arg16 : S96x1.Idx → EReal)) (i 1)

theorem N500 : cfg0.N = 500 := N_0

/-- The gated message depends on its ten arguments only through their values. -/
theorem wgmRow_congr {a a' b b' : Fin 4 → EReal} {hi hi' hj hj' : Fin 96 → EReal} {We1 We1' : Fin 194 → Fin 96 → EReal}
    {be1 be1' : Fin 96 → EReal} {We2 We2' : Fin 96 → Fin 96 → EReal} {be2 be2' : Fin 96 → EReal}
    {Wm Wm' : Fin 96 → Fin 1 → EReal} {bm bm' : Fin 1 → EReal}
    (h0 : a = a') (h1 : b = b') (h2 : hi = hi') (h3 : hj = hj') (h4 : We1 = We1') (h5 : be1 = be1') (h6 : We2 = We2')
    (h7 : be2 = be2') (h8 : Wm = Wm') (h9 : bm = bm') (q : Fin 96) :
    wgmRow a b hi hj We1 be1 We2 be2 Wm bm q = wgmRow a' b' hi' hj' We1' be1' We2' be2' Wm' bm' q := by
  rw [h0, h1, h2, h3, h4, h5, h6, h7, h8, h9]

/-- The position contribution depends on its eleven arguments only through their values. -/
theorem valsRow_congr {a a' b b' : Fin 4 → EReal} {hi hi' hj hj' : Fin 96 → EReal} {We1 We1' : Fin 194 → Fin 96 → EReal}
    {be1 be1' : Fin 96 → EReal} {We2 We2' : Fin 96 → Fin 96 → EReal} {be2 be2' : Fin 96 → EReal}
    {Wx1 Wx1' : Fin 96 → Fin 96 → EReal} {bx1 bx1' : Fin 96 → EReal} {Wx2 Wx2' : Fin 96 → Fin 1 → EReal}
    (h0 : a = a') (h1 : b = b') (h2 : hi = hi') (h3 : hj = hj') (h4 : We1 = We1') (h5 : be1 = be1') (h6 : We2 = We2')
    (h7 : be2 = be2') (h8 : Wx1 = Wx1') (h9 : bx1 = bx1') (h10 : Wx2 = Wx2') (j : Fin 4) :
    valsRow a b hi hj We1 be1 We2 be2 Wx1 bx1 Wx2 j = valsRow a' b' hi' hj' We1' be1' We2' be2' Wx1' bx1' Wx2' j := by
  rw [h0, h1, h2, h3, h4, h5, h6, h7, h8, h9, h10]

/-! ## The gated messages (output window 13) -/

/-- What point t writes back is block t of the gated-message array. -/
theorem flushed13_eq (c : Dev nD) (t : Fin cfg0.N) :
    (dat0 V c).flushed 13 t = ((cfg0.win 13).blk t).view.read (Elt Ideal) (wgmArr V c) := by
  show (cfg0.win 13).cut (grid0.coords t) ((dat0 V c).after 13 t) = _
  rw [after0_13]
  funext j
  obtain ⟨p, q, rfl⟩ : ∃ (p : Fin 1600) (q : Fin 96), j = ix2 p q := ⟨j 0, j 1, eq_ix2 j⟩
  show out0_13 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (ix2 p q)
    = wgmArr V c (((cfg0.win 13).blk t).view.emb (ix2 p q))
  have ht : t.val < 500 := lt_of_lt_of_eq t.isLt N500
  have hr : 1600 * t.val + p.val < 800000 := by have := p.isLt; omega
  have hemb : ((cfg0.win 13).blk t).view.emb (ix2 p q) = (ix2 (⟨1600 * t.val + p.val, hr⟩ : Fin 800000) q : S800000x96.Idx) := by
    obtain ⟨e0, e1, e2, e3, e4, e5, e6, e7, e8, e9, e10, e11, e12, e13, e14, e15, e16, e17, e18, e19, e20, e21, e22, e23, e24, e25⟩ := idx0 t
    funext a
    apply Fin.ext
    match a with
    | ⟨0, _⟩ => show win0_13.index t 0 * 1600 + 1 * p.val = 1600 * t.val + p.val; rw [e8]; omega
    | ⟨1, _⟩ => show win0_13.index t 1 * 96 + 1 * q.val = q.val; rw [e9]; omega
  rw [hemb]
  refine (KernelRows.out_wgm_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) p q).trans ?_
  exact wgmRow_congr
    (funext fun k => iblk0_0_apply V c t p k _ rfl) (funext fun k => iblk0_1_apply V c t p k _ rfl)
    (funext fun k => iblk0_2_apply V c t p k _ rfl) (funext fun k => iblk0_3_apply V c t p k _ rfl)
    (congrArg (fun x : S194x96.Idx → EReal => mat x) (iblk0_4_eq V c t)) (congrArg (fun x : S96.Idx → EReal => vec x) (iblk0_5_eq V c t))
    (congrArg (fun x : S96x96.Idx → EReal => mat x) (iblk0_6_eq V c t)) (congrArg (fun x : S96.Idx → EReal => vec x) (iblk0_7_eq V c t))
    (congrArg (fun x : S96x1.Idx → EReal => mat x) (iblk0_8_eq V c t)) (congrArg (fun x : S1.Idx → EReal => vec x) (iblk0_9_eq V c t)) q

/-- An index of the array lies in point t's block iff each coordinate lies in the block's range. -/
theorem mem_blk0_13 (t : Fin cfg0.N) (i : S800000x96.Idx) :
    i ∈ ((cfg0.win 13).blk t).view.set ↔ ∀ a : Fin 2, win0_13.index t a * S1600x96.size a ≤ (i a).val
      ∧ (i a).val < win0_13.index t a * S1600x96.size a + S1600x96.size a := by
  show i ∈ ((View.whole main_v28_0).slice (win0_13.rect t)).set ↔ _
  rw [View.set_slice_whole, Rect.mem_set_unit]
  exact Iff.rfl

/-- Every row is written back by some point: row r by point r / 1600. -/
theorem cover0_13 (i : S800000x96.Idx) :
    ∃ t : Fin cfg0.N, (cfg0.win 13).flush t = true ∧ i ∈ ((cfg0.win 13).blk t).view.set := by
  have hi0 : (i 0).val < 800000 := (i 0).isLt
  have hi1 : (i 1).val < 96 := (i 1).isLt
  have ht : (i 0).val / 1600 < cfg0.N := by rw [N500]; omega
  refine ⟨⟨(i 0).val / 1600, ht⟩, flush0_13 _, ?_⟩
  rw [mem_blk0_13]
  obtain ⟨e0, e1, e2, e3, e4, e5, e6, e7, e8, e9, e10, e11, e12, e13, e14, e15, e16, e17, e18, e19, e20, e21, e22, e23, e24, e25⟩ := idx0 ⟨(i 0).val / 1600, ht⟩
  intro a
  match a with
  | ⟨0, _⟩ =>
    show win0_13.index ⟨(i 0).val / 1600, ht⟩ 0 * 1600 ≤ (i 0).val ∧ (i 0).val < win0_13.index ⟨(i 0).val / 1600, ht⟩ 0 * 1600 + 1600
    rw [e8]
    show (i 0).val / 1600 * 1600 ≤ (i 0).val ∧ (i 0).val < (i 0).val / 1600 * 1600 + 1600
    omega
  | ⟨1, _⟩ =>
    show win0_13.index ⟨(i 0).val / 1600, ht⟩ 1 * 96 ≤ (i 1).val ∧ (i 1).val < win0_13.index ⟨(i 0).val / 1600, ht⟩ 1 * 96 + 96
    rw [e9]
    omega

/-- After the edge kernel's region the gated-message array holds every edge's gated message. -/
theorem final13 (c : Dev nD) : (dat0 V c).arrAt 13 cfg0.N = wgmArr V c :=
  (dat0 V c).arrAt_eq_of_cover 13 (wgmArr V c) (fun t _ => flushed13_eq V c t) cover0_13

/-! ## The position contributions (output window 14) -/

/-- What point t writes back is block t of the position-contribution array. -/
theorem flushed14_eq (c : Dev nD) (t : Fin cfg0.N) :
    (dat0 V c).flushed 14 t = ((cfg0.win 14).blk t).view.read (Elt Ideal) (valsArr V c) := by
  show (cfg0.win 14).cut (grid0.coords t) ((dat0 V c).after 14 t) = _
  rw [after0_14]
  funext j
  obtain ⟨p, q, rfl⟩ : ∃ (p : Fin 1600) (q : Fin 4), j = ix2 p q := ⟨j 0, j 1, eq_ix2 j⟩
  show out0_14 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (ix2 p q)
    = valsArr V c (((cfg0.win 14).blk t).view.emb (ix2 p q))
  have ht : t.val < 500 := lt_of_lt_of_eq t.isLt N500
  have hr : 1600 * t.val + p.val < 800000 := by have := p.isLt; omega
  have hemb : ((cfg0.win 14).blk t).view.emb (ix2 p q) = (ix2 (⟨1600 * t.val + p.val, hr⟩ : Fin 800000) q : S800000x4.Idx) := by
    obtain ⟨e0, e1, e2, e3, e4, e5, e6, e7, e8, e9, e10, e11, e12, e13, e14, e15, e16, e17, e18, e19, e20, e21, e22, e23, e24, e25⟩ := idx0 t
    funext a
    apply Fin.ext
    match a with
    | ⟨0, _⟩ => show win0_14.index t 0 * 1600 + 1 * p.val = 1600 * t.val + p.val; rw [e10]; omega
    | ⟨1, _⟩ => show win0_14.index t 1 * 4 + 1 * q.val = q.val; rw [e11]; omega
  rw [hemb]
  refine (KernelRows.out_vals_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) p q).trans ?_
  exact valsRow_congr
    (funext fun k => iblk0_0_apply V c t p k _ rfl) (funext fun k => iblk0_1_apply V c t p k _ rfl)
    (funext fun k => iblk0_2_apply V c t p k _ rfl) (funext fun k => iblk0_3_apply V c t p k _ rfl)
    (congrArg (fun x : S194x96.Idx → EReal => mat x) (iblk0_4_eq V c t)) (congrArg (fun x : S96.Idx → EReal => vec x) (iblk0_5_eq V c t))
    (congrArg (fun x : S96x96.Idx → EReal => mat x) (iblk0_6_eq V c t)) (congrArg (fun x : S96.Idx → EReal => vec x) (iblk0_7_eq V c t))
    (congrArg (fun x : S96x96.Idx → EReal => mat x) (iblk0_10_eq V c t)) (congrArg (fun x : S96.Idx → EReal => vec x) (iblk0_11_eq V c t))
    (congrArg (fun x : S96x1.Idx → EReal => mat x) (iblk0_12_eq V c t)) q

/-- An index of the array lies in point t's block iff each coordinate lies in the block's range. -/
theorem mem_blk0_14 (t : Fin cfg0.N) (i : S800000x4.Idx) :
    i ∈ ((cfg0.win 14).blk t).view.set ↔ ∀ a : Fin 2, win0_14.index t a * S1600x4.size a ≤ (i a).val
      ∧ (i a).val < win0_14.index t a * S1600x4.size a + S1600x4.size a := by
  show i ∈ ((View.whole main_v28_1).slice (win0_14.rect t)).set ↔ _
  rw [View.set_slice_whole, Rect.mem_set_unit]
  exact Iff.rfl

/-- Every row is written back by some point: row r by point r / 1600. -/
theorem cover0_14 (i : S800000x4.Idx) :
    ∃ t : Fin cfg0.N, (cfg0.win 14).flush t = true ∧ i ∈ ((cfg0.win 14).blk t).view.set := by
  have hi0 : (i 0).val < 800000 := (i 0).isLt
  have hi1 : (i 1).val < 4 := (i 1).isLt
  have ht : (i 0).val / 1600 < cfg0.N := by rw [N500]; omega
  refine ⟨⟨(i 0).val / 1600, ht⟩, flush0_14 _, ?_⟩
  rw [mem_blk0_14]
  obtain ⟨e0, e1, e2, e3, e4, e5, e6, e7, e8, e9, e10, e11, e12, e13, e14, e15, e16, e17, e18, e19, e20, e21, e22, e23, e24, e25⟩ := idx0 ⟨(i 0).val / 1600, ht⟩
  intro a
  match a with
  | ⟨0, _⟩ =>
    show win0_14.index ⟨(i 0).val / 1600, ht⟩ 0 * 1600 ≤ (i 0).val ∧ (i 0).val < win0_14.index ⟨(i 0).val / 1600, ht⟩ 0 * 1600 + 1600
    rw [e10]
    show (i 0).val / 1600 * 1600 ≤ (i 0).val ∧ (i 0).val < (i 0).val / 1600 * 1600 + 1600
    omega
  | ⟨1, _⟩ =>
    show win0_14.index ⟨(i 0).val / 1600, ht⟩ 1 * 4 ≤ (i 1).val ∧ (i 1).val < win0_14.index ⟨(i 0).val / 1600, ht⟩ 1 * 4 + 4
    rw [e11]
    omega

/-- After the edge kernel's region the position-contribution array holds every edge's contribution. -/
theorem final14 (c : Dev nD) : (dat0 V c).arrAt 14 cfg0.N = valsArr V c :=
  (dat0 V c).arrAt_eq_of_cover 14 (valsArr V c) (fun t _ => flushed14_eq V c t) cover0_14

end Cert.Egnn.KernelArrays

end
-- ==== Proof.NodeArrays.lean ====
/-
  The node kernel's output array after its region, as a whole-array function of the arrays the region finds.

  Point t of the 10 writes back rows 5000·t … 5000·t + 4999. What it writes at row p of its block is the node row function
  of row p of its two input blocks — row 5000·t + p of the node features and of the summed gated messages — and of the
  four weight arrays; the 10 blocks cover all 50000 rows, row r lying in block r / 5000.
-/
import proofs.«140980_j89833535963776_1_alg».proof.Proof.Gen.KernelIdeal.Frame
import proofs.«140980_j89833535963776_1_alg».proof.Proof.MessageRows
import proofs.«140980_j89833535963776_1_alg».proof.Proof.KernelRows
import proofs.«140980_j89833535963776_1_alg».proof.Proof.BlockReads
import Idealize.ShloMosaic.Lib.Pipeline.Value
import Idealize.ShloMosaic.Lib.ValueIdx

set_option maxRecDepth 16384

noncomputable section

namespace Cert.Egnn.KernelArrays

open Cert.KernelIdeal Cert.KernelIdeal.Gen Cert.KernelIdeal.BlockReads Cert.Egnn Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The new features of all 50000 nodes as one array, from the arrays the node kernel's region finds. -/
def nodeArr (c : Dev nD) : S50000x96.Idx → EReal := fun i =>
  nodeRow (row (V c main_arg1 : S50000x96.Idx → EReal) (i 0)) (row (V c main_v31 : S50000x96.Idx → EReal) (i 0))
    (mat (V c main_arg10 : S192x96.Idx → EReal)) (vec (V c main_arg11 : S96.Idx → EReal))
    (mat (V c main_arg12 : S96x96.Idx → EReal)) (vec (V c main_arg13 : S96.Idx → EReal)) (i 1)

theorem N10 : cfg1.N = 10 := N_1

/-- The node's new features depend on the six arguments only through their values. -/
theorem nodeRow_congr {h h' w w' : Fin 96 → EReal} {Wh1 Wh1' : Fin 192 → Fin 96 → EReal} {bh1 bh1' : Fin 96 → EReal}
    {Wh2 Wh2' : Fin 96 → Fin 96 → EReal} {bh2 bh2' : Fin 96 → EReal}
    (h0 : h = h') (h1 : w = w') (h2 : Wh1 = Wh1') (h3 : bh1 = bh1') (h4 : Wh2 = Wh2') (h5 : bh2 = bh2') (q : Fin 96) :
    nodeRow h w Wh1 bh1 Wh2 bh2 q = nodeRow h' w' Wh1' bh1' Wh2' bh2' q := by
  rw [h0, h1, h2, h3, h4, h5]

/-- What point t writes back is block t of the new-features array. -/
theorem flushed6_eq (c : Dev nD) (t : Fin cfg1.N) :
    (dat1 V c).flushed 6 t = ((cfg1.win 6).blk t).view.read (Elt Ideal) (nodeArr V c) := by
  show (cfg1.win 6).cut (grid1.coords t) ((dat1 V c).after 6 t) = _
  rw [after1_6]
  funext j
  obtain ⟨p, q, rfl⟩ : ∃ (p : Fin 5000) (q : Fin 96), j = ix2 p q := ⟨j 0, j 1, eq_ix2 j⟩
  show out1_6 (F := Ideal) (iblk1 V c 0 t) (iblk1 V c 1 t) (iblk1 V c 2 t) (iblk1 V c 3 t) (iblk1 V c 4 t) (iblk1 V c 5 t) (ix2 p q)
    = nodeArr V c (((cfg1.win 6).blk t).view.emb (ix2 p q))
  have ht : t.val < 10 := lt_of_lt_of_eq t.isLt N10
  have hr : 5000 * t.val + p.val < 50000 := by have := p.isLt; omega
  have hemb : ((cfg1.win 6).blk t).view.emb (ix2 p q) = (ix2 (⟨5000 * t.val + p.val, hr⟩ : Fin 50000) q : S50000x96.Idx) := by
    obtain ⟨e0, e1, e2, e3, e4, e5, e6, e7, e8, e9, e10, e11⟩ := idx1 t
    funext a
    apply Fin.ext
    match a with
    | ⟨0, _⟩ => show win1_6.index t 0 * 5000 + 1 * p.val = 5000 * t.val + p.val; rw [e4]; omega
    | ⟨1, _⟩ => show win1_6.index t 1 * 96 + 1 * q.val = q.val; rw [e5]; omega
  rw [hemb]
  refine (KernelRows.out_node_apply (iblk1 V c 0 t) (iblk1 V c 1 t) (iblk1 V c 2 t) (iblk1 V c 3 t) (iblk1 V c 4 t) (iblk1 V c 5 t) p q).trans ?_
  exact nodeRow_congr
    (funext fun k => iblk1_0_apply V c t p k _ rfl) (funext fun k => iblk1_1_apply V c t p k _ rfl)
    (congrArg (fun x : S192x96.Idx → EReal => mat x) (iblk1_2_eq V c t)) (congrArg (fun x : S96.Idx → EReal => vec x) (iblk1_3_eq V c t))
    (congrArg (fun x : S96x96.Idx → EReal => mat x) (iblk1_4_eq V c t)) (congrArg (fun x : S96.Idx → EReal => vec x) (iblk1_5_eq V c t)) q

/-- An index of the array lies in point t's block iff each coordinate lies in the block's range. -/
theorem mem_blk1_6 (t : Fin cfg1.N) (i : S50000x96.Idx) :
    i ∈ ((cfg1.win 6).blk t).view.set ↔ ∀ a : Fin 2, win1_6.index t a * S5000x96.size a ≤ (i a).val
      ∧ (i a).val < win1_6.index t a * S5000x96.size a + S5000x96.size a := by
  show i ∈ ((View.whole main_v51).slice (win1_6.rect t)).set ↔ _
  rw [View.set_slice_whole, Rect.mem_set_unit]
  exact Iff.rfl

/-- Every node's row is written back by some point: row r by point r / 5000. -/
theorem cover1_6 (i : S50000x96.Idx) :
    ∃ t : Fin cfg1.N, (cfg1.win 6).flush t = true ∧ i ∈ ((cfg1.win 6).blk t).view.set := by
  have hi0 : (i 0).val < 50000 := (i 0).isLt
  have hi1 : (i 1).val < 96 := (i 1).isLt
  have ht : (i 0).val / 5000 < cfg1.N := by rw [N10]; omega
  refine ⟨⟨(i 0).val / 5000, ht⟩, flush1_6 _, ?_⟩
  rw [mem_blk1_6]
  obtain ⟨e0, e1, e2, e3, e4, e5, e6, e7, e8, e9, e10, e11⟩ := idx1 ⟨(i 0).val / 5000, ht⟩
  intro a
  match a with
  | ⟨0, _⟩ =>
    show win1_6.index ⟨(i 0).val / 5000, ht⟩ 0 * 5000 ≤ (i 0).val ∧ (i 0).val < win1_6.index ⟨(i 0).val / 5000, ht⟩ 0 * 5000 + 5000
    rw [e4]
    show (i 0).val / 5000 * 5000 ≤ (i 0).val ∧ (i 0).val < (i 0).val / 5000 * 5000 + 5000
    omega
  | ⟨1, _⟩ =>
    show win1_6.index ⟨(i 0).val / 5000, ht⟩ 1 * 96 ≤ (i 1).val ∧ (i 1).val < win1_6.index ⟨(i 0).val / 5000, ht⟩ 1 * 96 + 96
    rw [e5]
    omega

/-- After the node kernel's region the new-features array holds every node's new features. -/
theorem final6 (c : Dev nD) : (dat1 V c).arrAt 6 cfg1.N = nodeArr V c :=
  (dat1 V c).arrAt_eq_of_cover 6 (nodeArr V c) (fun t _ => flushed6_eq V c t) cover1_6

end Cert.Egnn.KernelArrays

end
-- ==== Proof.RefRows.lean ====
/-
  The reference's stages read at an entry: its gated messages and its position contributions at edge r are the row
  functions of row r of the four gathered endpoint arrays (the two endpoint positions a, b and the two endpoint feature
  rows hi, hj) and of the weight matrices. The four gathers stay closed.

  Stage by stage: the componentwise square of a − b and the componentwise product a·b, each reduced by the Minkowski form
  2·u₀ − Σₖ uₖ (the row sum starts from the word of 0.0, which is 0) and passed through ψ; the joined row
  [hi | hj | norm | prod]; two dense layers with relu, giving the message m; the gate 1 / (1 + exp(−(m·Wm + bm))), which is
  the logistic function once the word of 1.0 is read as 1, times m; and the position weight relu(m·Wx1 + bx1)·Wx2 times b.

  Every elementwise operation reads through definitionally; a layout operation reads its operand at a composed index,
  identified here with the index built from the coordinates; a contraction is the sum over the contracted coordinate.
-/
import proofs.«140980_j89833535963776_1_alg».proof.Proof.ReadPatched
import proofs.«140980_j89833535963776_1_alg».proof.Proof.MessageRows
import proofs.«140980_j89833535963776_1_alg».proof.Proof.RowJoin

noncomputable section

open scoped BigOperators

namespace Cert.Egnn.RefRows

open Cert.ReferenceIdeal Cert.ReferenceIdeal.ReadP Cert.Egnn Idealize.ShloMosaic Idealize.ShloMosaic.ValueIdx

set_option quotPrecheck false in
local notation "C" S => BufTy.Contents (Elt Ideal) (⟨S, .f32⟩ : BufTy)
set_option quotPrecheck false in
local notation "CI" S => BufTy.Contents (Elt Ideal) (⟨S, .i32⟩ : BufTy)

variable (x0 : C S50000x4) (x1 : C S50000x96) (x2 x3 : CI S800000) (x4 : C S194x96) (x5 : C S96) (x6 : C S96x96) (x7 : C S96)
  (x8 : C S96x1) (x9 : C S1) (x10 : C S192x96) (x11 : C S96) (x12 : C S96x96) (x13 : C S96) (x14 : C S96x96) (x15 : C S96)
  (x16 : C S96x1)

/-- The single-precision word of 1.0 denotes 1: sign 0, biased exponent 127, mantissa 0. -/
theorem one_word : Ideal.ofBits .f32 0x3F800000#32 = 1 := by
  simp [Ideal.ofBits, Ideal.ieee, -EReal.coe_mul]; norm_num

/-! ## The two Minkowski invariants of an edge -/

/-- The componentwise square of a − b at coordinate k of edge r. -/
theorem ref_sq_apply (r : Fin 800000) (k : Fin 4) :
    val_main_v15 (F := Ideal) x0 x2 x3 (ix2 r k)
      = ((row (val_main_v6 (F := Ideal) x0 x2) r) k - (row (val_main_v13 (F := Ideal) x0 x3) r) k) * ((row (val_main_v6 (F := Ideal) x0 x2) r) k - (row (val_main_v13 (F := Ideal) x0 x3) r) k) := by
  rw [val_main_v15_apply, val_main_v14_apply]
  rfl

/-- The componentwise product a·b at coordinate k of edge r. -/
theorem ref_pr_apply (r : Fin 800000) (k : Fin 4) :
    val_main_v22 (F := Ideal) x0 x2 x3 (ix2 r k) = (row (val_main_v6 (F := Ideal) x0 x2) r) k * (row (val_main_v13 (F := Ideal) x0 x3) r) k := by
  rw [val_main_v22_apply]
  rfl

/-- 2·d₀ − Σₖ dₖ of the squared difference: the slice of column 0 read as a vector, twice it, minus the row sum. -/
theorem ref_norm_mink (r : Fin 800000) :
    val_main_v21 (F := Ideal) x0 x2 x3 (ix1 r)
      = mink (fun k => ((row (val_main_v6 (F := Ideal) x0 x2) r) k - (row (val_main_v13 (F := Ideal) x0 x3) r) k) * ((row (val_main_v6 (F := Ideal) x0 x2) r) k - (row (val_main_v13 (F := Ideal) x0 x3) r) k)) := by
  have h17 : idx_main_v16 (idx_main_v17 (ix1 r)) = ix2 r (0 : Fin 4) :=
    funext fun a => Fin.ext (by
      match a with
      | ⟨0, _⟩ => exact Nat.div_one _
      | ⟨1, _⟩ => rfl)
  have h20 : ∀ k : Fin 4, idx_main_v20 (ix1 r) k = ix2 r k := fun k => funext fun a => Fin.ext (by match a with | ⟨0, _⟩ => rfl | ⟨1, _⟩ => rfl)
  rw [val_main_v21_apply, val_main_v19_apply, val_main_v20_apply, val_main_v18_apply, val_main_cst_apply,
    val_main_v17_apply, val_main_v16_apply, val_main_cst_3_apply, h17, Ideal.ofBits_def, Ideal.ofBits_def,
    Ideal.ofBits_zero_f32, zero_add]
  simp only [h20, ref_sq_apply]
  rfl

/-- 2·z₀ − Σₖ zₖ of the product. -/
theorem ref_prod_mink (r : Fin 800000) :
    val_main_v28 (F := Ideal) x0 x2 x3 (ix1 r) = mink (fun k => (row (val_main_v6 (F := Ideal) x0 x2) r) k * (row (val_main_v13 (F := Ideal) x0 x3) r) k) := by
  have h24 : idx_main_v23 (idx_main_v24 (ix1 r)) = ix2 r (0 : Fin 4) :=
    funext fun a => Fin.ext (by
      match a with
      | ⟨0, _⟩ => exact Nat.div_one _
      | ⟨1, _⟩ => rfl)
  have h27 : ∀ k : Fin 4, idx_main_v27 (ix1 r) k = ix2 r k := fun k => funext fun a => Fin.ext (by match a with | ⟨0, _⟩ => rfl | ⟨1, _⟩ => rfl)
  rw [val_main_v28_apply, val_main_v26_apply, val_main_v27_apply, val_main_v25_apply, val_main_cst_4_apply,
    val_main_v24_apply, val_main_v23_apply, val_main_cst_5_apply, h24, Ideal.ofBits_def, Ideal.ofBits_def,
    Ideal.ofBits_zero_f32, zero_add]
  simp only [h27, ref_pr_apply]
  rfl

/-- The norm feature of edge r, as the column it is joined from: ψ of the Minkowski square. -/
theorem ref_norm_apply (r : Fin 800000) :
    val_main_v35 (F := Ideal) x0 x2 x3 (ix2 r (0 : Fin 1)) = normFeat (row (val_main_v6 (F := Ideal) x0 x2) r) (row (val_main_v13 (F := Ideal) x0 x3) r) := by
  have h35 : idx_main_v35 (ix2 r (0 : Fin 1)) = ix1 r := funext fun a => Fin.ext (by match a with | ⟨0, _⟩ => rfl)
  rw [val_main_v35_apply, h35, val_main_v34_apply, val_main_v29_apply, val_main_v33_apply, val_main_v32_apply,
    val_main_v30_apply, val_main_v31_apply, val_main_cst_6_apply, ref_norm_mink]
  rfl

/-- The product feature of edge r: ψ of the Minkowski product. -/
theorem ref_prod_apply (r : Fin 800000) :
    val_main_v42 (F := Ideal) x0 x2 x3 (ix2 r (0 : Fin 1)) = prodFeat (row (val_main_v6 (F := Ideal) x0 x2) r) (row (val_main_v13 (F := Ideal) x0 x3) r) := by
  have h42 : idx_main_v42 (ix2 r (0 : Fin 1)) = ix1 r := funext fun a => Fin.ext (by match a with | ⟨0, _⟩ => rfl)
  rw [val_main_v42_apply, h42, val_main_v41_apply, val_main_v36_apply, val_main_v40_apply, val_main_v39_apply,
    val_main_v37_apply, val_main_v38_apply, val_main_cst_7_apply, ref_prod_mink]
  rfl

/-! ## The edge's input row and its message -/

/-- The joined row [hi | hj | norm | prod] of edge r. -/
theorem ref_row_apply (r : Fin 800000) (k : Fin 194) :
    val_main_v57 (F := Ideal) x0 x1 x2 x3 (ix2 r k) = (join4 (row (val_main_v49 (F := Ideal) x1 x2) r) (row (val_main_v56 (F := Ideal) x1 x3) r) (normFeat (row (val_main_v6 (F := Ideal) x0 x2) r) (row (val_main_v13 (F := Ideal) x0 x3) r)) (prodFeat (row (val_main_v6 (F := Ideal) x0 x2) r) (row (val_main_v13 (F := Ideal) x0 x3) r))) k := by
  unfold val_main_v57
  rw [Cert.Egnn.RowJoin.join4_apply, ref_norm_apply, ref_prod_apply]

/-- The first dense layer with relu, at entry q of edge r. -/
theorem ref_hidden_apply (r : Fin 800000) (q : Fin 96) :
    val_main_v62 (F := Ideal) x0 x1 x2 x3 x4 x5 (ix2 r q)
      = relu (affine (join4 (row (val_main_v49 (F := Ideal) x1 x2) r) (row (val_main_v56 (F := Ideal) x1 x3) r) (normFeat (row (val_main_v6 (F := Ideal) x0 x2) r) (row (val_main_v13 (F := Ideal) x0 x3) r)) (prodFeat (row (val_main_v6 (F := Ideal) x0 x2) r) (row (val_main_v13 (F := Ideal) x0 x3) r))) (mat x4) (vec x5) q) := by
  have hl : ∀ k : Fin 194, lidx_main_v58 (ix2 r q) k = ix2 r k := fun k => funext fun a => Fin.ext (by match a with | ⟨0, _⟩ => rfl | ⟨1, _⟩ => rfl)
  have hr : ∀ k : Fin 194, ridx_main_v58 (ix2 r q) k = ix2 k q := fun k => funext fun a => Fin.ext (by match a with | ⟨0, _⟩ => rfl | ⟨1, _⟩ => rfl)
  have hb : idx_main_v59 (idx_main_v60 (ix2 r q)) = ix1 q := funext fun a => Fin.ext (by match a with | ⟨0, _⟩ => rfl)
  rw [val_main_v62_apply, val_main_v61_apply, val_main_v58_apply, val_main_v60_apply, val_main_v59_apply,
    val_main_call0_v0_apply, val_main_call0_cst_apply, hb]
  simp only [hl, hr, ref_row_apply]
  rfl

/-- The message m of edge r at entry q: the second dense layer with relu. -/
theorem ref_msg_apply (r : Fin 800000) (q : Fin 96) :
    val_main_v67 (F := Ideal) x0 x1 x2 x3 x4 x5 x6 x7 (ix2 r q) = (msg (row (val_main_v6 (F := Ideal) x0 x2) r) (row (val_main_v13 (F := Ideal) x0 x3) r) (row (val_main_v49 (F := Ideal) x1 x2) r) (row (val_main_v56 (F := Ideal) x1 x3) r) (mat x4) (vec x5) (mat x6) (vec x7)) q := by
  have hl : ∀ k : Fin 96, lidx_main_v63 (ix2 r q) k = ix2 r k := fun k => funext fun a => Fin.ext (by match a with | ⟨0, _⟩ => rfl | ⟨1, _⟩ => rfl)
  have hr : ∀ k : Fin 96, ridx_main_v63 (ix2 r q) k = ix2 k q := fun k => funext fun a => Fin.ext (by match a with | ⟨0, _⟩ => rfl | ⟨1, _⟩ => rfl)
  have hb : idx_main_v64 (idx_main_v65 (ix2 r q)) = ix1 q := funext fun a => Fin.ext (by match a with | ⟨0, _⟩ => rfl)
  rw [val_main_v67_apply, val_main_v66_apply, val_main_v63_apply, val_main_v65_apply, val_main_v64_apply,
    val_main_call1_v0_apply, val_main_call1_cst_apply, hb]
  simp only [hl, hr, ref_hidden_apply]
  rfl

/-! ## The gate and the gated message -/

/-- The gate of edge r: 1 / (1 + exp(−(m·Wm + bm))) with the word of 1.0 read as 1, the logistic function. -/
theorem ref_gate_apply (r : Fin 800000) :
    val_main_v77 (F := Ideal) x0 x1 x2 x3 x4 x5 x6 x7 x8 x9 (ix2 r (0 : Fin 1))
      = Ideal.logistic (affine (msg (row (val_main_v6 (F := Ideal) x0 x2) r) (row (val_main_v13 (F := Ideal) x0 x3) r) (row (val_main_v49 (F := Ideal) x1 x2) r) (row (val_main_v56 (F := Ideal) x1 x3) r) (mat x4) (vec x5) (mat x6) (vec x7)) (mat x8) (vec x9) 0) := by
  have hl : ∀ k : Fin 96, lidx_main_v68 (ix2 r (0 : Fin 1)) k = ix2 r k := fun k => funext fun a => Fin.ext (by match a with | ⟨0, _⟩ => rfl | ⟨1, _⟩ => rfl)
  have hr : ∀ k : Fin 96, ridx_main_v68 (ix2 r (0 : Fin 1)) k = ix2 k (0 : Fin 1) := fun k => funext fun a => Fin.ext (by match a with | ⟨0, _⟩ => rfl | ⟨1, _⟩ => rfl)
  have hb : idx_main_v69 (idx_main_v70 (ix2 r (0 : Fin 1))) = ix1 (0 : Fin 1) := funext fun a => Fin.ext (by match a with | ⟨0, _⟩ => rfl)
  rw [val_main_v77_apply, val_main_v76_apply, val_main_cst_13_apply, val_main_v75_apply, val_main_v74_apply,
    val_main_cst_12_apply, val_main_v73_apply, val_main_v72_apply, val_main_v71_apply, val_main_v68_apply,
    val_main_v70_apply, val_main_v69_apply, hb, Ideal.ofBits_def, one_word]
  simp only [hl, hr, ref_msg_apply]
  rfl

/-- The gated message of edge r at entry q: the gate, broadcast along the row, times the message. -/
theorem ref_wgm_apply (r : Fin 800000) (q : Fin 96) :
    val_main_v79 (F := Ideal) x0 x1 x2 x3 x4 x5 x6 x7 x8 x9 (ix2 r q)
      = wgmRow (row (val_main_v6 (F := Ideal) x0 x2) r) (row (val_main_v13 (F := Ideal) x0 x3) r)
          (row (val_main_v49 (F := Ideal) x1 x2) r) (row (val_main_v56 (F := Ideal) x1 x3) r)
          (mat x4) (vec x5) (mat x6) (vec x7) (mat x8) (vec x9) q := by
  have h78 : idx_main_v78 (ix2 r q) = ix2 r (0 : Fin 1) := funext fun a => Fin.ext (by match a with | ⟨0, _⟩ => rfl | ⟨1, _⟩ => rfl)
  rw [val_main_v79_apply, val_main_v78_apply, h78, ref_gate_apply, ref_msg_apply]
  rfl

/-! ## The position weight and the position contribution -/

/-- The hidden layer of the position weight, at entry q of edge r. -/
theorem ref_poshid_apply (r : Fin 800000) (q : Fin 96) :
    val_main_v98 (F := Ideal) x0 x1 x2 x3 x4 x5 x6 x7 x14 x15 (ix2 r q)
      = relu (affine (msg (row (val_main_v6 (F := Ideal) x0 x2) r) (row (val_main_v13 (F := Ideal) x0 x3) r) (row (val_main_v49 (F := Ideal) x1 x2) r) (row (val_main_v56 (F := Ideal) x1 x3) r) (mat x4) (vec x5) (mat x6) (vec x7)) (mat x14) (vec x15) q) := by
  have hl : ∀ k : Fin 96, lidx_main_v94 (ix2 r q) k = ix2 r k := fun k => funext fun a => Fin.ext (by match a with | ⟨0, _⟩ => rfl | ⟨1, _⟩ => rfl)
  have hr : ∀ k : Fin 96, ridx_main_v94 (ix2 r q) k = ix2 k q := fun k => funext fun a => Fin.ext (by match a with | ⟨0, _⟩ => rfl | ⟨1, _⟩ => rfl)
  have hb : idx_main_v95 (idx_main_v96 (ix2 r q)) = ix1 q := funext fun a => Fin.ext (by match a with | ⟨0, _⟩ => rfl)
  rw [val_main_v98_apply, val_main_v97_apply, val_main_v94_apply, val_main_v96_apply, val_main_v95_apply,
    val_main_call3_v0_apply, val_main_call3_cst_apply, hb]
  simp only [hl, hr, ref_msg_apply]
  rfl

/-- The position weight of edge r: the hidden layer contracted with Wx2 (no bias). -/
theorem ref_posw_apply (r : Fin 800000) :
    val_main_v99 (F := Ideal) x0 x1 x2 x3 x4 x5 x6 x7 x14 x15 x16 (ix2 r (0 : Fin 1))
      = ∑ k : Fin 96, relu (affine (msg (row (val_main_v6 (F := Ideal) x0 x2) r) (row (val_main_v13 (F := Ideal) x0 x3) r) (row (val_main_v49 (F := Ideal) x1 x2) r) (row (val_main_v56 (F := Ideal) x1 x3) r) (mat x4) (vec x5) (mat x6) (vec x7)) (mat x14) (vec x15) k) * mat x16 k 0 := by
  have hl : ∀ k : Fin 96, lidx_main_v99 (ix2 r (0 : Fin 1)) k = ix2 r k := fun k => funext fun a => Fin.ext (by match a with | ⟨0, _⟩ => rfl | ⟨1, _⟩ => rfl)
  have hr : ∀ k : Fin 96, ridx_main_v99 (ix2 r (0 : Fin 1)) k = ix2 k (0 : Fin 1) := fun k => funext fun a => Fin.ext (by match a with | ⟨0, _⟩ => rfl | ⟨1, _⟩ => rfl)
  rw [val_main_v99_apply]
  simp only [hl, hr, ref_poshid_apply]

/-- The position contribution of edge r at coordinate j: the position weight, broadcast along the row, times b. -/
theorem ref_vals_apply (r : Fin 800000) (j : Fin 4) :
    val_main_v101 (F := Ideal) x0 x1 x2 x3 x4 x5 x6 x7 x14 x15 x16 (ix2 r j)
      = valsRow (row (val_main_v6 (F := Ideal) x0 x2) r) (row (val_main_v13 (F := Ideal) x0 x3) r)
          (row (val_main_v49 (F := Ideal) x1 x2) r) (row (val_main_v56 (F := Ideal) x1 x3) r)
          (mat x4) (vec x5) (mat x6) (vec x7) (mat x14) (vec x15) (mat x16) j := by
  have h100 : idx_main_v100 (ix2 r j) = ix2 r (0 : Fin 1) := funext fun a => Fin.ext (by match a with | ⟨0, _⟩ => rfl | ⟨1, _⟩ => rfl)
  rw [val_main_v101_apply, val_main_v100_apply, h100, ref_posw_apply]
  rfl

end Cert.Egnn.RefRows

end
-- ==== Proof.RefNodeRows.lean ====
/-
  The reference's new node features read at an entry: at node r they are the node row function of row r of the node
  features h and of the summed gated messages w, and of the four weight arrays: h + relu([h | w]·Wh1 + bh1)·Wh2 + bh2.
  The joined row [h | w] is read column by column, each dense layer is the sum over the contracted coordinate plus the
  bias row, and relu is the maximum with the word of 0.0. The scatter-add that sums the gated messages stays closed.
-/
import proofs.«140980_j89833535963776_1_alg».proof.Proof.ReadPatched
import proofs.«140980_j89833535963776_1_alg».proof.Proof.MessageRows
import proofs.«140980_j89833535963776_1_alg».proof.Proof.RowJoin

noncomputable section

open scoped BigOperators

namespace Cert.Egnn.RefNodeRows

open Cert.ReferenceIdeal Cert.ReferenceIdeal.ReadP Cert.Egnn Idealize.ShloMosaic Idealize.ShloMosaic.ValueIdx

set_option quotPrecheck false in
local notation "C" S => BufTy.Contents (Elt Ideal) (⟨S, .f32⟩ : BufTy)
set_option quotPrecheck false in
local notation "CI" S => BufTy.Contents (Elt Ideal) (⟨S, .i32⟩ : BufTy)

variable (x0 : C S50000x4) (x1 : C S50000x96) (x2 x3 : CI S800000) (x4 : C S194x96) (x5 : C S96) (x6 : C S96x96) (x7 : C S96)
  (x8 : C S96x1) (x9 : C S1) (x10 : C S192x96) (x11 : C S96) (x12 : C S96x96) (x13 : C S96)

/-- The joined row [h | w] of node r. -/
theorem ref_noderow_apply (r : Fin 50000) (k : Fin 192) :
    val_main_v83 (F := Ideal) x0 x1 x2 x3 x4 x5 x6 x7 x8 x9 (ix2 r k) = (join2 (row x1 r) (row (val_main_v82 (F := Ideal) x0 x1 x2 x3 x4 x5 x6 x7 x8 x9) r)) k := by
  unfold val_main_v83
  rw [Cert.Egnn.RowJoin.join2_apply]

/-- The hidden layer of the node update, at entry q of node r. -/
theorem ref_nodehid_apply (r : Fin 50000) (q : Fin 96) :
    val_main_v88 (F := Ideal) x0 x1 x2 x3 x4 x5 x6 x7 x8 x9 x10 x11 (ix2 r q)
      = relu (affine (join2 (row x1 r) (row (val_main_v82 (F := Ideal) x0 x1 x2 x3 x4 x5 x6 x7 x8 x9) r)) (mat x10) (vec x11) q) := by
  have hl : ∀ k : Fin 192, lidx_main_v84 (ix2 r q) k = ix2 r k := fun k => funext fun a => Fin.ext (by match a with | ⟨0, _⟩ => rfl | ⟨1, _⟩ => rfl)
  have hr : ∀ k : Fin 192, ridx_main_v84 (ix2 r q) k = ix2 k q := fun k => funext fun a => Fin.ext (by match a with | ⟨0, _⟩ => rfl | ⟨1, _⟩ => rfl)
  have hb : idx_main_v85 (idx_main_v86 (ix2 r q)) = ix1 q := funext fun a => Fin.ext (by match a with | ⟨0, _⟩ => rfl)
  rw [val_main_v88_apply, val_main_v87_apply, val_main_v84_apply, val_main_v86_apply, val_main_v85_apply,
    val_main_call2_v0_apply, val_main_call2_cst_apply, hb]
  simp only [hl, hr, ref_noderow_apply]
  rfl

/-- The new features of node r at entry q: h plus the second dense layer of the relu of the first. -/
theorem ref_node_apply (r : Fin 50000) (q : Fin 96) :
    val_main_v93 (F := Ideal) x0 x1 x2 x3 x4 x5 x6 x7 x8 x9 x10 x11 x12 x13 (ix2 r q)
      = nodeRow (row x1 r) (row (val_main_v82 (F := Ideal) x0 x1 x2 x3 x4 x5 x6 x7 x8 x9) r)
          (mat x10) (vec x11) (mat x12) (vec x13) q := by
  have hl : ∀ k : Fin 96, lidx_main_v89 (ix2 r q) k = ix2 r k := fun k => funext fun a => Fin.ext (by match a with | ⟨0, _⟩ => rfl | ⟨1, _⟩ => rfl)
  have hr : ∀ k : Fin 96, ridx_main_v89 (ix2 r q) k = ix2 k q := fun k => funext fun a => Fin.ext (by match a with | ⟨0, _⟩ => rfl | ⟨1, _⟩ => rfl)
  have hb : idx_main_v90 (idx_main_v91 (ix2 r q)) = ix1 q := funext fun a => Fin.ext (by match a with | ⟨0, _⟩ => rfl)
  rw [val_main_v93_apply, val_main_v92_apply, val_main_v89_apply, val_main_v91_apply, val_main_v90_apply, hb]
  simp only [hl, hr, ref_nodehid_apply]
  rfl

end Cert.Egnn.RefNodeRows

end
-- ==== Proof.LibHostJoin.lean ====
/-
  Reading a line of host operations in one rewriting pass, through two-operand joins.

  The host's `concatenate` takes its operands as a list of (shape, array) pairs. `join2` is the join of TWO arrays
  along an axis with the two arrays as arguments of their own: the same function, restated so that what is known about
  either operand can be rewritten inside it. `host_read` reads what a buffer holds after a literal line of host
  operations (`StableHlo.after ops V` at a buffer): every operation's result at its own buffer becomes its function of
  its operands' contents, at any other buffer what was there before, every two-operand join is restated as `join2`
  on the way, the identity transports between a buffer's own type and its value's type cancel, and what is left is the operations' composed term over `V` at the buffers the line only reads.
-/
import Idealize.ShloMosaic.Lib.StableHlo.Run

noncomputable section

namespace Cert.LibHostJoin

open Idealize.ShloMosaic Idealize.ShloMosaic.StableHlo

/-- The join of two arrays along axis `a`: entry `i` comes from the first array where `i`'s coordinate on `a` is
    below the first array's extent there, from the second otherwise. -/
def join2 {α : Type} (t : Shape) (a : Fin t.rank) (s₁ s₂ : Shape) (x : s₁.Idx → α) (y : s₂.Idx → α)
    (h : Shape.Concatenates [s₁, s₂] t a) : t.Idx → α :=
  concatenate t a [⟨s₁, x⟩, ⟨s₂, y⟩] h

/-- The host's join of a two-element list is `join2` of the two arrays. -/
theorem concatenate_pair {α : Type} (t : Shape) (a : Fin t.rank) (s₁ s₂ : Shape) (x : s₁.Idx → α) (y : s₂.Idx → α)
    (h : Shape.Concatenates [s₁, s₂] t a) : concatenate t a [⟨s₁, x⟩, ⟨s₂, y⟩] h = join2 t a s₁ s₂ x y h := rfl

/-- Reads `StableHlo.after ops V` at a buffer for a literal line `ops`, in one pass. -/
macro "host_read" : tactic =>
  `(tactic| (simp (disch := decide) only [after_cons, after_nil, concatenate_pair, cast_cast, cast_eq,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Cert.LibHostJoin

end
-- ==== Proof.Bridge.lean ====
/-
  The kernel program's two results are the reference's two results, as whole arrays.

  The kernel program gathers the endpoint rows on the host, runs the edge kernel over them, sums its two outputs per node
  on the host, finishes the positions on the host and runs the node kernel on the summed messages. The reference does all
  of it on the host. Stage by stage:
    * the four gathered arrays the edge kernel's region finds are the reference's four gathers (the same operations of
      the same arguments);
    * so the edge kernel's gated-message and position-contribution arrays are the reference's, entry by entry: both are
      the row functions of the same rows;
    * the host operations between the two regions are the reference's own (the per-node sums, the mean, the update of the
      positions), applied to equal arrays: the positions come out equal, and so do the summed messages;
    * so the node kernel's output array is the reference's new features, entry by entry.
-/
import proofs.«140980_j89833535963776_1_alg».proof.Proof.Gen.KernelIdeal.Frame
import proofs.«140980_j89833535963776_1_alg».proof.Proof.ReadPatched
import proofs.«140980_j89833535963776_1_alg».proof.Proof.MessageRows
import proofs.«140980_j89833535963776_1_alg».proof.Proof.EdgeArrays
import proofs.«140980_j89833535963776_1_alg».proof.Proof.NodeArrays
import proofs.«140980_j89833535963776_1_alg».proof.Proof.RefRows
import proofs.«140980_j89833535963776_1_alg».proof.Proof.RefNodeRows
import proofs.«140980_j89833535963776_1_alg».proof.Proof.LibHostJoin
import Idealize.ShloMosaic.PureOps.Ideal

set_option maxRecDepth 16384

noncomputable section

namespace Cert.Egnn.Bridge

open Idealize.ShloMosaic Idealize.ShloMosaic.StableHlo Idealize.ShloMosaic.TcCoe Idealize.ShloMosaic.ValueIdx Idealize.SL.Sem
open Cert.Egnn Cert.Egnn.KernelArrays Cert.LibHostJoin

/-! ## The reference's host operations past the edge stage, as functions of that stage -/

section Reference

open Cert.ReferenceIdeal Cert.ReferenceIdeal.ReadP

set_option quotPrecheck false in
local notation "C" S => BufTy.Contents (Elt Ideal) (⟨S, .f32⟩ : BufTy)
set_option quotPrecheck false in
local notation "CI" S => BufTy.Contents (Elt Ideal) (⟨S, .i32⟩ : BufTy)

/-- The per-node sum of an [800000, 96] array of per-edge rows, edge r added into node edge_i[r]. -/
def msgSum (x2 : IVec S800000 32) (u : FVec Ideal S800000x96 .f32) : FVec Ideal S50000x96 .f32 :=
  Host.scatterAdd (F := Ideal) scatter_S50000x96_S800000x1_S800000x96_1_0_0_1 (val_main_v80 (F := Ideal)) (val_main_v81 (F := Ideal) x2) u

/-- The new positions from the per-edge position contributions: x + 0.005 · (per-node mean of the contributions, zero for
    a node with no edge). -/
def posTail (x0 : FVec Ideal S50000x4 .f32) (x2 : IVec S800000 32) (v : FVec Ideal S800000x4 .f32) : FVec Ideal S50000x4 .f32 :=
  addf x0 (mulf (val_main_v118 (F := Ideal)) (select (val_main_call4_v1 (F := Ideal) x2)
    (Host.divf (F := Ideal)
      (Host.scatterAdd (F := Ideal) scatter_S50000x4_S800000x1_S800000x4_1_0_0_1 (val_main_v102 (F := Ideal)) (val_main_v103 (F := Ideal) x2) v)
      (val_main_v115 (F := Ideal) x2))
    (val_main_call4_v2 (F := Ideal))))

variable (x0 : C S50000x4) (x1 : C S50000x96) (x2 x3 : CI S800000) (x4 : C S194x96) (x5 : C S96) (x6 : C S96x96) (x7 : C S96)
  (x8 : C S96x1) (x9 : C S1) (x14 : C S96x96) (x15 : C S96) (x16 : C S96x1)

/-- The reference's summed gated messages are the per-node sum of its gated messages. -/
theorem ref_wm : val_main_v82 (F := Ideal) x0 x1 x2 x3 x4 x5 x6 x7 x8 x9
    = msgSum x2 (val_main_v79 (F := Ideal) x0 x1 x2 x3 x4 x5 x6 x7 x8 x9) := rfl

/-- The reference's new positions are the tail applied to its position contributions. -/
theorem ref_pos : val_main_v120 (F := Ideal) x0 x1 x2 x3 x4 x5 x6 x7 x14 x15 x16
    = posTail x0 x2 (val_main_v101 (F := Ideal) x0 x1 x2 x3 x4 x5 x6 x7 x14 x15 x16) := rfl

end Reference

/-! ## The kernel program's host stretches, read from any contents -/

section Kernel

open Cert.KernelIdeal Cert.KernelIdeal.Gen

variable (Wv : Valuation τ sig (Elt Ideal))

/-- Discharges "no operation of the named stretch writes this buffer": each operation writes one buffer, and it is another. -/
macro "host_untouched " ops:ident : tactic =>
  `(tactic| (refine (List.forall_iff_forall_mem.mp ?_); simp only [$ops:ident, TRef.unary, TRef.ternary, List.Forall, nullary_writes, unary_writes, binary_writes, ternary_writes, quaternary_writes, reshape_writes, binaryIndexed_writes, Finset.mem_singleton]; (repeat' apply And.intro) <;> exact devRef_ne_of_ne (by decide)))

/-- The first stretch leaves the reference's gather x[edge_i] in the edge kernel's first operand, -/
theorem entry_v6 : after (hostOps0 (F := Ideal)) Wv (Proc.devRef .tc main_v6)
    = Cert.ReferenceIdeal.ReadP.val_main_v6 (F := Ideal) (Wv (Proc.devRef .tc main_arg0)) (Wv (Proc.devRef .tc main_arg2)) := by
  host_read; rfl
/-- x[edge_j] in the second, -/
theorem entry_v13 : after (hostOps0 (F := Ideal)) Wv (Proc.devRef .tc main_v13)
    = Cert.ReferenceIdeal.ReadP.val_main_v13 (F := Ideal) (Wv (Proc.devRef .tc main_arg0)) (Wv (Proc.devRef .tc main_arg3)) := by
  host_read; rfl
/-- h[edge_i] in the third, -/
theorem entry_v20 : after (hostOps0 (F := Ideal)) Wv (Proc.devRef .tc main_v20)
    = Cert.ReferenceIdeal.ReadP.val_main_v49 (F := Ideal) (Wv (Proc.devRef .tc main_arg1)) (Wv (Proc.devRef .tc main_arg2)) := by
  host_read; rfl
/-- h[edge_j] in the fourth, -/
theorem entry_v27 : after (hostOps0 (F := Ideal)) Wv (Proc.devRef .tc main_v27)
    = Cert.ReferenceIdeal.ReadP.val_main_v56 (F := Ideal) (Wv (Proc.devRef .tc main_arg1)) (Wv (Proc.devRef .tc main_arg3)) := by
  host_read; rfl
/-- and leaves alone every buffer none of its operations writes. -/
theorem entry_untouched (b : Ref sig .tc) (h : ∀ op ∈ (hostOps0 (F := Ideal)), Proc.devRef (τ := τ) .tc b ∉ op.writes) :
    after (hostOps0 (F := Ideal)) Wv (Proc.devRef .tc b) = Wv (Proc.devRef .tc b) :=
  after_of_forall_not_mem _ _ h

set_option maxRecDepth 65536 in
/-- The three stretches between the regions leave in the node kernel's second operand the per-node sum of the
    gated-message array, -/
theorem mid_v31 : after (hostOps1_2 (F := Ideal)) (after (hostOps1_1 (F := Ideal)) (after (hostOps1 (F := Ideal)) Wv)) (Proc.devRef .tc main_v31)
    = msgSum (Wv (Proc.devRef .tc main_arg2)) (Wv (Proc.devRef .tc main_v28_0)) := by
  simp only [hostOps1_1, TRef.unary, TRef.ternary]
  host_read
  rfl
set_option maxRecDepth 65536 in
/-- in the positions' result buffer the reference's tail of the position-contribution array, -/
theorem mid_v50 : after (hostOps1_2 (F := Ideal)) (after (hostOps1_1 (F := Ideal)) (after (hostOps1 (F := Ideal)) Wv)) (Proc.devRef .tc main_v50)
    = posTail (Wv (Proc.devRef .tc main_arg0)) (Wv (Proc.devRef .tc main_arg2)) (Wv (Proc.devRef .tc main_v28_1)) := by
  simp only [hostOps1_1, TRef.unary, TRef.ternary]
  host_read
  rfl
/-- and leave alone every buffer none of their operations writes. -/
theorem mid_untouched (b : Ref sig .tc) (h1 : ∀ op ∈ (hostOps1 (F := Ideal)), Proc.devRef (τ := τ) .tc b ∉ op.writes)
    (h2 : ∀ op ∈ (hostOps1_1 (F := Ideal)), Proc.devRef (τ := τ) .tc b ∉ op.writes)
    (h3 : ∀ op ∈ (hostOps1_2 (F := Ideal)), Proc.devRef (τ := τ) .tc b ∉ op.writes) :
    after (hostOps1_2 (F := Ideal)) (after (hostOps1_1 (F := Ideal)) (after (hostOps1 (F := Ideal)) Wv)) (Proc.devRef .tc b) = Wv (Proc.devRef .tc b) :=
  (after_of_forall_not_mem _ _ h3).trans ((after_of_forall_not_mem _ _ h2).trans (after_of_forall_not_mem _ _ h1))

end Kernel

/-! ## The kernel program's results -/

section Results

open Cert.KernelIdeal Cert.KernelIdeal.Gen

variable (m : (ℓ : Loc nD τ sig) → Buf (Elt Ideal) ℓ) (ρ : Dev nD → PrngReg) (c : Dev nD)

/-- Argument 0 at launch. -/
abbrev a0 := m ((c.tc : Thread nD τ).loc main_arg0)
/-- Argument 1 at launch. -/
abbrev a1 := m ((c.tc : Thread nD τ).loc main_arg1)
/-- Argument 2 at launch. -/
abbrev a2 := m ((c.tc : Thread nD τ).loc main_arg2)
/-- Argument 3 at launch. -/
abbrev a3 := m ((c.tc : Thread nD τ).loc main_arg3)
/-- Argument 4 at launch. -/
abbrev a4 := m ((c.tc : Thread nD τ).loc main_arg4)
/-- Argument 5 at launch. -/
abbrev a5 := m ((c.tc : Thread nD τ).loc main_arg5)
/-- Argument 6 at launch. -/
abbrev a6 := m ((c.tc : Thread nD τ).loc main_arg6)
/-- Argument 7 at launch. -/
abbrev a7 := m ((c.tc : Thread nD τ).loc main_arg7)
/-- Argument 8 at launch. -/
abbrev a8 := m ((c.tc : Thread nD τ).loc main_arg8)
/-- Argument 9 at launch. -/
abbrev a9 := m ((c.tc : Thread nD τ).loc main_arg9)
/-- Argument 10 at launch. -/
abbrev a10 := m ((c.tc : Thread nD τ).loc main_arg10)
/-- Argument 11 at launch. -/
abbrev a11 := m ((c.tc : Thread nD τ).loc main_arg11)
/-- Argument 12 at launch. -/
abbrev a12 := m ((c.tc : Thread nD τ).loc main_arg12)
/-- Argument 13 at launch. -/
abbrev a13 := m ((c.tc : Thread nD τ).loc main_arg13)
/-- Argument 14 at launch. -/
abbrev a14 := m ((c.tc : Thread nD τ).loc main_arg14)
/-- Argument 15 at launch. -/
abbrev a15 := m ((c.tc : Thread nD τ).loc main_arg15)
/-- Argument 16 at launch. -/
abbrev a16 := m ((c.tc : Thread nD τ).loc main_arg16)

/-- A buffer the first stretch does not write holds its launch contents when the edge kernel's region is entered, -/
theorem W1_arg (b : Ref sig .tc) (h : ∀ op ∈ (hostOps0 (F := Ideal)), Proc.devRef (τ := τ) .tc b ∉ op.writes) :
    W1 m ρ c (Proc.devRef .tc b) = m ((c.tc : Thread nD τ).loc b) :=
  entry_untouched (W0 m ρ c) b h

/-- and, if it is not one of the region's arrays, when the region is left. -/
theorem W2_arg (b : Ref sig .tc) (hne : ∀ w, Pipeline.arrRef spec0 w ≠ b)
    (h : ∀ op ∈ (hostOps0 (F := Ideal)), Proc.devRef (τ := τ) .tc b ∉ op.writes) :
    W2 m ρ c (Proc.devRef .tc b) = m ((c.tc : Thread nD τ).loc b) :=
  (W2_of_ne m ρ c b hne).trans (W1_arg m ρ c b h)

/-- The edge kernel's gated-message array is the reference's. -/
theorem wgm_eq : wgmArr (V1 m ρ) c
    = Cert.ReferenceIdeal.ReadP.val_main_v79 (F := Ideal) (a0 m c) (a1 m c) (a2 m c) (a3 m c) (a4 m c) (a5 m c) (a6 m c) (a7 m c) (a8 m c) (a9 m c) := by
  funext i
  obtain ⟨r, q, rfl⟩ : ∃ (r : Fin 800000) (q : Fin 96), i = ix2 r q := ⟨i 0, i 1, eq_ix2 i⟩
  refine Eq.trans ?_ (RefRows.ref_wgm_apply (a0 m c) (a1 m c) (a2 m c) (a3 m c) (a4 m c) (a5 m c) (a6 m c) (a7 m c) (a8 m c) (a9 m c) r q).symm
  exact wgmRow_congr
    (congrArg (fun x : S800000x4.Idx → EReal => row x r) (entry_v6 (W0 m ρ c)))
    (congrArg (fun x : S800000x4.Idx → EReal => row x r) (entry_v13 (W0 m ρ c)))
    (congrArg (fun x : S800000x96.Idx → EReal => row x r) (entry_v20 (W0 m ρ c)))
    (congrArg (fun x : S800000x96.Idx → EReal => row x r) (entry_v27 (W0 m ρ c)))
    (congrArg (fun x : S194x96.Idx → EReal => mat x) (W1_arg m ρ c main_arg4 (by host_untouched hostOps0)))
    (congrArg (fun x : S96.Idx → EReal => vec x) (W1_arg m ρ c main_arg5 (by host_untouched hostOps0)))
    (congrArg (fun x : S96x96.Idx → EReal => mat x) (W1_arg m ρ c main_arg6 (by host_untouched hostOps0)))
    (congrArg (fun x : S96.Idx → EReal => vec x) (W1_arg m ρ c main_arg7 (by host_untouched hostOps0)))
    (congrArg (fun x : S96x1.Idx → EReal => mat x) (W1_arg m ρ c main_arg8 (by host_untouched hostOps0)))
    (congrArg (fun x : S1.Idx → EReal => vec x) (W1_arg m ρ c main_arg9 (by host_untouched hostOps0))) q

/-- The edge kernel's position-contribution array is the reference's. -/
theorem vals_eq : valsArr (V1 m ρ) c
    = Cert.ReferenceIdeal.ReadP.val_main_v101 (F := Ideal) (a0 m c) (a1 m c) (a2 m c) (a3 m c) (a4 m c) (a5 m c) (a6 m c) (a7 m c) (a14 m c) (a15 m c) (a16 m c) := by
  funext i
  obtain ⟨r, j, rfl⟩ : ∃ (r : Fin 800000) (j : Fin 4), i = ix2 r j := ⟨i 0, i 1, eq_ix2 i⟩
  refine Eq.trans ?_ (RefRows.ref_vals_apply (a0 m c) (a1 m c) (a2 m c) (a3 m c) (a4 m c) (a5 m c) (a6 m c) (a7 m c) (a14 m c) (a15 m c) (a16 m c) r j).symm
  exact valsRow_congr
    (congrArg (fun x : S800000x4.Idx → EReal => row x r) (entry_v6 (W0 m ρ c)))
    (congrArg (fun x : S800000x4.Idx → EReal => row x r) (entry_v13 (W0 m ρ c)))
    (congrArg (fun x : S800000x96.Idx → EReal => row x r) (entry_v20 (W0 m ρ c)))
    (congrArg (fun x : S800000x96.Idx → EReal => row x r) (entry_v27 (W0 m ρ c)))
    (congrArg (fun x : S194x96.Idx → EReal => mat x) (W1_arg m ρ c main_arg4 (by host_untouched hostOps0)))
    (congrArg (fun x : S96.Idx → EReal => vec x) (W1_arg m ρ c main_arg5 (by host_untouched hostOps0)))
    (congrArg (fun x : S96x96.Idx → EReal => mat x) (W1_arg m ρ c main_arg6 (by host_untouched hostOps0)))
    (congrArg (fun x : S96.Idx → EReal => vec x) (W1_arg m ρ c main_arg7 (by host_untouched hostOps0)))
    (congrArg (fun x : S96x96.Idx → EReal => mat x) (W1_arg m ρ c main_arg14 (by host_untouched hostOps0)))
    (congrArg (fun x : S96.Idx → EReal => vec x) (W1_arg m ρ c main_arg15 (by host_untouched hostOps0)))
    (congrArg (fun x : S96x1.Idx → EReal => mat x) (W1_arg m ρ c main_arg16 (by host_untouched hostOps0))) j

/-- When the edge kernel's region is left its first output array holds the reference's gated messages, -/
theorem W2_wgm : W2 m ρ c (Proc.devRef .tc main_v28_0)
    = Cert.ReferenceIdeal.ReadP.val_main_v79 (F := Ideal) (a0 m c) (a1 m c) (a2 m c) (a3 m c) (a4 m c) (a5 m c) (a6 m c) (a7 m c) (a8 m c) (a9 m c) :=
  (W2_arr m ρ c 13).trans ((final13 (V1 m ρ) c).trans (wgm_eq m ρ c))

/-- and its second the reference's position contributions. -/
theorem W2_vals : W2 m ρ c (Proc.devRef .tc main_v28_1)
    = Cert.ReferenceIdeal.ReadP.val_main_v101 (F := Ideal) (a0 m c) (a1 m c) (a2 m c) (a3 m c) (a4 m c) (a5 m c) (a6 m c) (a7 m c) (a14 m c) (a15 m c) (a16 m c) :=
  (W2_arr m ρ c 14).trans ((final14 (V1 m ρ) c).trans (vals_eq m ρ c))

/-- The new positions: the reference's. -/
theorem x_out_eq : W6 m ρ c (Proc.devRef .tc main_v50)
    = Cert.ReferenceIdeal.ReadP.val_main_v120 (F := Ideal) (a0 m c) (a1 m c) (a2 m c) (a3 m c) (a4 m c) (a5 m c) (a6 m c) (a7 m c) (a14 m c) (a15 m c) (a16 m c) := by
  rw [W6_of_ne m ρ c main_v50 (by decide)]
  refine (mid_v50 (W2 m ρ c)).trans ?_
  rw [W2_arg m ρ c main_arg0 (by decide) (by host_untouched hostOps0), W2_arg m ρ c main_arg2 (by decide) (by host_untouched hostOps0), W2_vals m ρ c]
  exact (ref_pos (a0 m c) (a1 m c) (a2 m c) (a3 m c) (a4 m c) (a5 m c) (a6 m c) (a7 m c) (a14 m c) (a15 m c) (a16 m c)).symm

/-- The summed gated messages the node kernel's region finds are the reference's. -/
theorem V5_wm : W5 m ρ c (Proc.devRef .tc main_v31)
    = Cert.ReferenceIdeal.ReadP.val_main_v82 (F := Ideal) (a0 m c) (a1 m c) (a2 m c) (a3 m c) (a4 m c) (a5 m c) (a6 m c) (a7 m c) (a8 m c) (a9 m c) := by
  refine (mid_v31 (W2 m ρ c)).trans ?_
  rw [W2_arg m ρ c main_arg2 (by decide) (by host_untouched hostOps0), W2_wgm m ρ c]
  exact (ref_wm (a0 m c) (a1 m c) (a2 m c) (a3 m c) (a4 m c) (a5 m c) (a6 m c) (a7 m c) (a8 m c) (a9 m c)).symm

/-- A buffer no host operation writes and the edge kernel's region does not own holds its launch contents when the node
    kernel's region is entered. -/
theorem V5_arg (b : Ref sig .tc) (hne : ∀ w, Pipeline.arrRef spec0 w ≠ b)
    (h0 : ∀ op ∈ (hostOps0 (F := Ideal)), Proc.devRef (τ := τ) .tc b ∉ op.writes)
    (h1 : ∀ op ∈ (hostOps1 (F := Ideal)), Proc.devRef (τ := τ) .tc b ∉ op.writes)
    (h2 : ∀ op ∈ (hostOps1_1 (F := Ideal)), Proc.devRef (τ := τ) .tc b ∉ op.writes)
    (h3 : ∀ op ∈ (hostOps1_2 (F := Ideal)), Proc.devRef (τ := τ) .tc b ∉ op.writes) :
    W5 m ρ c (Proc.devRef .tc b) = m ((c.tc : Thread nD τ).loc b) :=
  (mid_untouched (W2 m ρ c) b h1 h2 h3).trans (W2_arg m ρ c b hne h0)

/-- The new features: the reference's. -/
theorem h_out_eq : W6 m ρ c (Proc.devRef .tc main_v51)
    = Cert.ReferenceIdeal.ReadP.val_main_v93 (F := Ideal) (a0 m c) (a1 m c) (a2 m c) (a3 m c) (a4 m c) (a5 m c) (a6 m c) (a7 m c) (a8 m c) (a9 m c) (a10 m c) (a11 m c) (a12 m c) (a13 m c) := by
  refine (W6_arr m ρ c 6).trans ((final6 (V5 m ρ) c).trans ?_)
  funext i
  obtain ⟨r, q, rfl⟩ : ∃ (r : Fin 50000) (q : Fin 96), i = ix2 r q := ⟨i 0, i 1, eq_ix2 i⟩
  refine Eq.trans ?_ (RefNodeRows.ref_node_apply (a0 m c) (a1 m c) (a2 m c) (a3 m c) (a4 m c) (a5 m c) (a6 m c) (a7 m c) (a8 m c) (a9 m c) (a10 m c) (a11 m c) (a12 m c) (a13 m c) r q).symm
  exact nodeRow_congr
    (congrArg (fun x : S50000x96.Idx → EReal => row x r) (V5_arg m ρ c main_arg1 (by decide) (by host_untouched hostOps0) (by host_untouched hostOps1) (by host_untouched hostOps1_1) (by host_untouched hostOps1_2)))
    (congrArg (fun x : S50000x96.Idx → EReal => row x r) (V5_wm m ρ c))
    (congrArg (fun x : S192x96.Idx → EReal => mat x) (V5_arg m ρ c main_arg10 (by decide) (by host_untouched hostOps0) (by host_untouched hostOps1) (by host_untouched hostOps1_1) (by host_untouched hostOps1_2)))
    (congrArg (fun x : S96.Idx → EReal => vec x) (V5_arg m ρ c main_arg11 (by decide) (by host_untouched hostOps0) (by host_untouched hostOps1) (by host_untouched hostOps1_1) (by host_untouched hostOps1_2)))
    (congrArg (fun x : S96x96.Idx → EReal => mat x) (V5_arg m ρ c main_arg12 (by decide) (by host_untouched hostOps0) (by host_untouched hostOps1) (by host_untouched hostOps1_1) (by host_untouched hostOps1_2)))
    (congrArg (fun x : S96.Idx → EReal => vec x) (V5_arg m ρ c main_arg13 (by decide) (by host_untouched hostOps0) (by host_untouched hostOps1) (by host_untouched hostOps1_1) (by host_untouched hostOps1_2))) q

end Results

end Cert.Egnn.Bridge

end
-- ==== Proof.lean ====
/-
  One layer of Minkowski-invariant message passing: the fused kernels against the plain reference, over the extended reals.

  The kernel program gathers the endpoint rows x[edge_i], x[edge_j], h[edge_i], h[edge_j] on the host, computes per edge,
  in one kernel over blocks of 1600 edges, the gated message σ(m·Wm + bm)·m and the position contribution φ·x[edge_j] of
  the message m = relu(relu([h_i | h_j | ψ(norm) | ψ(prod)]·We1 + be1)·We2 + be2), sums both per node on the host,
  finishes the positions there (x + 0.005 · mean), and computes the new features h + relu([h | w]·Wh1 + bh1)·Wh2 + bh2
  in a second kernel over blocks of 5000 nodes. The reference computes the same quantities with host operations only.

  At the exact values the two agree entry by entry. A change of float format is the identity; a matrix-unit product into
  a zero accumulator and the host's product are both the plain sum over the contracted index, and a lane sum and the
  host's sum both the plain sum, whatever the blocking; the kernel's sign, built from the sign bit, and the host's sign
  are one function on the extended reals (0 ↦ 0, ±∞ ↦ ±1), and so are the kernel's logistic and the host's
  1 / (1 + e⁻ˣ). No law that needs finiteness is used: the two sides are the same operations in the same order, row by
  row, so the precondition is never opened.

  The frames of the two kernel programs are the generated ones. The reference's frame is its generated run with the
  results dropped. The idealization's two rewrites are the sign-bit rule's statement, twice. For the value claim the
  kernel program's run names its two results as the last boundary's contents (ValueRun), those are shown to be the
  reference's two stages as whole arrays (Bridge, over MessageRows, KernelRows, RefRows, RefNodeRows, BlockReads, EdgeArrays and NodeArrays),
  and the reference's run names its results as those stages.
-/
import proofs.«140980_j89833535963776_1_alg».proof.Defs
import proofs.«140980_j89833535963776_1_alg».proof.Proof.Gen.Kernel
import proofs.«140980_j89833535963776_1_alg».proof.Proof.Gen.Kernel.Skeleton
import proofs.«140980_j89833535963776_1_alg».proof.Proof.Gen.Kernel.Launch
import proofs.«140980_j89833535963776_1_alg».proof.Proof.Gen.Kernel.Points
import proofs.«140980_j89833535963776_1_alg».proof.Proof.Gen.Kernel.Frame
import proofs.«140980_j89833535963776_1_alg».proof.Proof.Gen.KernelIdeal
import proofs.«140980_j89833535963776_1_alg».proof.Proof.Gen.KernelIdeal.Skeleton
import proofs.«140980_j89833535963776_1_alg».proof.Proof.Gen.KernelIdeal.Launch
import proofs.«140980_j89833535963776_1_alg».proof.Proof.Gen.KernelIdeal.Points
import proofs.«140980_j89833535963776_1_alg».proof.Proof.Gen.KernelIdeal.Frame
import proofs.«140980_j89833535963776_1_alg».proof.Proof.Gen.ReferenceIdeal
import proofs.«140980_j89833535963776_1_alg».proof.Proof.RunPatched
import proofs.«140980_j89833535963776_1_alg».proof.Proof.ReadPatched
import proofs.«140980_j89833535963776_1_alg».proof.Proof.Gen.Pre_finite_inputs
import proofs.«140980_j89833535963776_1_alg».proof.Proof.ValueRun
import proofs.«140980_j89833535963776_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments as launched: its run, the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- The two rewrites of the idealization: 1.0 with a value's sign bit is −1 or 1 by the value's sign, for the norm
    invariant and for the product invariant. -/
theorem preserves : Cert.preserves_Kernel_KernelIdeal :=
  ⟨IdealRules.sign_bit.statement Cert.KernelIdeal.S1600x1 .f32, IdealRules.sign_bit.statement Cert.KernelIdeal.S1600x1 .f32⟩

/-- The reference's run names its new features by the composed term of its operations; that term is the last stage. -/
theorem ref_features_eq (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v93 m c
      = Cert.ReferenceIdeal.ReadP.val_main_v93 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) := by
  unfold Cert.ReferenceIdeal.ValueP.res_main_v93; rfl

/-- Likewise its new positions. -/
theorem ref_positions_eq (m : (ℓ : Loc Cert.ReferenceIdeal.nD Cert.ReferenceIdeal.τ Cert.ReferenceIdeal.sig) → Buf (Elt Ideal) ℓ) (c : Dev Cert.ReferenceIdeal.nD) :
    Cert.ReferenceIdeal.ValueP.res_main_v120 m c
      = Cert.ReferenceIdeal.ReadP.val_main_v120 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) := by
  unfold Cert.ReferenceIdeal.ValueP.res_main_v120; rfl

/-- From memories agreeing on the seventeen arguments both programs run, and end with equal new features and equal new
    positions: the kernel program's results are the reference's stages of the arguments (Bridge), and the reference's run
    ends at those stages. -/
theorem algebraic : Cert.algebraic_KernelIdeal_ReferenceIdeal := by
  intro m ρ m' ρ' _ hagree
  refine ⟨fun c => Cert.KernelIdeal.Gen.W6 m ρ c (Proc.devRef .tc Cert.KernelIdeal.main_v51),
    fun c => Cert.KernelIdeal.Gen.W6 m ρ c (Proc.devRef .tc Cert.KernelIdeal.main_v50),
    Cert.KernelIdeal.ValueRun.run (F := Ideal) m ρ, ?_⟩
  refine (θ_run Cert.ReferenceIdeal.defs _ _).mono (fun _ h c => ?_) (Cert.ReferenceIdeal.ValueP.run (F := Ideal) m' ρ')
  obtain ⟨g0, g1, g2, g3, g4, g5, g6, g7, g8, g9, g10, g11, g12, g13, g14, g15, g16⟩ := hagree c
  refine ⟨(h c).1.trans ?_, (h c).2.1.trans ?_, (h c).2.2⟩
  · rw [ref_features_eq, g0, g1, g2, g3, g4, g5, g6, g7, g8, g9, g10, g11, g12, g13]
    exact (Cert.Egnn.Bridge.h_out_eq m ρ c).symm
  · rw [ref_positions_eq, g0, g1, g2, g3, g4, g5, g6, g7, g14, g15, g16]
    exact (Cert.Egnn.Bridge.x_out_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
